-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v202)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v202) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x128x128 : Shape := ⟨3, ![4, 128, 128]⟩
abbrev S4x128 : Shape := ⟨2, ![4, 128]⟩
abbrev S128x32 : Shape := ⟨2, ![128, 32]⟩
abbrev S32 : Shape := ⟨1, ![32]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S128x32 .f32) (main_arg8 : FVec F S32 .f32) (main_v33 : IVec S_ 1) : IVec S_ 1 :=
  let main_v34 : FVec F S128x32 .f32 := Host.absf main_arg7
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg4 : FVec F S4x128 .f32) (main_arg5 : FVec F S4x128 .f32) (main_arg6 : FVec F S4x128 .f32) (main_arg7 : FVec F S128x32 .f32) (main_arg8 : FVec F S32 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg6
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S4x128x128 .f32) (main_arg2 : FVec F S4x128 .f32) (main_arg3 : FVec F S4x128x128 .f32) (main_arg4 : FVec F S4x128 .f32) (main_arg5 : FVec F S4x128 .f32) (main_arg6 : FVec F S4x128 .f32) (main_arg7 : FVec F S128x32 .f32) (main_arg8 : FVec F S32 .f32) (main_arg9 : IVec S1600000 32) (main_arg10 : IVec S1600000 32) (main_arg11 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S4x128x128 : Shape := ⟨3, ![4, 128, 128]⟩
abbrev S4x128 : Shape := ⟨2, ![4, 128]⟩
abbrev S128x32 : Shape := ⟨2, ![128, 32]⟩
abbrev S32 : Shape := ⟨1, ![32]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S64 : Shape := ⟨1, ![64]⟩
abbrev S64x1 : Shape := ⟨2, ![64, 1]⟩
abbrev S64x128 : Shape := ⟨2, ![64, 128]⟩
abbrev S64x32 : Shape := ⟨2, ![64, 32]⟩
abbrev S1x32 : Shape := ⟨2, ![1, 32]⟩

abbrev nBuf : Space → Nat
  | .hbm => 254
  | .vmem => 72
  | .smem => 0
  | _ => 0

abbrev hbmTy0_0 (i : Nat) : BufTy := match i % 128 with
  | 0 => ⟨S100000x128, .f32⟩
  | 1 => ⟨S4x128x128, .f32⟩
  | 2 => ⟨S4x128, .f32⟩
  | 3 => ⟨S4x128x128, .f32⟩
  | 4 => ⟨S4x128, .f32⟩
  | 5 => ⟨S4x128, .f32⟩
  | 6 => ⟨S4x128, .f32⟩
  | 7 => ⟨S128x32, .f32⟩
  | 8 => ⟨S32, .f32⟩
  | 9 => ⟨S1600000, .i32⟩
  | 10 => ⟨S1600000, .i32⟩
  | 11 => ⟨S100000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000x1, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x128, .f32⟩
  | 36 => ⟨S100000x128, .f32⟩
  | 37 => ⟨S1x128x128, .f32⟩
  | 38 => ⟨S128x128, .f32⟩
  | 39 => ⟨S1x128, .f32⟩
  | 40 => ⟨S128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S1x128, .f32⟩
  | 47 => ⟨S100000x128, .f32⟩
  | 48 => ⟨S_, .f32⟩
  | 49 => ⟨S128, .f32⟩
  | 50 => ⟨S_, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S100000x128, .f32⟩
  | 57 => ⟨S_, .f32⟩
  | 58 => ⟨S128, .f32⟩
  | 59 => ⟨S_, .f32⟩
  | 60 => ⟨S128, .f32⟩
  | 61 => ⟨S128, .f32⟩
  | 62 => ⟨S_, .f32⟩
  | 63 => ⟨S128, .f32⟩
  | 64 => ⟨S128, .f32⟩
  | 65 => ⟨S128, .f32⟩
  | 66 => ⟨S1x128, .f32⟩
  | 67 => ⟨S128, .f32⟩
  | 68 => ⟨S1x128, .f32⟩
  | 69 => ⟨S128, .f32⟩
  | 70 => ⟨S1x128, .f32⟩
  | 71 => ⟨S1x128, .f32⟩
  | 72 => ⟨S1x128, .f32⟩
  | 73 => ⟨S1x128, .f32⟩
  | 74 => ⟨S100000x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S_, .f32⟩
  | 85 => ⟨S100000x128, .f32⟩
  | 86 => ⟨S1600000x1, .i32⟩
  | 87 => ⟨S100000x128, .f32⟩
  | 88 => ⟨S100000x128, .f32⟩
  | 89 => ⟨S100000x128, .f32⟩
  | 90 => ⟨S1x128x128, .f32⟩
  | 91 => ⟨S128x128, .f32⟩
  | 92 => ⟨S1x128, .f32⟩
  | 93 => ⟨S128, .f32⟩
  | 94 => ⟨S1x128x128, .f32⟩
  | 95 => ⟨S128x128, .f32⟩
  | 96 => ⟨S1x128, .f32⟩
  | 97 => ⟨S128, .f32⟩
  | 98 => ⟨S1x128, .f32⟩
  | 99 => ⟨S1x128, .f32⟩
  | 100 => ⟨S100000x128, .f32⟩
  | 101 => ⟨S_, .f32⟩
  | 102 => ⟨S128, .f32⟩
  | 103 => ⟨S_, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S100000x128, .f32⟩
  | 110 => ⟨S_, .f32⟩
  | 111 => ⟨S128, .f32⟩
  | 112 => ⟨S_, .f32⟩
  | 113 => ⟨S128, .f32⟩
  | 114 => ⟨S128, .f32⟩
  | 115 => ⟨S_, .f32⟩
  | 116 => ⟨S128, .f32⟩
  | 117 => ⟨S128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S1x128, .f32⟩
  | 125 => ⟨S1x128, .f32⟩
  | 126 => ⟨S1x128, .f32⟩
  | 127 => ⟨S100000x128, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S100000x128, .f32⟩
  | 14 => ⟨S100000x128, .f32⟩
  | 15 => ⟨S1x128x128, .f32⟩
  | 16 => ⟨S128x128, .f32⟩
  | 17 => ⟨S1x128, .f32⟩
  | 18 => ⟨S128, .f32⟩
  | 19 => ⟨S1x128x128, .f32⟩
  | 20 => ⟨S128x128, .f32⟩
  | 21 => ⟨S1x128, .f32⟩
  | 22 => ⟨S128, .f32⟩
  | 23 => ⟨S1x128, .f32⟩
  | 24 => ⟨S1x128, .f32⟩
  | 25 => ⟨S100000x128, .f32⟩
  | 26 => ⟨S_, .f32⟩
  | 27 => ⟨S128, .f32⟩
  | 28 => ⟨S_, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S100000x128, .f32⟩
  | 35 => ⟨S_, .f32⟩
  | 36 => ⟨S128, .f32⟩
  | 37 => ⟨S_, .f32⟩
  | 38 => ⟨S128, .f32⟩
  | 39 => ⟨S128, .f32⟩
  | 40 => ⟨S_, .f32⟩
  | 41 => ⟨S128, .f32⟩
  | 42 => ⟨S128, .f32⟩
  | 43 => ⟨S128, .f32⟩
  | 44 => ⟨S1x128, .f32⟩
  | 45 => ⟨S128, .f32⟩
  | 46 => ⟨S1x128, .f32⟩
  | 47 => ⟨S128, .f32⟩
  | 48 => ⟨S1x128, .f32⟩
  | 49 => ⟨S1x128, .f32⟩
  | 50 => ⟨S1x128, .f32⟩
  | 51 => ⟨S1x128, .f32⟩
  | 52 => ⟨S100000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000x128, .f32⟩
  | 67 => ⟨S100000x128, .f32⟩
  | 68 => ⟨S1x128x128, .f32⟩
  | 69 => ⟨S128x128, .f32⟩
  | 70 => ⟨S1x128, .f32⟩
  | 71 => ⟨S128, .f32⟩
  | 72 => ⟨S1x128x128, .f32⟩
  | 73 => ⟨S128x128, .f32⟩
  | 74 => ⟨S1x128, .f32⟩
  | 75 => ⟨S128, .f32⟩
  | 76 => ⟨S1x128, .f32⟩
  | 77 => ⟨S1x128, .f32⟩
  | 78 => ⟨S100000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S100000x128, .f32⟩
  | 88 => ⟨S_, .f32⟩
  | 89 => ⟨S128, .f32⟩
  | 90 => ⟨S_, .f32⟩
  | 91 => ⟨S128, .f32⟩
  | 92 => ⟨S128, .f32⟩
  | 93 => ⟨S_, .f32⟩
  | 94 => ⟨S128, .f32⟩
  | 95 => ⟨S128, .f32⟩
  | 96 => ⟨S128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S1x128, .f32⟩
  | 103 => ⟨S1x128, .f32⟩
  | 104 => ⟨S1x128, .f32⟩
  | 105 => ⟨S100000x128, .f32⟩
  | 106 => ⟨S_, .f32⟩
  | 107 => ⟨S100000, .f32⟩
  | 108 => ⟨S_, .f32⟩
  | 109 => ⟨S64, .f32⟩
  | 110 => ⟨S100000x1, .i32⟩
  | 111 => ⟨S64, .f32⟩
  | 112 => ⟨S_, .f32⟩
  | 113 => ⟨S64, .f32⟩
  | 114 => ⟨S64, .f32⟩
  | 115 => ⟨S64x1, .f32⟩
  | 116 => ⟨S_, .f32⟩
  | 117 => ⟨S64x128, .f32⟩
  | 118 => ⟨S100000x1, .i32⟩
  | 119 => ⟨S64x128, .f32⟩
  | 120 => ⟨S64x128, .f32⟩
  | 121 => ⟨S64x128, .f32⟩
  | 122 => ⟨S64x32, .f32⟩
  | 123 => ⟨S1x32, .f32⟩
  | 124 => ⟨S64x32, .f32⟩
  | 125 => ⟨S64x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S1x128, .f32⟩
  | .local _ .vmem, ⟨60, _⟩ => ⟨S128x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_12 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_14 : Ref sig .tc := ⟨.hbm, 110, rfl⟩
abbrev main_v82 : Ref sig .tc := ⟨.hbm, 111, rfl⟩
abbrev main_cst_15 : Ref sig .tc := ⟨.hbm, 112, rfl⟩
abbrev main_v83 : Ref sig .tc := ⟨.hbm, 113, rfl⟩
abbrev main_v84 : Ref sig .tc := ⟨.hbm, 114, rfl⟩
abbrev main_cst_16 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_17 : Ref sig .tc := ⟨.hbm, 128, rfl⟩
abbrev main_v97 : Ref sig .tc := ⟨.hbm, 129, rfl⟩
abbrev main_v98 : Ref sig .tc := ⟨.hbm, 130, rfl⟩
abbrev main_c_18 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_19 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_20 : Ref sig .tc := ⟨.hbm, 154, rfl⟩
abbrev main_v120 : Ref sig .tc := ⟨.hbm, 155, rfl⟩
abbrev main_cst_21 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_22 : Ref sig .tc := ⟨.hbm, 163, rfl⟩
abbrev main_v127 : Ref sig .tc := ⟨.hbm, 164, rfl⟩
abbrev main_cst_23 : Ref sig .tc := ⟨.hbm, 165, rfl⟩
abbrev main_v128 : Ref sig .tc := ⟨.hbm, 166, rfl⟩
abbrev main_v129 : Ref sig .tc := ⟨.hbm, 167, rfl⟩
abbrev main_cst_24 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_c_25 : Ref sig .tc := ⟨.hbm, 181, rfl⟩
abbrev main_v142 : Ref sig .tc := ⟨.hbm, 182, rfl⟩
abbrev main_v143 : Ref sig .tc := ⟨.hbm, 183, rfl⟩
abbrev main_c_26 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_cst_27 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_28 : Ref sig .tc := ⟨.hbm, 207, rfl⟩
abbrev main_v165 : Ref sig .tc := ⟨.hbm, 208, rfl⟩
abbrev main_cst_29 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_cst_30 : Ref sig .tc := ⟨.hbm, 216, rfl⟩
abbrev main_v172 : Ref sig .tc := ⟨.hbm, 217, rfl⟩
abbrev main_cst_31 : Ref sig .tc := ⟨.hbm, 218, rfl⟩
abbrev main_v173 : Ref sig .tc := ⟨.hbm, 219, rfl⟩
abbrev main_v174 : Ref sig .tc := ⟨.hbm, 220, rfl⟩
abbrev main_cst_32 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_cst_33 : Ref sig .tc := ⟨.hbm, 234, rfl⟩
abbrev main_v187 : Ref sig .tc := ⟨.hbm, 235, rfl⟩
abbrev main_cst_34 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_cst_35 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_cst_36 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg6_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem6_1 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S64 : S_.BroadcastsInDim S64 (![] : Fin 0 → Fin S64.rank)
  bcast_S64_S64x1_0 : S64.BroadcastsInDim S64x1 (![0] : Fin 1 → Fin S64x1.rank)
  bcast_S_S64x128 : S_.BroadcastsInDim S64x128 (![] : Fin 0 → Fin S64x128.rank)
  bcast_S64x1_S64x128_0_1 : S64x1.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x32_S64x32_1_0_0_1_n_n_wf : DotDims.WF S64x128 S128x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S100000x128.size a
  hwx6_6 : ∀ i : grid6.Coords, EltTy.bits .f32 = 32 ∨ (Rect.block (s := S100000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v74) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v74) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v95) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v96) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v96) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v108) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v110) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v117) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v114) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v118) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v119) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v119) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v137) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v138) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v139) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v140) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v141) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v141) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v153) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v155) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v162) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v159) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v163) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v164) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v164) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v182) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v183) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v184) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v185) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v186) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x128 : Shape := ⟨2, ![100000, 128]⟩
abbrev S4x128x128 : Shape := ⟨3, ![4, 128, 128]⟩
abbrev S4x128 : Shape := ⟨2, ![4, 128]⟩
abbrev S128x32 : Shape := ⟨2, ![128, 32]⟩
abbrev S32 : Shape := ⟨1, ![32]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S64 : Shape := ⟨1, ![64]⟩
abbrev S64x1 : Shape := ⟨2, ![64, 1]⟩
abbrev S64x128 : Shape := ⟨2, ![64, 128]⟩
abbrev S64x32 : Shape := ⟨2, ![64, 32]⟩
abbrev S1x32 : Shape := ⟨2, ![1, 32]⟩

abbrev nBuf : Space → Nat
  | .hbm => 330
  | .vmem => 0
  | .smem => 0
  | _ => 0

abbrev hbmTy0_0 (i : Nat) : BufTy := match i % 128 with
  | 0 => ⟨S100000x128, .f32⟩
  | 1 => ⟨S4x128x128, .f32⟩
  | 2 => ⟨S4x128, .f32⟩
  | 3 => ⟨S4x128x128, .f32⟩
  | 4 => ⟨S4x128, .f32⟩
  | 5 => ⟨S4x128, .f32⟩
  | 6 => ⟨S4x128, .f32⟩
  | 7 => ⟨S128x32, .f32⟩
  | 8 => ⟨S32, .f32⟩
  | 9 => ⟨S1600000, .i32⟩
  | 10 => ⟨S1600000, .i32⟩
  | 11 => ⟨S100000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000x1, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x128, .f32⟩
  | 36 => ⟨S100000x128, .f32⟩
  | 37 => ⟨S100000x128, .f32⟩
  | 38 => ⟨S1x128x128, .f32⟩
  | 39 => ⟨S128x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S1x128x128, .f32⟩
  | 50 => ⟨S128x128, .f32⟩
  | 51 => ⟨S100000x128, .f32⟩
  | 52 => ⟨S1x128, .f32⟩
  | 53 => ⟨S128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S100000x128, .f32⟩
  | 108 => ⟨S100000x128, .f32⟩
  | 109 => ⟨S100000x128, .f32⟩
  | 110 => ⟨S1x128x128, .f32⟩
  | 111 => ⟨S128x128, .f32⟩
  | 112 => ⟨S100000x128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S1x128x128, .f32⟩
  | 122 => ⟨S128x128, .f32⟩
  | 123 => ⟨S100000x128, .f32⟩
  | 124 => ⟨S1x128, .f32⟩
  | 125 => ⟨S128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S128, .f32⟩
  | 3 => ⟨S_, .f32⟩
  | 4 => ⟨S128, .f32⟩
  | 5 => ⟨S128, .f32⟩
  | 6 => ⟨S1x128, .f32⟩
  | 7 => ⟨S100000x128, .f32⟩
  | 8 => ⟨S100000x128, .f32⟩
  | 9 => ⟨S100000x128, .f32⟩
  | 10 => ⟨S_, .f32⟩
  | 11 => ⟨S128, .f32⟩
  | 12 => ⟨S_, .f32⟩
  | 13 => ⟨S128, .f32⟩
  | 14 => ⟨S128, .f32⟩
  | 15 => ⟨S1x128, .f32⟩
  | 16 => ⟨S128, .f32⟩
  | 17 => ⟨S1x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S_, .f32⟩
  | 24 => ⟨S128, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S1x128, .f32⟩
  | 31 => ⟨S128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S_, .f32⟩
  | 48 => ⟨S100000x128, .f32⟩
  | 49 => ⟨S1600000x1, .i32⟩
  | 50 => ⟨S100000x128, .f32⟩
  | 51 => ⟨S100000x128, .f32⟩
  | 52 => ⟨S100000x128, .f32⟩
  | 53 => ⟨S100000x128, .f32⟩
  | 54 => ⟨S1x128x128, .f32⟩
  | 55 => ⟨S128x128, .f32⟩
  | 56 => ⟨S100000x128, .f32⟩
  | 57 => ⟨S1x128, .f32⟩
  | 58 => ⟨S128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S1x128x128, .f32⟩
  | 66 => ⟨S128x128, .f32⟩
  | 67 => ⟨S100000x128, .f32⟩
  | 68 => ⟨S1x128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S100000x128, .f32⟩
  | 82 => ⟨S_, .f32⟩
  | 83 => ⟨S128, .f32⟩
  | 84 => ⟨S_, .f32⟩
  | 85 => ⟨S128, .f32⟩
  | 86 => ⟨S128, .f32⟩
  | 87 => ⟨S1x128, .f32⟩
  | 88 => ⟨S128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S128, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S_, .f32⟩
  | 120 => ⟨S100000x128, .f32⟩
  | 121 => ⟨S1600000x1, .i32⟩
  | 122 => ⟨S100000x128, .f32⟩
  | 123 => ⟨S100000x128, .f32⟩
  | 124 => ⟨S100000x128, .f32⟩
  | 125 => ⟨S100000x128, .f32⟩
  | 126 => ⟨S1x128x128, .f32⟩
  | 127 => ⟨S128x128, .f32⟩
  | _ => ⟨S100000x128, .f32⟩

abbrev hbmTy0_2 (i : Nat) : BufTy := match i % 128 with
  | 0 => ⟨S100000x128, .f32⟩
  | 1 => ⟨S1x128, .f32⟩
  | 2 => ⟨S128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S1x128x128, .f32⟩
  | 10 => ⟨S128x128, .f32⟩
  | 11 => ⟨S100000x128, .f32⟩
  | 12 => ⟨S1x128, .f32⟩
  | 13 => ⟨S128, .f32⟩
  | 14 => ⟨S1x128, .f32⟩
  | 15 => ⟨S100000x128, .f32⟩
  | 16 => ⟨S100000x128, .f32⟩
  | 17 => ⟨S_, .f32⟩
  | 18 => ⟨S128, .f32⟩
  | 19 => ⟨S_, .f32⟩
  | 20 => ⟨S128, .f32⟩
  | 21 => ⟨S128, .f32⟩
  | 22 => ⟨S1x128, .f32⟩
  | 23 => ⟨S100000x128, .f32⟩
  | 24 => ⟨S100000x128, .f32⟩
  | 25 => ⟨S100000x128, .f32⟩
  | 26 => ⟨S_, .f32⟩
  | 27 => ⟨S128, .f32⟩
  | 28 => ⟨S_, .f32⟩
  | 29 => ⟨S128, .f32⟩
  | 30 => ⟨S128, .f32⟩
  | 31 => ⟨S1x128, .f32⟩
  | 32 => ⟨S128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S128, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S_, .f32⟩
  | 55 => ⟨S100000, .f32⟩
  | 56 => ⟨S_, .f32⟩
  | 57 => ⟨S64, .f32⟩
  | 58 => ⟨S100000x1, .i32⟩
  | 59 => ⟨S64, .f32⟩
  | 60 => ⟨S_, .f32⟩
  | 61 => ⟨S64, .f32⟩
  | 62 => ⟨S64, .f32⟩
  | 63 => ⟨S64x1, .f32⟩
  | 64 => ⟨S_, .f32⟩
  | 65 => ⟨S64x128, .f32⟩
  | 66 => ⟨S100000x1, .i32⟩
  | 67 => ⟨S64x128, .f32⟩
  | 68 => ⟨S64x128, .f32⟩
  | 69 => ⟨S64x128, .f32⟩
  | 70 => ⟨S64x32, .f32⟩
  | 71 => ⟨S1x32, .f32⟩
  | 72 => ⟨S64x32, .f32⟩
  | 73 => ⟨S64x32, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_cst : Ref sig .tc := ⟨.hbm, 46, rfl⟩
abbrev main_call0_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call1_cst : Ref sig .tc := ⟨.hbm, 91, rfl⟩
abbrev main_call1_v0 : Ref sig .tc := ⟨.hbm, 92, rfl⟩
abbrev main_v66 : Ref sig .tc := ⟨.hbm, 93, rfl⟩
abbrev main_c_9 : Ref sig .tc := ⟨.hbm, 94, rfl⟩
abbrev main_v67 : Ref sig .tc := ⟨.hbm, 95, rfl⟩
abbrev main_v68 : Ref sig .tc := ⟨.hbm, 96, rfl⟩
abbrev main_c_10 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_11 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_call2_cst : Ref sig .tc := ⟨.hbm, 118, rfl⟩
abbrev main_call2_v0 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_12 : Ref sig .tc := ⟨.hbm, 129, rfl⟩
abbrev main_v97 : Ref sig .tc := ⟨.hbm, 130, rfl⟩
abbrev main_cst_13 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_14 : Ref sig .tc := ⟨.hbm, 138, rfl⟩
abbrev main_v104 : Ref sig .tc := ⟨.hbm, 139, rfl⟩
abbrev main_cst_15 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_16 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_call3_cst : Ref sig .tc := ⟨.hbm, 163, rfl⟩
abbrev main_call3_v0 : Ref sig .tc := ⟨.hbm, 164, rfl⟩
abbrev main_v126 : Ref sig .tc := ⟨.hbm, 165, rfl⟩
abbrev main_c_17 : Ref sig .tc := ⟨.hbm, 166, rfl⟩
abbrev main_v127 : Ref sig .tc := ⟨.hbm, 167, rfl⟩
abbrev main_v128 : Ref sig .tc := ⟨.hbm, 168, rfl⟩
abbrev main_c_18 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_19 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_call4_cst : Ref sig .tc := ⟨.hbm, 190, rfl⟩
abbrev main_call4_v0 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_20 : Ref sig .tc := ⟨.hbm, 201, rfl⟩
abbrev main_v157 : Ref sig .tc := ⟨.hbm, 202, rfl⟩
abbrev main_cst_21 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_cst_22 : Ref sig .tc := ⟨.hbm, 210, rfl⟩
abbrev main_v164 : Ref sig .tc := ⟨.hbm, 211, rfl⟩
abbrev main_cst_23 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_cst_24 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_call5_cst : Ref sig .tc := ⟨.hbm, 235, rfl⟩
abbrev main_call5_v0 : Ref sig .tc := ⟨.hbm, 236, rfl⟩
abbrev main_v186 : Ref sig .tc := ⟨.hbm, 237, rfl⟩
abbrev main_c_25 : Ref sig .tc := ⟨.hbm, 238, rfl⟩
abbrev main_v187 : Ref sig .tc := ⟨.hbm, 239, rfl⟩
abbrev main_v188 : Ref sig .tc := ⟨.hbm, 240, rfl⟩
abbrev main_c_26 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_cst_27 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_call6_cst : Ref sig .tc := ⟨.hbm, 262, rfl⟩
abbrev main_call6_v0 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_cst_28 : Ref sig .tc := ⟨.hbm, 273, rfl⟩
abbrev main_v217 : Ref sig .tc := ⟨.hbm, 274, rfl⟩
abbrev main_cst_29 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_cst_30 : Ref sig .tc := ⟨.hbm, 282, rfl⟩
abbrev main_v224 : Ref sig .tc := ⟨.hbm, 283, rfl⟩
abbrev main_cst_31 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_cst_32 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_call7_cst : Ref sig .tc := ⟨.hbm, 307, rfl⟩
abbrev main_call7_v0 : Ref sig .tc := ⟨.hbm, 308, rfl⟩
abbrev main_v246 : Ref sig .tc := ⟨.hbm, 309, rfl⟩
abbrev main_cst_33 : Ref sig .tc := ⟨.hbm, 310, rfl⟩
abbrev main_v247 : Ref sig .tc := ⟨.hbm, 311, rfl⟩
abbrev main_cst_34 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_cst_35 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_cst_36 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S64 : S_.BroadcastsInDim S64 (![] : Fin 0 → Fin S64.rank)
  bcast_S64_S64x1_0 : S64.BroadcastsInDim S64x1 (![0] : Fin 1 → Fin S64x1.rank)
  bcast_S_S64x128 : S_.BroadcastsInDim S64x128 (![] : Fin 0 → Fin S64x128.rank)
  bcast_S64x1_S64x128_0_1 : S64x1.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x32_S64x32_1_0_0_1_n_n_wf : DotDims.WF S64x128 S128x32 S64x32 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

class Facts : Prop extends Facts₀ where

variable [Facts]
-- ==== Proof.KernelResult.lean ====
/-
  The kernel program's run, with its result named.

  The program is seventeen segments: nine stretches of host operations and, between them, eight pipelined kernel
  launches. The contents of every buffer at each segment boundary form a chain: a stretch takes the boundary's contents
  to the host operations' results over them; a launch replaces each of its arrays by what its write-backs leave and keeps
  every other buffer. Every weakly fair execution terminates in a state whose unscoped buffers hold the last boundary's
  contents; so the result buffer holds the last boundary's contents at the result, and each argument still holds what the
  launch found there.
-/
import proofs.«124945_j59390807769652_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with the result buffer at the last segment
    boundary's contents and every argument as launched. -/
theorem run_result : θ_run defs (onTc (τ := τ) (main (F := F))) ⟨m, fun _ => 0, ρ⟩ (fun r => ∀ c : Dev nD,
      r.2.mem ((c.tc : Thread nD τ).loc main_v202) = W17 m ρ c (Proc.devRef .tc main_v202)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v202 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c)⟩)

end Cert.KernelIdeal.Result

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«124945_j59390807769652_1_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.LibConvBlock.lean ====
/-
  A block of rows of a graph-convolution layer, over the extended reals.

  The layer is Y = (A · W_l + B) + H · W_r, where B repeats one bias row over all rows, optionally followed by the rectifier
  max(·, 0). Rows off, …, off + m - 1 of Y depend on those rows of A and H and on all of W_l, W_r and the bias row only. So a
  kernel that computes one block of m rows at a time — each product accumulated into zero, the bias row repeated over the
  block's rows — writes, block by block, the host's whole-array layer: at a block index j its value is Y read where the
  result block puts j. The same holds for the plain linear layer X · W + B. How a block sits in its array is left to index
  maps of which only the coordinates are assumed (rows shifted by `off`, columns kept). Addition is never reordered, so
  nothing is assumed finite.
-/
import proofs.«124945_j59390807769652_1_alg».proof.Proof.LibRowBlockProduct
import proofs.«124945_j59390807769652_1_alg».proof.Proof.LibHostSpread
import Idealize.ShloMosaic.Lib.ValueIdx
import Idealize.ShloMosaic.Lib.ValueLayout

noncomputable section

namespace Cert.Lib

open Idealize.ShloMosaic Idealize.ShloMosaic.ValueIdx

/-- One bias row repeated over the rows of a block, read at a block index `j`, is the row repeated over the rows of the whole
    array read where the block puts `j`: both read the row at `j`'s column. -/
theorem bias_row_block {m M n : Nat} (brow : (⟨2, ![1, n]⟩ : Shape).Idx → EReal)
    (eo : (⟨2, ![m, n]⟩ : Shape).Idx → (⟨2, ![M, n]⟩ : Shape).Idx)
    (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    broadcastTo ⟨2, ![m, n]⟩ brow hk j = broadcastInDim ⟨2, ![M, n]⟩ ![0, 1] hh brow (eo j) := by
  obtain ⟨a, b, rfl⟩ : ∃ (a : Fin m) (b : Fin n), j = ix2 a b := ⟨j 0, j 1, eq_ix2 j⟩
  obtain ⟨a', b', hab⟩ : ∃ (a' : Fin M) (b' : Fin n), eo (ix2 a b) = ix2 a' b' :=
    ⟨eo (ix2 a b) 0, eo (ix2 a b) 1, eq_ix2 _⟩
  have hb' : b' = b := Fin.ext (by have := heo1 (ix2 a b); rw [hab] at this; exact this)
  rw [hab, broadcastTo_1b_ab_apply, spread_1b_ab_apply, hb']

/-- x · w + (the bias row over the block) on an m-row block, the product accumulated into zero, read at a block index `j`, is
    X · w + (the bias row over the array) read where the result block puts `j`. -/
theorem linear_row_block {m M k n : Nat} {φ₁ φ₂ : FTy} (prec : Option ContractPrecision)
    (x : FVec Ideal ⟨2, ![m, k]⟩ φ₁) (w : FVec Ideal ⟨2, ![k, n]⟩ φ₂) (brow : FVec Ideal ⟨2, ![1, n]⟩ .f32)
    (X : FVec Ideal ⟨2, ![M, k]⟩ φ₁)
    (ex : (⟨2, ![m, k]⟩ : Shape).Idx → (⟨2, ![M, k]⟩ : Shape).Idx)
    (eo : (⟨2, ![m, n]⟩ : Shape).Idx → (⟨2, ![M, n]⟩ : Shape).Idx) (off : Nat)
    (hx : ∀ y, x y = X (ex y))
    (hex0 : ∀ y, (ex y 0).val = off + (y 0).val) (hex1 : ∀ y, (ex y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (matmul (DotDims.plain m k n) prec x w (constant ⟨2, ![m, n]⟩ .f32 0x00000000#32))
        (broadcastTo ⟨2, ![m, n]⟩ brow hk) j
      = addf (Host.dotGeneral (DotDims.plain M k n) prec X w) (broadcastInDim ⟨2, ![M, n]⟩ ![0, 1] hh brow) (eo j) := by
  rw [addf_apply, addf_apply,
    plain_product_row_block prec x w X w ex id eo off hx (fun _ => rfl) hex0 hex1 (fun _ => rfl) (fun _ => rfl) heo0 heo1 j,
    bias_row_block brow eo heo1 hk hh j]

/-- (a · w_l + bias row) + h · w_r on an m-row block, both products accumulated into zero, read at a block index `j`, is
    (A · w_l + bias row) + H · w_r read where the result block puts `j`. -/
theorem conv_row_block {m M k n : Nat} {φ₁ φ₂ φ₃ φ₄ : FTy} (prec : Option ContractPrecision)
    (xa : FVec Ideal ⟨2, ![m, k]⟩ φ₁) (xh : FVec Ideal ⟨2, ![m, k]⟩ φ₃)
    (wl : FVec Ideal ⟨2, ![k, n]⟩ φ₂) (wr : FVec Ideal ⟨2, ![k, n]⟩ φ₄) (brow : FVec Ideal ⟨2, ![1, n]⟩ .f32)
    (A : FVec Ideal ⟨2, ![M, k]⟩ φ₁) (H : FVec Ideal ⟨2, ![M, k]⟩ φ₃)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (j : (⟨2, ![m, n]⟩ : Shape).Idx) :
    addf (addf (matmul (DotDims.plain m k n) prec xa wl (constant ⟨2, ![m, n]⟩ .f32 0x00000000#32))
          (broadcastTo ⟨2, ![m, n]⟩ brow hk))
        (matmul (DotDims.plain m k n) prec xh wr (constant ⟨2, ![m, n]⟩ .f32 0x00000000#32)) j
      = addf (addf (Host.dotGeneral (DotDims.plain M k n) prec A wl) (broadcastInDim ⟨2, ![M, n]⟩ ![0, 1] hh brow))
          (Host.dotGeneral (DotDims.plain M k n) prec H wr) (eo j) := by
  rw [addf_apply, addf_apply (addf _ _) _ (eo j),
    linear_row_block prec xa wl brow A ea eo off hxa hea0 hea1 heo0 heo1 hk hh j,
    plain_product_row_block prec xh wr H wr eh id eo off hxh (fun _ => rfl) heh0 heh1 (fun _ => rfl) (fun _ => rfl) heo0 heo1 j]

/-- The rectified layer: max((a · w_l + bias row) + h · w_r, z) on an m-row block against a splat of the constant `z`, read at
    a block index `j`, is the host's max of the whole-array layer and its spread of `z`, read where the result block puts `j`. -/
theorem conv_relu_row_block {m M k n : Nat} {φ₁ φ₂ φ₃ φ₄ : FTy} (prec : Option ContractPrecision)
    (xa : FVec Ideal ⟨2, ![m, k]⟩ φ₁) (xh : FVec Ideal ⟨2, ![m, k]⟩ φ₃)
    (wl : FVec Ideal ⟨2, ![k, n]⟩ φ₂) (wr : FVec Ideal ⟨2, ![k, n]⟩ φ₄) (brow : FVec Ideal ⟨2, ![1, n]⟩ .f32)
    (A : FVec Ideal ⟨2, ![M, k]⟩ φ₁) (H : FVec Ideal ⟨2, ![M, k]⟩ φ₃)
    (ea eh : (⟨2, ![m, k]⟩ : Shape).Idx → (⟨2, ![M, k]⟩ : Shape).Idx)
    (eo : (⟨2, ![m, n]⟩ : Shape).Idx → (⟨2, ![M, n]⟩ : Shape).Idx) (off : Nat)
    (hxa : ∀ y, xa y = A (ea y)) (hxh : ∀ y, xh y = H (eh y))
    (hea0 : ∀ y, (ea y 0).val = off + (y 0).val) (hea1 : ∀ y, (ea y 1).val = (y 1).val)
    (heh0 : ∀ y, (eh y 0).val = off + (y 0).val) (heh1 : ∀ y, (eh y 1).val = (y 1).val)
    (heo0 : ∀ y, (eo y 0).val = off + (y 0).val) (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (z : BitVec 32) (hz : (⟨0, ![]⟩ : Shape).BroadcastsInDim ⟨2, ![M, n]⟩ (![] : Fin 0 → Fin 2))
    (j : (⟨2, ![m, n]⟩ : Shape).Idx) :
    maximumf (addf (addf (matmul (DotDims.plain m k n) prec xa wl (constant ⟨2, ![m, n]⟩ .f32 0x00000000#32))
            (broadcastTo ⟨2, ![m, n]⟩ brow hk))
          (matmul (DotDims.plain m k n) prec xh wr (constant ⟨2, ![m, n]⟩ .f32 0x00000000#32)))
        (broadcast ⟨2, ![m, n]⟩ (Scalar.ofBits (F := Ideal) .f32 z)) j
      = maximumf (addf (addf (Host.dotGeneral (DotDims.plain M k n) prec A wl) (broadcastInDim ⟨2, ![M, n]⟩ ![0, 1] hh brow))
            (Host.dotGeneral (DotDims.plain M k n) prec H wr))
          (broadcastInDim ⟨2, ![M, n]⟩ ![] hz (constant ⟨0, ![]⟩ .f32 z)) (eo j) := by
  rw [maximumf_apply, maximumf_apply,
    conv_row_block prec xa xh wl wr brow A H ea eh eo off hxa hxh hea0 hea1 heh0 heh1 heo0 heo1 hk hh j, splat_apply]
  rfl

end Cert.Lib

end
-- ==== Proof.LibPerceptronBlock.lean ====
/-
  A block of rows of a two-layer perceptron, and of an affine normalisation followed by the rectifier, over the
  extended reals.

  The perceptron is Y = max((H + A) · W₁ + B₁, z) · W₂ + B₂, where B₁ and B₂ repeat one bias row over all rows and z is a
  constant. Rows off, …, off + m - 1 of Y depend on those rows of H and A and on all of W₁, W₂ and the bias rows only: the
  hidden layer of a block of rows is the block of the hidden layer (a linear layer is row-local, and so are the sum H + A
  and the maximum with a constant), and the second linear layer is row-local again. So a kernel that computes one block
  of m rows at a time — operands rounded to bf16 on the way into each product, which on the extended reals is the
  identity, each product accumulated into zero — writes, block by block, the host's whole-array perceptron.

  The normalisation is Y = max((G ⊙ (Z − M)) ⊙ S + B, z) with G, M, S, B each one row repeated over all rows: entry (r, c)
  depends on Z (r, c) and on column c of the four rows only, so a block of rows of Y is the same expression of the block
  of Z. No addition or product is reordered, so nothing is assumed finite.
-/
import proofs.«124945_j59390807769652_1_alg».proof.Proof.LibConvBlock
import Idealize.ShloMosaic.PureOps.Ideal.Laws

noncomputable section

namespace Cert.Lib

open Idealize.ShloMosaic Idealize.ShloMosaic.ValueIdx

/-- Rounding both operands of the host's product to bf16 changes nothing: rounding is the identity on the extended reals. -/
theorem dot_rounded {sl sr so : Shape} (d : DotDims sl sr so) (prec : Option ContractPrecision)
    (a : FVec Ideal sl .f32) (b : FVec Ideal sr .f32) (h1 h2 : FTy.bf16.bits < FTy.f32.bits) :
    Host.dotGeneral d prec (truncf .bf16 a h1) (truncf .bf16 b h2) = Host.dotGeneral d prec a b := by
  funext j
  exact (Ideal.dotGeneral_apply d prec default (truncf .bf16 a h1) (truncf .bf16 b h2) j).trans
    (Ideal.dotGeneral_apply d prec default a b j).symm

/-- max((h + a) · w₁ + bias row, z) · w₂ + bias row on an m-row block, operands rounded to bf16 and each product accumulated
    into zero, read at a block index `j`, is the whole-array perceptron read where the result block puts `j`. -/
theorem perceptron_row_block {m M k n p : Nat} (prec : Option ContractPrecision)
    (xh xa : FVec Ideal ⟨2, ![m, k]⟩ .f32) (w1 : FVec Ideal ⟨2, ![k, n]⟩ .f32) (b1 : FVec Ideal ⟨2, ![1, n]⟩ .f32)
    (w2 : FVec Ideal ⟨2, ![n, p]⟩ .f32) (b2 : FVec Ideal ⟨2, ![1, p]⟩ .f32)
    (H A : FVec Ideal ⟨2, ![M, k]⟩ .f32)
    (eh ea : (⟨2, ![m, k]⟩ : Shape).Idx → (⟨2, ![M, k]⟩ : Shape).Idx)
    (e1 : (⟨2, ![m, n]⟩ : Shape).Idx → (⟨2, ![M, n]⟩ : Shape).Idx)
    (eo : (⟨2, ![m, p]⟩ : Shape).Idx → (⟨2, ![M, p]⟩ : Shape).Idx) (off : Nat)
    (hxh : ∀ y, xh y = H (eh y)) (hxa : ∀ y, xa y = A (ea y)) (hea : ∀ y, ea y = eh y)
    (heh0 : ∀ y, (eh y 0).val = off + (y 0).val) (heh1 : ∀ y, (eh y 1).val = (y 1).val)
    (he10 : ∀ y, (e1 y 0).val = off + (y 0).val) (he11 : ∀ y, (e1 y 1).val = (y 1).val)
    (heo0 : ∀ y, (eo y 0).val = off + (y 0).val) (heo1 : ∀ y, (eo y 1).val = (y 1).val)
    (hk1 : (⟨2, ![1, n]⟩ : Shape).Broadcasts ⟨2, ![m, n]⟩)
    (hh1 : (⟨2, ![1, n]⟩ : Shape).BroadcastsInDim ⟨2, ![M, n]⟩ (![0, 1] : Fin 2 → Fin 2))
    (hk2 : (⟨2, ![1, p]⟩ : Shape).Broadcasts ⟨2, ![m, p]⟩)
    (hh2 : (⟨2, ![1, p]⟩ : Shape).BroadcastsInDim ⟨2, ![M, p]⟩ (![0, 1] : Fin 2 → Fin 2))
    (z : BitVec 32) (hz : (⟨0, ![]⟩ : Shape).BroadcastsInDim ⟨2, ![M, n]⟩ (![] : Fin 0 → Fin 2))
    (t1 t2 t3 t4 : FTy.bf16.bits < FTy.f32.bits)
    (j : (⟨2, ![m, p]⟩ : Shape).Idx) :
    addf (matmul (DotDims.plain m n p) prec
          (truncf .bf16 (maximumf (addf (matmul (DotDims.plain m k n) prec (truncf .bf16 (addf xh xa) t1) (truncf .bf16 w1 t2)
                (constant ⟨2, ![m, n]⟩ .f32 0x00000000#32)) (broadcastTo ⟨2, ![m, n]⟩ b1 hk1))
              (broadcast ⟨2, ![m, n]⟩ (Scalar.ofBits (F := Ideal) .f32 z))) t3)
          (truncf .bf16 w2 t4) (constant ⟨2, ![m, p]⟩ .f32 0x00000000#32))
        (broadcastTo ⟨2, ![m, p]⟩ b2 hk2) j
      = addf (Host.dotGeneral (DotDims.plain M n p) prec
            (maximumf (addf (Host.dotGeneral (DotDims.plain M k n) prec (addf H A) w1) (broadcastInDim ⟨2, ![M, n]⟩ ![0, 1] hh1 b1))
              (broadcastInDim ⟨2, ![M, n]⟩ ![] hz (constant ⟨0, ![]⟩ .f32 z)))
            w2)
          (broadcastInDim ⟨2, ![M, p]⟩ ![0, 1] hh2 b2) (eo j) := by
  -- the rounded sum h + a of the block is the block of the rounded sum
  have hsum : ∀ y, (truncf .bf16 (addf xh xa) t1 : FVec Ideal ⟨2, ![m, k]⟩ .bf16) y
      = (truncf .bf16 (addf H A) t1 : FVec Ideal ⟨2, ![M, k]⟩ .bf16) (eh y) := fun y => by
    show xh y + xa y = H (eh y) + A (eh y)
    rw [hxh, hxa, hea]
  -- the hidden layer of the block is the block of the hidden layer
  have hid : ∀ y, (truncf .bf16 (maximumf (addf (matmul (DotDims.plain m k n) prec (truncf .bf16 (addf xh xa) t1)
            (truncf .bf16 w1 t2) (constant ⟨2, ![m, n]⟩ .f32 0x00000000#32)) (broadcastTo ⟨2, ![m, n]⟩ b1 hk1))
          (broadcast ⟨2, ![m, n]⟩ (Scalar.ofBits (F := Ideal) .f32 z))) t3 : FVec Ideal ⟨2, ![m, n]⟩ .bf16) y
      = (truncf .bf16 (maximumf (addf (Host.dotGeneral (DotDims.plain M k n) prec (truncf .bf16 (addf H A) t1) (truncf .bf16 w1 t2))
            (broadcastInDim ⟨2, ![M, n]⟩ ![0, 1] hh1 b1))
          (broadcastInDim ⟨2, ![M, n]⟩ ![] hz (constant ⟨0, ![]⟩ .f32 z))) t3 : FVec Ideal ⟨2, ![M, n]⟩ .bf16) (e1 y) := fun y => by
    show max (addf (matmul (DotDims.plain m k n) prec (truncf .bf16 (addf xh xa) t1) (truncf .bf16 w1 t2)
          (constant ⟨2, ![m, n]⟩ .f32 0x00000000#32)) (broadcastTo ⟨2, ![m, n]⟩ b1 hk1) y) (Scalar.ofBits (F := Ideal) .f32 z)
      = max (addf (Host.dotGeneral (DotDims.plain M k n) prec (truncf .bf16 (addf H A) t1) (truncf .bf16 w1 t2))
          (broadcastInDim ⟨2, ![M, n]⟩ ![0, 1] hh1 b1) (e1 y))
        (broadcastInDim ⟨2, ![M, n]⟩ ![] hz (constant ⟨0, ![]⟩ .f32 z) (e1 y))
    rw [linear_row_block prec (truncf .bf16 (addf xh xa) t1) (truncf .bf16 w1 t2) b1 (truncf .bf16 (addf H A) t1) eh e1 off
        hsum heh0 heh1 he10 he11 hk1 hh1 y, splat_apply]
    rfl
  rw [linear_row_block prec _ (truncf .bf16 w2 t4) b2 _ e1 eo off hid he10 he11 heo0 heo1 hk2 hh2 j, dot_rounded, dot_rounded]

/-- max((g ⊙ (z − μ)) ⊙ s + β, c) on an m-row block, the four rows g, μ, s, β each repeated over the block's rows, read at a
    block index `j`, is the same expression of the whole array (rows repeated over all its rows) read where the block puts `j`. -/
theorem normalise_row_block {m M n : Nat}
    (x : FVec Ideal ⟨2, ![m, n]⟩ .f32) (X : FVec Ideal ⟨2, ![M, n]⟩ .f32)
    (g mu s be : FVec Ideal ⟨2, ![1, n]⟩ .f32)
    (ex eo : (⟨2, ![m, n]⟩ : Shape).Idx → (⟨2, ![M, n]⟩ : Shape).Idx)
    (hx : ∀ y, x y = X (ex y)) (hex : ∀ y, ex y = eo y)
    (heo1 : ∀ y, (eo y 1).val = (y 1).val)
    (hk : (⟨2, ![1, n]⟩ : Shape).Broadcasts ⟨2, ![m, n]⟩)
    (hh : (⟨2, ![1, n]⟩ : Shape).BroadcastsInDim ⟨2, ![M, n]⟩ (![0, 1] : Fin 2 → Fin 2))
    (z : BitVec 32) (hz : (⟨0, ![]⟩ : Shape).BroadcastsInDim ⟨2, ![M, n]⟩ (![] : Fin 0 → Fin 2))
    (j : (⟨2, ![m, n]⟩ : Shape).Idx) :
    maximumf (addf (mulf (mulf (broadcastTo ⟨2, ![m, n]⟩ g hk) (subf x (broadcastTo ⟨2, ![m, n]⟩ mu hk)))
            (broadcastTo ⟨2, ![m, n]⟩ s hk)) (broadcastTo ⟨2, ![m, n]⟩ be hk))
        (broadcast ⟨2, ![m, n]⟩ (Scalar.ofBits (F := Ideal) .f32 z)) j
      = maximumf (addf (mulf (mulf (broadcastInDim ⟨2, ![M, n]⟩ ![0, 1] hh g) (subf X (broadcastInDim ⟨2, ![M, n]⟩ ![0, 1] hh mu)))
            (broadcastInDim ⟨2, ![M, n]⟩ ![0, 1] hh s)) (broadcastInDim ⟨2, ![M, n]⟩ ![0, 1] hh be))
          (broadcastInDim ⟨2, ![M, n]⟩ ![] hz (constant ⟨0, ![]⟩ .f32 z)) (eo j) := by
  show max (broadcastTo ⟨2, ![m, n]⟩ g hk j * (x j - broadcastTo ⟨2, ![m, n]⟩ mu hk j) * broadcastTo ⟨2, ![m, n]⟩ s hk j
        + broadcastTo ⟨2, ![m, n]⟩ be hk j) (Scalar.ofBits (F := Ideal) .f32 z)
    = max (broadcastInDim ⟨2, ![M, n]⟩ ![0, 1] hh g (eo j) * (X (eo j) - broadcastInDim ⟨2, ![M, n]⟩ ![0, 1] hh mu (eo j))
          * broadcastInDim ⟨2, ![M, n]⟩ ![0, 1] hh s (eo j) + broadcastInDim ⟨2, ![M, n]⟩ ![0, 1] hh be (eo j))
        (broadcastInDim ⟨2, ![M, n]⟩ ![] hz (constant ⟨0, ![]⟩ .f32 z) (eo j))
  rw [bias_row_block g eo heo1 hk hh j, bias_row_block mu eo heo1 hk hh j, bias_row_block s eo heo1 hk hh j,
    bias_row_block be eo heo1 hk hh j, hx, hex, splat_apply]
  rfl

end Cert.Lib

end
-- ==== Proof.Net.lean ====
/-
  The two dense stages of one layer of the network, each as one function of whole arrays.

  `perceptron h a w₁ b₁ w₂ b₂` is max((h + a) · w₁ + b₁, 0) · w₂ + b₂ over [100000, 128] node features h and aggregated
  features a, with [128, 128] weights and one-row biases repeated over all rows. `normalise z g β μ s` is
  max((g ⊙ (z − μ)) ⊙ s + β, 0): the batch normalisation's affine map and the rectifier, with the four rows g, β, μ, s
  repeated over all rows (μ and s, the column means and inverse deviations of z, are computed elsewhere and enter here as
  rows). Both are written in the host's operations, so that a program that computes them on the host does so by these very
  terms, and a kernel that computes them block of rows by block of rows is compared with them one block at a time.
-/
import Idealize.ShloMosaic.PureOps.Ideal
import Idealize.ShloMosaic.Lib.ValueIdx

noncomputable section

namespace Cert.Net

open Idealize.ShloMosaic

/-- One row spreads over the rows of a [100000, 128] array. -/
theorem hrow : (⟨2, ![1, 128]⟩ : Shape).BroadcastsInDim ⟨2, ![100000, 128]⟩ (![0, 1] : Fin 2 → Fin 2) := by decide
/-- A scalar spreads over a [100000, 128] array. -/
theorem hsplat : (⟨0, ![]⟩ : Shape).BroadcastsInDim ⟨2, ![100000, 128]⟩ (![] : Fin 0 → Fin 2) := by decide

/-- max((h + a) · w₁ + b₁, 0) · w₂ + b₂, in the host's operations. -/
def perceptron (h a : FVec Ideal ⟨2, ![100000, 128]⟩ .f32) (w1 : FVec Ideal ⟨2, ![128, 128]⟩ .f32)
    (b1 : FVec Ideal ⟨2, ![1, 128]⟩ .f32) (w2 : FVec Ideal ⟨2, ![128, 128]⟩ .f32) (b2 : FVec Ideal ⟨2, ![1, 128]⟩ .f32) :
    FVec Ideal ⟨2, ![100000, 128]⟩ .f32 :=
  addf (Host.dotGeneral (DotDims.plain 100000 128 128) none
      (maximumf (addf (Host.dotGeneral (DotDims.plain 100000 128 128) none (addf h a) w1)
          (broadcastInDim ⟨2, ![100000, 128]⟩ ![0, 1] hrow b1))
        (broadcastInDim ⟨2, ![100000, 128]⟩ ![] hsplat (constant ⟨0, ![]⟩ .f32 0x00000000#32)))
      w2)
    (broadcastInDim ⟨2, ![100000, 128]⟩ ![0, 1] hrow b2)

/-- max((g ⊙ (z − μ)) ⊙ s + β, 0), in the host's operations. -/
def normalise (z : FVec Ideal ⟨2, ![100000, 128]⟩ .f32) (g be mu s : FVec Ideal ⟨2, ![1, 128]⟩ .f32) :
    FVec Ideal ⟨2, ![100000, 128]⟩ .f32 :=
  maximumf (addf (mulf (mulf (broadcastInDim ⟨2, ![100000, 128]⟩ ![0, 1] hrow g)
          (subf z (broadcastInDim ⟨2, ![100000, 128]⟩ ![0, 1] hrow mu)))
        (broadcastInDim ⟨2, ![100000, 128]⟩ ![0, 1] hrow s))
      (broadcastInDim ⟨2, ![100000, 128]⟩ ![0, 1] hrow be))
    (broadcastInDim ⟨2, ![100000, 128]⟩ ![] hsplat (constant ⟨0, ![]⟩ .f32 0x00000000#32))

end Cert.Net

end
-- ==== Proof.Launch0.lean ====
/-
  What launch 0 (a perceptron launch) leaves in its output array, as one function of the arrays it finds.

  The launch has twenty grid points; point t stages rows 5000·t … 5000·t + 4999 of the node features and of the aggregated
  features, the whole of both weight matrices and both bias rows, and writes back rows 5000·t … of the output. What it
  writes is the perceptron of its blocks, which is the block of the whole-array perceptron (the perceptron is row-local);
  the twenty blocks tile the output array, so after the launch the array holds the whole-array perceptron of what the
  launch found in its six input arrays.
-/
import proofs.«124945_j59390807769652_1_alg».proof.Proof.Gen.KernelIdeal.Frame
import proofs.«124945_j59390807769652_1_alg».proof.Proof.LibPerceptronBlock
import proofs.«124945_j59390807769652_1_alg».proof.Proof.Net
import Idealize.ShloMosaic.Lib.Pipeline.Value

set_option maxRecDepth 16384

noncomputable section

namespace Cert.KernelIdeal.Launch0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic with its identity casts removed. -/
theorem payload_eq (v0 v1 : Vec Ideal S5000x128 .f32) (v5 : Vec Ideal S128x128 .f32) (v9 : Vec Ideal S1x128 .f32)
    (v16 : Vec Ideal S128x128 .f32) (v20 : Vec Ideal S1x128 .f32) :
    k0_pay1 v0 v1 v5 v9 v16 v20
      = addf (matmul (DotDims.plain 5000 128 128) none
          (truncf .bf16 (maximumf (addf (matmul (DotDims.plain 5000 128 128) none (truncf .bf16 (addf v0 v1) bitsLt_bf16_f32)
                (truncf .bf16 v5 bitsLt_bf16_f32) (constant ⟨2, ![5000, 128]⟩ .f32 0x00000000#32))
              (broadcastTo ⟨2, ![5000, 128]⟩ v9 broadcasts_S1x128_S5000x128))
            (broadcast ⟨2, ![5000, 128]⟩ (Scalar.ofBits (F := Ideal) .f32 0x00000000#32))) bitsLt_bf16_f32)
          (truncf .bf16 v16 bitsLt_bf16_f32) (constant ⟨2, ![5000, 128]⟩ .f32 0x00000000#32))
        (broadcastTo ⟨2, ![5000, 128]⟩ v20 broadcasts_S1x128_S5000x128) := by
  unfold k0_pay1
  simp only [shapeCast_self]
  rfl

/-- The body's result on blocks that sit in whole arrays at a row offset, read at a block index, is the whole-array
    perceptron read where the output block puts the index. -/
theorem point_eq (x0 x1 : Vec Ideal S5000x128 .f32) (x2 : Vec Ideal S128x128 .f32) (x3 : Vec Ideal S1x128 .f32)
    (x4 : Vec Ideal S128x128 .f32) (x5 : Vec Ideal S1x128 .f32)
    (H A : FVec Ideal S100000x128 .f32) (W1 : FVec Ideal S128x128 .f32) (B1 : FVec Ideal S1x128 .f32)
    (W2 : FVec Ideal S128x128 .f32) (B2 : FVec Ideal S1x128 .f32)
    (eh ea eo : S5000x128.Idx → S100000x128.Idx) (off : Nat)
    (hx0 : ∀ y, x0 y = H (eh y)) (hx1 : ∀ y, x1 y = A (ea y)) (hea : ∀ y, ea y = eh y)
    (hx2 : ∀ y, x2 y = W1 y) (hx3 : ∀ y, x3 y = B1 y) (hx4 : ∀ y, x4 y = W2 y) (hx5 : ∀ y, x5 y = B2 y)
    (heh0 : ∀ y, (eh y 0).val = off + (y 0).val) (heh1 : ∀ y, (eh y 1).val = (y 1).val)
    (heo0 : ∀ y, (eo y 0).val = off + (y 0).val) (heo1 : ∀ y, (eo y 1).val = (y 1).val)
    (j : S5000x128.Idx) :
    k0_pay1 x0 x1 x2 x3 x4 x5 j = Cert.Net.perceptron H A W1 B1 W2 B2 (eo j) := by
  obtain rfl : x2 = W1 := funext hx2
  obtain rfl : x3 = B1 := funext hx3
  obtain rfl : x4 = W2 := funext hx4
  obtain rfl : x5 = B2 := funext hx5
  rw [payload_eq]
  exact Cert.Lib.perceptron_row_block none x0 x1 x2 x3 x4 x5 H A eh ea eo eo off hx0 hx1 hea heh0 heh1 heo0 heo1 heo0 heo1
    broadcasts_S1x128_S5000x128 Cert.Net.hrow broadcasts_S1x128_S5000x128 Cert.Net.hrow 0x00000000#32 Cert.Net.hsplat
    bitsLt_bf16_f32 bitsLt_bf16_f32 bitsLt_bf16_f32 bitsLt_bf16_f32 j

/-- The printed index maps, decided over the twenty grid points: the two row-blocked inputs and the output move together
    along the rows, and the weights and bias rows stay at the origin. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the whole-array perceptron of the arrays the launch finds. -/
theorem flushed_eq (c : Dev nD) (t : Fin cfg0.N) :
    (dat0 V c).flushed 6 t = ((cfg0.win 6).blk t).view.read (Elt Ideal)
      (Cert.Net.perceptron (V c main_arg0) (V c main_v18) (V c main_v20) (V c main_v27) (V c main_v24) (V c main_v28)) := by
  show (cfg0.win 6).cut (grid0.coords t) ((dat0 V c).after 6 t) = _
  rw [after0_6]
  unfold out0_6
  rw [View.canon_unit_zero origin]
  simp only [View.ld_unit_zero (S := S5000x128) origin, View.ld_unit_zero (S := S128x128) origin,
    View.ld_unit_zero (S := S1x128) origin]
  obtain ⟨i00, i01, i10, i11, i20, i21, i30, i31, i40, i41, i50, i51, i60, i61⟩ := index_facts t
  funext j
  refine point_eq (iblk0 V c 0 t) (iblk0 V c 1 t) (iblk0 V c 2 t) (iblk0 V c 3 t) (iblk0 V c 4 t) (iblk0 V c 5 t)
    (V c main_arg0) (V c main_v18) (V c main_v20) (V c main_v27) (V c main_v24) (V c main_v28)
    ((cfg0.win 0).blk t).view.emb ((cfg0.win 1).blk t).view.emb ((cfg0.win 6).blk t).view.emb (5000 * t.val)
    (fun y => rfl) (fun y => rfl) (fun y => ?_) (fun y => ?_) (fun y => ?_) (fun y => ?_) (fun y => ?_)
    (fun y => ?_) (fun y => ?_) (fun y => ?_) (fun y => ?_) j
  · funext a; apply Fin.ext
    match a with
    | ⟨0, _⟩ => show win0_1.index t (0 : Fin 2) * 5000 + 1 * (y 0).val = win0_0.index t (0 : Fin 2) * 5000 + 1 * (y 0).val; omega
    | ⟨1, _⟩ => show win0_1.index t (1 : Fin 2) * 128 + 1 * (y 1).val = win0_0.index t (1 : Fin 2) * 128 + 1 * (y 1).val; omega
  · show V c main_v20 (((cfg0.win 2).blk t).view.emb y) = V c main_v20 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · show V c main_v27 (((cfg0.win 3).blk t).view.emb y) = V c main_v27 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  · show V c main_v24 (((cfg0.win 4).blk t).view.emb y) = V c main_v24 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · show V c main_v28 (((cfg0.win 5).blk t).view.emb y) = V c main_v28 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega
  · show win0_0.index t (0 : Fin 2) * 5000 + 1 * (y 0).val = 5000 * t.val + (y 0).val; omega
  · show win0_0.index t (1 : Fin 2) * 128 + 1 * (y 1).val = (y 1).val; omega
  · show win0_6.index t (0 : Fin 2) * 5000 + 1 * (y 0).val = 5000 * t.val + (y 0).val; omega
  · show win0_6.index t (1 : Fin 2) * 128 + 1 * (y 1).val = (y 1).val; omega

/-- An index of the output array is in point `t`'s block iff each coordinate is in the block's range on its axis. -/
theorem mem_block (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v29).slice (win0_6.rect t)).set ↔ _
  rw [View.set_slice_whole, Rect.mem_set_unit]
  exact Iff.rfl

/-- The twenty blocks tile the output array: row r is in the block of point r / 5000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨i00, i01, i10, i11, i20, i21, i30, i31, i40, i41, i50, i51, i60, i61⟩ := index_facts ⟨(i 0).val / 5000, ht⟩
  refine ⟨⟨(i 0).val / 5000, ht⟩, flush0_6 _, ?_⟩
  rw [mem_block]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [i60]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [i61]; omega

/-- THE OUTPUT ARRAY after the launch: the whole-array perceptron of the arrays the launch found. -/
theorem array_eq (c : Dev nD) : (dat0 V c).arrAt 6 cfg0.N
    = Cert.Net.perceptron (V c main_arg0) (V c main_v18) (V c main_v20) (V c main_v27) (V c main_v24) (V c main_v28) :=
  (dat0 V c).arrAt_eq_of_cover 6 _ (fun t _ => flushed_eq V c t) cover

end Cert.KernelIdeal.Launch0

end
-- ==== Proof.Launch1.lean ====
/-
  What launch 1 (a normalisation launch) leaves in its output array, as one function of the arrays it finds.

  The launch has twenty grid points; point t stages rows 5000·t … 5000·t + 4999 of the pre-activations z and the four
  rows g, β, μ, s whole, and writes back rows 5000·t … of the output. What it writes is max((g ⊙ (z − μ)) ⊙ s + β, 0) of its
  block of z, which is the block of that expression of the whole array (entry (r, c) depends on z (r, c) and on column c
  of the four rows only); the twenty blocks tile the output array, so after the launch the array holds the whole-array
  normalisation of what the launch found in its five input arrays.
-/
import proofs.«124945_j59390807769652_1_alg».proof.Proof.Gen.KernelIdeal.Frame
import proofs.«124945_j59390807769652_1_alg».proof.Proof.LibPerceptronBlock
import proofs.«124945_j59390807769652_1_alg».proof.Proof.Net
import Idealize.ShloMosaic.Lib.Pipeline.Value

set_option maxRecDepth 16384

noncomputable section

namespace Cert.KernelIdeal.Launch1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic with its identity casts removed: the loads are z, g, μ, s, β in that order. -/
theorem payload_eq (v0 : Vec Ideal S5000x128 .f32) (v2 v4 v10 v14 : Vec Ideal S1x128 .f32) :
    k1_pay1 v0 v2 v4 v10 v14
      = maximumf (addf (mulf (mulf (broadcastTo ⟨2, ![5000, 128]⟩ v2 broadcasts_S1x128_S5000x128)
              (subf v0 (broadcastTo ⟨2, ![5000, 128]⟩ v4 broadcasts_S1x128_S5000x128)))
            (broadcastTo ⟨2, ![5000, 128]⟩ v10 broadcasts_S1x128_S5000x128))
          (broadcastTo ⟨2, ![5000, 128]⟩ v14 broadcasts_S1x128_S5000x128))
        (broadcast ⟨2, ![5000, 128]⟩ (Scalar.ofBits (F := Ideal) .f32 0x00000000#32)) := by
  unfold k1_pay1
  simp only [shapeCast_self]

/-- The body's result on a block of z that sits in the whole array, read at a block index, is the whole-array normalisation
    read where the output block puts the index. -/
theorem point_eq (x0 : Vec Ideal S5000x128 .f32) (x1 x2 x3 x4 : Vec Ideal S1x128 .f32)
    (Z : FVec Ideal S100000x128 .f32) (G Be Mu Sd : FVec Ideal S1x128 .f32)
    (ez eo : S5000x128.Idx → S100000x128.Idx)
    (hx0 : ∀ y, x0 y = Z (ez y)) (hez : ∀ y, ez y = eo y)
    (hx1 : ∀ y, x1 y = G y) (hx2 : ∀ y, x2 y = Be y) (hx3 : ∀ y, x3 y = Mu y) (hx4 : ∀ y, x4 y = Sd y)
    (heo1 : ∀ y, (eo y 1).val = (y 1).val)
    (j : S5000x128.Idx) :
    k1_pay1 x0 x1 x3 x4 x2 j = Cert.Net.normalise Z G Be Mu Sd (eo j) := by
  obtain rfl : x1 = G := funext hx1
  obtain rfl : x2 = Be := funext hx2
  obtain rfl : x3 = Mu := funext hx3
  obtain rfl : x4 = Sd := funext hx4
  rw [payload_eq]
  exact Cert.Lib.normalise_row_block x0 Z x1 x3 x4 x2 ez eo hx0 hez heo1 broadcasts_S1x128_S5000x128 Cert.Net.hrow
    0x00000000#32 Cert.Net.hsplat j

/-- The printed index maps, decided over the twenty grid points: the row-blocked input and the output move together along
    the rows, and the four rows stay at the origin. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the whole-array normalisation of the arrays the launch finds. -/
theorem flushed_eq (c : Dev nD) (t : Fin cfg1.N) :
    (dat1 V c).flushed 5 t = ((cfg1.win 5).blk t).view.read (Elt Ideal)
      (Cert.Net.normalise (V c main_v29) (V c main_v47) (V c main_v48) (V c main_v49) (V c main_v50)) := by
  show (cfg1.win 5).cut (grid1.coords t) ((dat1 V c).after 5 t) = _
  rw [after1_5]
  unfold out1_5
  rw [View.canon_unit_zero origin]
  simp only [View.ld_unit_zero (S := S5000x128) origin, View.ld_unit_zero (S := S1x128) origin]
  obtain ⟨i00, i01, i10, i11, i20, i21, i30, i31, i40, i41, i50, i51⟩ := index_facts t
  funext j
  refine point_eq (iblk1 V c 0 t) (iblk1 V c 1 t) (iblk1 V c 2 t) (iblk1 V c 3 t) (iblk1 V c 4 t)
    (V c main_v29) (V c main_v47) (V c main_v48) (V c main_v49) (V c main_v50)
    ((cfg1.win 0).blk t).view.emb ((cfg1.win 5).blk t).view.emb
    (fun y => rfl) (fun y => ?_) (fun y => ?_) (fun y => ?_) (fun y => ?_) (fun y => ?_) (fun y => ?_) j
  · funext a; apply Fin.ext
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 128 + 1 * (y 1).val = win1_5.index t (1 : Fin 2) * 128 + 1 * (y 1).val; omega
  · show V c main_v47 (((cfg1.win 1).blk t).view.emb y) = V c main_v47 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  · show V c main_v48 (((cfg1.win 2).blk t).view.emb y) = V c main_v48 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  · show V c main_v49 (((cfg1.win 3).blk t).view.emb y) = V c main_v49 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · show V c main_v50 (((cfg1.win 4).blk t).view.emb y) = V c main_v50 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  · show win1_5.index t (1 : Fin 2) * 128 + 1 * (y 1).val = (y 1).val; omega

/-- An index of the output array is in point `t`'s block iff each coordinate is in the block's range on its axis. -/
theorem mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v51).slice (win1_5.rect t)).set ↔ _
  rw [View.set_slice_whole, Rect.mem_set_unit]
  exact Iff.rfl

/-- The twenty blocks tile the output array: row r is in the block of point r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨i00, i01, i10, i11, i20, i21, i30, i31, i40, i41, i50, i51⟩ := index_facts ⟨(i 0).val / 5000, ht⟩
  refine ⟨⟨(i 0).val / 5000, ht⟩, flush1_5 _, ?_⟩
  rw [mem_block]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [i50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [i51]; omega

/-- THE OUTPUT ARRAY after the launch: the whole-array normalisation of the arrays the launch found. -/
theorem array_eq (c : Dev nD) : (dat1 V c).arrAt 5 cfg1.N
    = Cert.Net.normalise (V c main_v29) (V c main_v47) (V c main_v48) (V c main_v49) (V c main_v50) :=
  (dat1 V c).arrAt_eq_of_cover 5 _ (fun t _ => flushed_eq V c t) cover

end Cert.KernelIdeal.Launch1

end
-- ==== Proof.Layer.lean ====
/-
  The network as one function of its arguments, assembled from whole-array stages.

  A layer takes node features h [100000, 128] to
      normalise z (row γ) (row β) (row (colMean z)) (row (invDev z)),   z = perceptron h (aggregate h) W₁ (row b₁) W₂ (row b₂),
  where `aggregate h` is the in-degree mean of h over the incoming edges (a gather of the source rows, a scatter-add onto
  the destination rows, a division by the clamped in-degree), `colMean z` the column means of z over the 100000 rows and
  `invDev z` the reciprocal square root of the column variances plus a small constant. Four layers, each with its own
  slices of the stacked parameters, are followed by the per-graph mean readout and a [128, 32] projection. Every stage is
  written in the host's operations over the reference program's shape records, so that the reference's stages unfold to
  these terms, and a program that computes the dense stages block of rows by block of rows is compared with them stage by
  stage, the aggregation and the statistics being the same host operations on both sides.
-/
import proofs.«124945_j59390807769652_1_alg».proof.Proof.Gen.ReferenceIdeal
import proofs.«124945_j59390807769652_1_alg».proof.Proof.Net

noncomputable section

namespace Cert.Net

open Idealize.ShloMosaic Cert.ReferenceIdeal Cert.ReferenceIdeal.Gen

/-- A float array, and an integer array, of a given shape over the extended reals. -/
abbrev FArr (s : Shape) := FVec Ideal s .f32
abbrev IArr (s : Shape) := (⟨s, .i32⟩ : BufTy).Contents (Elt Ideal)

/-- The rows the gather reads, from the edges' source nodes: a negative index counts from the end. -/
def sourceRows (src : IArr S1600000) : IArr S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The clamped in-degree of every node, as a column: the number of edges arriving, at least one. -/
def degree (dst : IArr S1600000) : FArr S100000x1 :=
  broadcastInDim S100000x1 ![0] bcast_S100000_S100000x1_0
    (maximumf (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

/-- The mean of h over each node's incoming edges: source rows gathered, added onto destination rows, divided by the degree. -/
def aggregate (deg : FArr S100000x1) (src dst : IArr S1600000) (h : FArr S100000x128) : FArr S100000x128 :=
  Host.divf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h (sourceRows src)))
    (broadcastInDim S100000x128 ![0, 1] bcast_S100000x1_S100000x128_0_1 deg)

/-- A length-128 vector as one row. -/
def row (v : FArr S128) : FArr S1x128 := broadcastInDim S1x128 ![1] bcast_S128_S1x128_1 v

/-- The column means of z over its 100000 rows. -/
def colMean (z : FArr S100000x128) : FArr S128 :=
  Host.divf (Host.reduceAdd z (constant S_ .f32 0x00000000#32) reducesTo_S100000x128_S128_d0 h_S_)
    (broadcastInDim S128 ![] bcast_S_S128 (constant S_ .f32 0x47C35000#32))

/-- z with its column means subtracted. -/
def centred (z : FArr S100000x128) : FArr S100000x128 :=
  subf z (broadcastInDim S100000x128 ![0, 1] bcast_S1x128_S100000x128_0_1 (row (colMean z)))

/-- The reciprocal square root of the column variances of z plus the stabilising constant. -/
def invDev (z : FArr S100000x128) : FArr S128 :=
  Host.rsqrt (addf (Host.divf (Host.reduceAdd (mulf (centred z) (centred z)) (constant S_ .f32 0x00000000#32)
          reducesTo_S100000x128_S128_d0 h_S_)
        (broadcastInDim S128 ![] bcast_S_S128 (constant S_ .f32 0x47C35000#32)))
      (broadcastInDim S128 ![] bcast_S_S128 (constant S_ .f32 0x3727C5AC#32)))

/-- The pre-activations of a layer: the perceptron of the features and their aggregation. -/
def dense (deg : FArr S100000x1) (src dst : IArr S1600000) (w1 : FArr S128x128) (b1 : FArr S128) (w2 : FArr S128x128)
    (b2 : FArr S128) (h : FArr S100000x128) : FArr S100000x128 :=
  perceptron h (aggregate deg src dst h) w1 (row b1) w2 (row b2)

/-- The normalised, rectified activations from the pre-activations. -/
def activate (g be : FArr S128) (z : FArr S100000x128) : FArr S100000x128 :=
  normalise z (row g) (row be) (row (colMean z)) (row (invDev z))

/-- One layer. -/
def layer (deg : FArr S100000x1) (src dst : IArr S1600000) (w1 : FArr S128x128) (b1 : FArr S128) (w2 : FArr S128x128)
    (b2 g be : FArr S128) (h : FArr S100000x128) : FArr S100000x128 :=
  activate g be (dense deg src dst w1 b1 w2 b2 h)

/-- Layer 0's [128, 128] matrix out of a [4, 128, 128] stack. -/
def weight0 (X : FArr S4x128x128) : FArr S128x128 :=
  shapeCast S128x128 (extractStridedSlice S1x128x128 ![0, 0, 0] X slices_S4x128x128_S1x128x128_0_0_0) shapeCasts_S1x128x128_S128x128
/-- Layer 0's length-128 vector out of a [4, 128] stack. -/
def vector0 (X : FArr S4x128) : FArr S128 :=
  shapeCast S128 (extractStridedSlice S1x128 ![0, 0] X slices_S4x128_S1x128_0_0) shapeCasts_S1x128_S128
/-- Layer 0 of the network as a function of the node features entering it. -/
def layer0 (x1 : FArr S4x128x128) (x2 : FArr S4x128) (x3 : FArr S4x128x128) (x4 x5 x6 : FArr S4x128) (x9 x10 : IArr S1600000)
    (h : FArr S100000x128) : FArr S100000x128 :=
  layer (degree x10) x9 x10 (weight0 x1) (vector0 x2) (weight0 x3) (vector0 x4) (vector0 x5) (vector0 x6) h

/-- Layer 1's [128, 128] matrix out of a [4, 128, 128] stack. -/
def weight1 (X : FArr S4x128x128) : FArr S128x128 :=
  shapeCast S128x128 (extractStridedSlice S1x128x128 ![1, 0, 0] X slices_S4x128x128_S1x128x128_1_0_0) shapeCasts_S1x128x128_S128x128
/-- Layer 1's length-128 vector out of a [4, 128] stack. -/
def vector1 (X : FArr S4x128) : FArr S128 :=
  shapeCast S128 (extractStridedSlice S1x128 ![1, 0] X slices_S4x128_S1x128_1_0) shapeCasts_S1x128_S128
/-- Layer 1 of the network as a function of the node features entering it. -/
def layer1 (x1 : FArr S4x128x128) (x2 : FArr S4x128) (x3 : FArr S4x128x128) (x4 x5 x6 : FArr S4x128) (x9 x10 : IArr S1600000)
    (h : FArr S100000x128) : FArr S100000x128 :=
  layer (degree x10) x9 x10 (weight1 x1) (vector1 x2) (weight1 x3) (vector1 x4) (vector1 x5) (vector1 x6) h

/-- Layer 2's [128, 128] matrix out of a [4, 128, 128] stack. -/
def weight2 (X : FArr S4x128x128) : FArr S128x128 :=
  shapeCast S128x128 (extractStridedSlice S1x128x128 ![2, 0, 0] X slices_S4x128x128_S1x128x128_2_0_0) shapeCasts_S1x128x128_S128x128
/-- Layer 2's length-128 vector out of a [4, 128] stack. -/
def vector2 (X : FArr S4x128) : FArr S128 :=
  shapeCast S128 (extractStridedSlice S1x128 ![2, 0] X slices_S4x128_S1x128_2_0) shapeCasts_S1x128_S128
/-- Layer 2 of the network as a function of the node features entering it. -/
def layer2 (x1 : FArr S4x128x128) (x2 : FArr S4x128) (x3 : FArr S4x128x128) (x4 x5 x6 : FArr S4x128) (x9 x10 : IArr S1600000)
    (h : FArr S100000x128) : FArr S100000x128 :=
  layer (degree x10) x9 x10 (weight2 x1) (vector2 x2) (weight2 x3) (vector2 x4) (vector2 x5) (vector2 x6) h

/-- Layer 3's [128, 128] matrix out of a [4, 128, 128] stack. -/
def weight3 (X : FArr S4x128x128) : FArr S128x128 :=
  shapeCast S128x128 (extractStridedSlice S1x128x128 ![3, 0, 0] X slices_S4x128x128_S1x128x128_3_0_0) shapeCasts_S1x128x128_S128x128
/-- Layer 3's length-128 vector out of a [4, 128] stack. -/
def vector3 (X : FArr S4x128) : FArr S128 :=
  shapeCast S128 (extractStridedSlice S1x128 ![3, 0] X slices_S4x128_S1x128_3_0) shapeCasts_S1x128_S128
/-- Layer 3 of the network as a function of the node features entering it. -/
def layer3 (x1 : FArr S4x128x128) (x2 : FArr S4x128) (x3 : FArr S4x128x128) (x4 x5 x6 : FArr S4x128) (x9 x10 : IArr S1600000)
    (h : FArr S100000x128) : FArr S100000x128 :=
  layer (degree x10) x9 x10 (weight3 x1) (vector3 x2) (weight3 x3) (vector3 x4) (vector3 x5) (vector3 x6) h

/-- The per-graph mean of the node features (a scatter-add over the graph ids divided by the clamped node counts),
    projected by a [128, 32] matrix, plus a bias row. -/
def readout (gid : IArr S100000) (wp : FArr S128x32) (bp : FArr S32) (h : FArr S100000x128) : FArr S64x32 :=
  addf (Host.dotGeneral dot_S64x128_S128x32_S64x32_1_0_0_1_n_n none
      (Host.divf (Host.scatterAdd scatter_S64x128_S100000x1_S100000x128_1_0_0_1
          (broadcastInDim S64x128 ![] bcast_S_S64x128 (constant S_ .f32 0x00000000#32))
          (broadcastInDim S100000x1 ![0] bcast_S100000_S100000x1_0 gid) h)
        (broadcastInDim S64x128 ![0, 1] bcast_S64x1_S64x128_0_1
          (broadcastInDim S64x1 ![0] bcast_S64_S64x1_0
            (maximumf (Host.scatterAdd scatter_S64_S100000x1_S100000_n_0_0_1
                (broadcastInDim S64 ![] bcast_S_S64 (constant S_ .f32 0x00000000#32))
                (broadcastInDim S100000x1 ![0] bcast_S100000_S100000x1_0 gid)
                (broadcastInDim S100000 ![] bcast_S_S100000 (constant S_ .f32 0x3F800000#32)))
              (broadcastInDim S64 ![] bcast_S_S64 (constant S_ .f32 0x3F800000#32))))))
      wp)
    (broadcastInDim S64x32 ![0, 1] bcast_S1x32_S64x32_0_1 (broadcastInDim S1x32 ![1] bcast_S32_S1x32_1 bp))

/-- The whole network. -/
def net (x0 : FArr S100000x128) (x1 : FArr S4x128x128) (x2 : FArr S4x128) (x3 : FArr S4x128x128) (x4 x5 x6 : FArr S4x128)
    (x7 : FArr S128x32) (x8 : FArr S32) (x9 x10 : IArr S1600000) (x11 : IArr S100000) : FArr S64x32 :=
  readout x11 x7 x8
    (layer3 x1 x2 x3 x4 x5 x6 x9 x10 (layer2 x1 x2 x3 x4 x5 x6 x9 x10 (layer1 x1 x2 x3 x4 x5 x6 x9 x10
      (layer0 x1 x2 x3 x4 x5 x6 x9 x10 x0))))

end Cert.Net

end
-- ==== Proof.LibRowOfVector.lean ====
/-
  A vector laid out as a one-row matrix, two ways.

  Reshaping a vector of length n to [1, n] and broadcasting it along dimension 1 of [1, n] both put entry j of the vector at
  position (0, j): the two arrays are equal.
-/
import Idealize.ShloMosaic.Lib.Pipeline.Value
import Idealize.ShloMosaic.Lib.ValueIdx

noncomputable section

namespace Cert.Lib

open Idealize.ShloMosaic Idealize.ShloMosaic.ValueIdx

/-- The reshape of a length-n vector to one row is its broadcast along dimension 1 of [1, n]. -/
theorem shapeCast_row_eq_broadcastInDim {n : Nat} {α : Type} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  obtain ⟨p, q, rfl⟩ : ∃ (p : Fin 1) (q : Fin n), j = ix2 p q := ⟨j 0, j 1, eq_ix2 j⟩
  have hp : p.val = 0 := by omega
  -- both sides read the vector at q
  rw [shapeCast_apply b h (ix2 p q) (ix1 q) (by
        rw [Shape.rowMajor_val_one, Shape.rowMajor_val_two]
        show q.val = p.val * n + q.val
        rw [hp]; omega),
      broadcastInDim_apply ![1] h' b (ix2 p q) (ix1 q) (fun a => by
        match a with
        | ⟨0, _⟩ =>
          show q.val = if n = 1 then 0 else q.val
          split
          · omega
          · rfl)]

end Cert.Lib

end
-- ==== Proof.Keep.lean ====
/-
  Buffers that outlive the segment that made them.

  Between two segment boundaries a buffer changes only if the segment between them writes it: a launch writes its own
  arrays and nothing else, a stretch of host operations writes its operations' results and nothing else. The arguments are
  written by nothing, and the clamped in-degree column is written once, by the first stretch; so at every later boundary
  where a stretch reads them they still hold, respectively, what the launch found there and what the first stretch left.
-/
import proofs.«124945_j59390807769652_1_alg».proof.Proof.Gen.KernelIdeal.Frame
import proofs.«124945_j59390807769652_1_alg».proof.Proof.Layer
import Idealize.ShloMosaic.Lib.StableHlo.Run

set_option maxRecDepth 16384

noncomputable section

namespace Cert.KernelIdeal.Keep

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem w2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) hostOps0 (W0 m ρ c) (List.forall_iff_forall_mem.mp (by
        simp only [hostOps0, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg5) := rfl

theorem w6_arg5 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) hostOps2 (W4 m ρ c) (List.forall_iff_forall_mem.mp (by
        simp only [hostOps2, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) hostOps1 (W2 m ρ c) (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg5) := w2_arg5 m ρ c

theorem w10_arg5 : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_forall_not_mem (b := Proc.devRef .tc main_arg5) hostOps4 (W8 m ρ c) (List.forall_iff_forall_mem.mp (by
        simp only [hostOps4, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem (b := Proc.devRef .tc main_arg5) hostOps3 (W6 m ρ c) (List.forall_iff_forall_mem.mp (by
        simp only [hostOps3, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg5) := w6_arg5 m ρ c

theorem w14_arg5 : W14 m ρ c (Proc.devRef .tc main_arg5) = m ((c : Thread nD τ).loc main_arg5) :=
  calc W14 m ρ c (Proc.devRef .tc main_arg5)
    _ = W13 m ρ c (Proc.devRef .tc main_arg5) := W14_of_ne m ρ c main_arg5 (by decide)
    _ = W12 m ρ c (Proc.devRef .tc main_arg5) := StableHlo.after_of_forall_not_mem (b := Proc.devRef .tc main_arg5) hostOps6 (W12 m ρ c) (List.forall_iff_forall_mem.mp (by
        simp only [hostOps6, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W11 m ρ c (Proc.devRef .tc main_arg5) := W12_of_ne m ρ c main_arg5 (by decide)
    _ = W10 m ρ c (Proc.devRef .tc main_arg5) := StableHlo.after_of_forall_not_mem (b := Proc.devRef .tc main_arg5) hostOps5 (W10 m ρ c) (List.forall_iff_forall_mem.mp (by
        simp only [hostOps5, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg5) := w10_arg5 m ρ c

theorem w2_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) hostOps0 (W0 m ρ c) (List.forall_iff_forall_mem.mp (by
        simp only [hostOps0, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg6) := rfl

theorem w6_arg6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) hostOps2 (W4 m ρ c) (List.forall_iff_forall_mem.mp (by
        simp only [hostOps2, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) hostOps1 (W2 m ρ c) (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg6) := w2_arg6 m ρ c

theorem w10_arg6 : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_forall_not_mem (b := Proc.devRef .tc main_arg6) hostOps4 (W8 m ρ c) (List.forall_iff_forall_mem.mp (by
        simp only [hostOps4, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem (b := Proc.devRef .tc main_arg6) hostOps3 (W6 m ρ c) (List.forall_iff_forall_mem.mp (by
        simp only [hostOps3, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg6) := w6_arg6 m ρ c

theorem w14_arg6 : W14 m ρ c (Proc.devRef .tc main_arg6) = m ((c : Thread nD τ).loc main_arg6) :=
  calc W14 m ρ c (Proc.devRef .tc main_arg6)
    _ = W13 m ρ c (Proc.devRef .tc main_arg6) := W14_of_ne m ρ c main_arg6 (by decide)
    _ = W12 m ρ c (Proc.devRef .tc main_arg6) := StableHlo.after_of_forall_not_mem (b := Proc.devRef .tc main_arg6) hostOps6 (W12 m ρ c) (List.forall_iff_forall_mem.mp (by
        simp only [hostOps6, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W11 m ρ c (Proc.devRef .tc main_arg6) := W12_of_ne m ρ c main_arg6 (by decide)
    _ = W10 m ρ c (Proc.devRef .tc main_arg6) := StableHlo.after_of_forall_not_mem (b := Proc.devRef .tc main_arg6) hostOps5 (W10 m ρ c) (List.forall_iff_forall_mem.mp (by
        simp only [hostOps5, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg6) := w10_arg6 m ρ c

theorem w4_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) hostOps1 (W2 m ρ c) (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) hostOps0 (W0 m ρ c) (List.forall_iff_forall_mem.mp (by
        simp only [hostOps0, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg9) := rfl

theorem w8_arg9 : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_forall_not_mem (b := Proc.devRef .tc main_arg9) hostOps3 (W6 m ρ c) (List.forall_iff_forall_mem.mp (by
        simp only [hostOps3, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) hostOps2 (W4 m ρ c) (List.forall_iff_forall_mem.mp (by
        simp only [hostOps2, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg9) := w4_arg9 m ρ c

theorem w12_arg9 : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := StableHlo.after_of_forall_not_mem (b := Proc.devRef .tc main_arg9) hostOps5 (W10 m ρ c) (List.forall_iff_forall_mem.mp (by
        simp only [hostOps5, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) hostOps4 (W8 m ρ c) (List.forall_iff_forall_mem.mp (by
        simp only [hostOps4, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg9) := w8_arg9 m ρ c

theorem w4_arg10 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) hostOps1 (W2 m ρ c) (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) hostOps0 (W0 m ρ c) (List.forall_iff_forall_mem.mp (by
        simp only [hostOps0, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg10) := rfl

theorem w8_arg10 : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_forall_not_mem (b := Proc.devRef .tc main_arg10) hostOps3 (W6 m ρ c) (List.forall_iff_forall_mem.mp (by
        simp only [hostOps3, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) hostOps2 (W4 m ρ c) (List.forall_iff_forall_mem.mp (by
        simp only [hostOps2, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg10) := w4_arg10 m ρ c

theorem w12_arg10 : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := StableHlo.after_of_forall_not_mem (b := Proc.devRef .tc main_arg10) hostOps5 (W10 m ρ c) (List.forall_iff_forall_mem.mp (by
        simp only [hostOps5, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) hostOps4 (W8 m ρ c) (List.forall_iff_forall_mem.mp (by
        simp only [hostOps4, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg10) := w8_arg10 m ρ c

theorem w4_arg1 : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) hostOps1 (W2 m ρ c) (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) hostOps0 (W0 m ρ c) (List.forall_iff_forall_mem.mp (by
        simp only [hostOps0, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg1) := rfl

theorem w8_arg1 : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) hostOps3 (W6 m ρ c) (List.forall_iff_forall_mem.mp (by
        simp only [hostOps3, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) hostOps2 (W4 m ρ c) (List.forall_iff_forall_mem.mp (by
        simp only [hostOps2, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg1) := w4_arg1 m ρ c

theorem w12_arg1 : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := StableHlo.after_of_forall_not_mem (b := Proc.devRef .tc main_arg1) hostOps5 (W10 m ρ c) (List.forall_iff_forall_mem.mp (by
        simp only [hostOps5, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) hostOps4 (W8 m ρ c) (List.forall_iff_forall_mem.mp (by
        simp only [hostOps4, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg1) := w8_arg1 m ρ c

theorem w4_arg2 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) hostOps1 (W2 m ρ c) (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) hostOps0 (W0 m ρ c) (List.forall_iff_forall_mem.mp (by
        simp only [hostOps0, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg2) := rfl

theorem w8_arg2 : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) hostOps3 (W6 m ρ c) (List.forall_iff_forall_mem.mp (by
        simp only [hostOps3, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) hostOps2 (W4 m ρ c) (List.forall_iff_forall_mem.mp (by
        simp only [hostOps2, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg2) := w4_arg2 m ρ c

theorem w12_arg2 : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := Proc.devRef .tc main_arg2) hostOps5 (W10 m ρ c) (List.forall_iff_forall_mem.mp (by
        simp only [hostOps5, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) hostOps4 (W8 m ρ c) (List.forall_iff_forall_mem.mp (by
        simp only [hostOps4, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg2) := w8_arg2 m ρ c

theorem w4_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) hostOps1 (W2 m ρ c) (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) hostOps0 (W0 m ρ c) (List.forall_iff_forall_mem.mp (by
        simp only [hostOps0, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg3) := rfl

theorem w8_arg3 : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_forall_not_mem (b := Proc.devRef .tc main_arg3) hostOps3 (W6 m ρ c) (List.forall_iff_forall_mem.mp (by
        simp only [hostOps3, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) hostOps2 (W4 m ρ c) (List.forall_iff_forall_mem.mp (by
        simp only [hostOps2, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg3) := w4_arg3 m ρ c

theorem w12_arg3 : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := StableHlo.after_of_forall_not_mem (b := Proc.devRef .tc main_arg3) hostOps5 (W10 m ρ c) (List.forall_iff_forall_mem.mp (by
        simp only [hostOps5, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W9 m ρ c (Proc.devRef .tc main_arg3) := W10_of_ne m ρ c main_arg3 (by decide)
    _ = W8 m ρ c (Proc.devRef .tc main_arg3) := StableHlo.after_of_forall_not_mem (b := Proc.devRef .tc main_arg3) hostOps4 (W8 m ρ c) (List.forall_iff_forall_mem.mp (by
        simp only [hostOps4, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg3) := w8_arg3 m ρ c

theorem w4_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) hostOps1 (W2 m ρ c) (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) hostOps0 (W0 m ρ c) (List.forall_iff_forall_mem.mp (by
        simp only [hostOps0, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg4) := rfl

theorem w8_arg4 : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_forall_not_mem (b := Proc.devRef .tc main_arg4) hostOps3 (W6 m ρ c) (List.forall_iff_forall_mem.mp (by
        simp only [hostOps3, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) hostOps2 (W4 m ρ c) (List.forall_iff_forall_mem.mp (by
        simp only [hostOps2, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg4) := w4_arg4 m ρ c

theorem w12_arg4 : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := StableHlo.after_of_forall_not_mem (b := Proc.devRef .tc main_arg4) hostOps5 (W10 m ρ c) (List.forall_iff_forall_mem.mp (by
        simp only [hostOps5, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W9 m ρ c (Proc.devRef .tc main_arg4) := W10_of_ne m ρ c main_arg4 (by decide)
    _ = W8 m ρ c (Proc.devRef .tc main_arg4) := StableHlo.after_of_forall_not_mem (b := Proc.devRef .tc main_arg4) hostOps4 (W8 m ρ c) (List.forall_iff_forall_mem.mp (by
        simp only [hostOps4, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg4) := w8_arg4 m ρ c

/-- The first stretch leaves the clamped in-degree column in its buffer. -/
theorem w1_v6 : W1 m ρ c (Proc.devRef .tc main_v6) = Cert.Net.degree (m ((c : Thread nD τ).loc main_arg10)) := by
  show StableHlo.after hostOps0 (W0 m ρ c) (Proc.devRef .tc main_v6) = _
  after_results
  rfl

theorem w4_v6 : W4 m ρ c (Proc.devRef .tc main_v6) = Cert.Net.degree (m ((c : Thread nD τ).loc main_arg10)) :=
  calc W4 m ρ c (Proc.devRef .tc main_v6)
    _ = W3 m ρ c (Proc.devRef .tc main_v6) := W4_of_ne m ρ c main_v6 (by decide)
    _ = W2 m ρ c (Proc.devRef .tc main_v6) := StableHlo.after_of_forall_not_mem (b := Proc.devRef .tc main_v6) hostOps1 (W2 m ρ c) (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W1 m ρ c (Proc.devRef .tc main_v6) := W2_of_ne m ρ c main_v6 (by decide)
    _ = Cert.Net.degree (m ((c : Thread nD τ).loc main_arg10)) := w1_v6 m ρ c

theorem w8_v6 : W8 m ρ c (Proc.devRef .tc main_v6) = Cert.Net.degree (m ((c : Thread nD τ).loc main_arg10)) :=
  calc W8 m ρ c (Proc.devRef .tc main_v6)
    _ = W7 m ρ c (Proc.devRef .tc main_v6) := W8_of_ne m ρ c main_v6 (by decide)
    _ = W6 m ρ c (Proc.devRef .tc main_v6) := StableHlo.after_of_forall_not_mem (b := Proc.devRef .tc main_v6) hostOps3 (W6 m ρ c) (List.forall_iff_forall_mem.mp (by
        simp only [hostOps3, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) hostOps2 (W4 m ρ c) (List.forall_iff_forall_mem.mp (by
        simp only [hostOps2, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = Cert.Net.degree (m ((c : Thread nD τ).loc main_arg10)) := w4_v6 m ρ c

theorem w12_v6 : W12 m ρ c (Proc.devRef .tc main_v6) = Cert.Net.degree (m ((c : Thread nD τ).loc main_arg10)) :=
  calc W12 m ρ c (Proc.devRef .tc main_v6)
    _ = W11 m ρ c (Proc.devRef .tc main_v6) := W12_of_ne m ρ c main_v6 (by decide)
    _ = W10 m ρ c (Proc.devRef .tc main_v6) := StableHlo.after_of_forall_not_mem (b := Proc.devRef .tc main_v6) hostOps5 (W10 m ρ c) (List.forall_iff_forall_mem.mp (by
        simp only [hostOps5, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W9 m ρ c (Proc.devRef .tc main_v6) := W10_of_ne m ρ c main_v6 (by decide)
    _ = W8 m ρ c (Proc.devRef .tc main_v6) := StableHlo.after_of_forall_not_mem (b := Proc.devRef .tc main_v6) hostOps4 (W8 m ρ c) (List.forall_iff_forall_mem.mp (by
        simp only [hostOps4, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = Cert.Net.degree (m ((c : Thread nD τ).loc main_arg10)) := w8_v6 m ρ c

theorem w16_arg11 : W16 m ρ c (Proc.devRef .tc main_arg11) = m ((c : Thread nD τ).loc main_arg11) :=
  calc W16 m ρ c (Proc.devRef .tc main_arg11)
    _ = W15 m ρ c (Proc.devRef .tc main_arg11) := W16_of_ne m ρ c main_arg11 (by decide)
    _ = W14 m ρ c (Proc.devRef .tc main_arg11) := StableHlo.after_of_forall_not_mem (b := Proc.devRef .tc main_arg11) hostOps7 (W14 m ρ c) (List.forall_iff_forall_mem.mp (by
        simp only [hostOps7, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W13 m ρ c (Proc.devRef .tc main_arg11) := W14_of_ne m ρ c main_arg11 (by decide)
    _ = W12 m ρ c (Proc.devRef .tc main_arg11) := StableHlo.after_of_forall_not_mem (b := Proc.devRef .tc main_arg11) hostOps6 (W12 m ρ c) (List.forall_iff_forall_mem.mp (by
        simp only [hostOps6, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) hostOps5 (W10 m ρ c) (List.forall_iff_forall_mem.mp (by
        simp only [hostOps5, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) hostOps4 (W8 m ρ c) (List.forall_iff_forall_mem.mp (by
        simp only [hostOps4, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) hostOps3 (W6 m ρ c) (List.forall_iff_forall_mem.mp (by
        simp only [hostOps3, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) hostOps2 (W4 m ρ c) (List.forall_iff_forall_mem.mp (by
        simp only [hostOps2, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) hostOps1 (W2 m ρ c) (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) hostOps0 (W0 m ρ c) (List.forall_iff_forall_mem.mp (by
        simp only [hostOps0, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg11) := rfl

theorem w16_arg7 : W16 m ρ c (Proc.devRef .tc main_arg7) = m ((c : Thread nD τ).loc main_arg7) :=
  calc W16 m ρ c (Proc.devRef .tc main_arg7)
    _ = W15 m ρ c (Proc.devRef .tc main_arg7) := W16_of_ne m ρ c main_arg7 (by decide)
    _ = W14 m ρ c (Proc.devRef .tc main_arg7) := StableHlo.after_of_forall_not_mem (b := Proc.devRef .tc main_arg7) hostOps7 (W14 m ρ c) (List.forall_iff_forall_mem.mp (by
        simp only [hostOps7, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W13 m ρ c (Proc.devRef .tc main_arg7) := W14_of_ne m ρ c main_arg7 (by decide)
    _ = W12 m ρ c (Proc.devRef .tc main_arg7) := StableHlo.after_of_forall_not_mem (b := Proc.devRef .tc main_arg7) hostOps6 (W12 m ρ c) (List.forall_iff_forall_mem.mp (by
        simp only [hostOps6, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W11 m ρ c (Proc.devRef .tc main_arg7) := W12_of_ne m ρ c main_arg7 (by decide)
    _ = W10 m ρ c (Proc.devRef .tc main_arg7) := StableHlo.after_of_forall_not_mem (b := Proc.devRef .tc main_arg7) hostOps5 (W10 m ρ c) (List.forall_iff_forall_mem.mp (by
        simp only [hostOps5, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W9 m ρ c (Proc.devRef .tc main_arg7) := W10_of_ne m ρ c main_arg7 (by decide)
    _ = W8 m ρ c (Proc.devRef .tc main_arg7) := StableHlo.after_of_forall_not_mem (b := Proc.devRef .tc main_arg7) hostOps4 (W8 m ρ c) (List.forall_iff_forall_mem.mp (by
        simp only [hostOps4, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) hostOps3 (W6 m ρ c) (List.forall_iff_forall_mem.mp (by
        simp only [hostOps3, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) hostOps2 (W4 m ρ c) (List.forall_iff_forall_mem.mp (by
        simp only [hostOps2, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) hostOps1 (W2 m ρ c) (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) hostOps0 (W0 m ρ c) (List.forall_iff_forall_mem.mp (by
        simp only [hostOps0, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg7) := rfl

theorem w16_arg8 : W16 m ρ c (Proc.devRef .tc main_arg8) = m ((c : Thread nD τ).loc main_arg8) :=
  calc W16 m ρ c (Proc.devRef .tc main_arg8)
    _ = W15 m ρ c (Proc.devRef .tc main_arg8) := W16_of_ne m ρ c main_arg8 (by decide)
    _ = W14 m ρ c (Proc.devRef .tc main_arg8) := StableHlo.after_of_forall_not_mem (b := Proc.devRef .tc main_arg8) hostOps7 (W14 m ρ c) (List.forall_iff_forall_mem.mp (by
        simp only [hostOps7, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W13 m ρ c (Proc.devRef .tc main_arg8) := W14_of_ne m ρ c main_arg8 (by decide)
    _ = W12 m ρ c (Proc.devRef .tc main_arg8) := StableHlo.after_of_forall_not_mem (b := Proc.devRef .tc main_arg8) hostOps6 (W12 m ρ c) (List.forall_iff_forall_mem.mp (by
        simp only [hostOps6, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) hostOps5 (W10 m ρ c) (List.forall_iff_forall_mem.mp (by
        simp only [hostOps5, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) hostOps4 (W8 m ρ c) (List.forall_iff_forall_mem.mp (by
        simp only [hostOps4, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) hostOps3 (W6 m ρ c) (List.forall_iff_forall_mem.mp (by
        simp only [hostOps3, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) hostOps2 (W4 m ρ c) (List.forall_iff_forall_mem.mp (by
        simp only [hostOps2, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) hostOps1 (W2 m ρ c) (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) hostOps0 (W0 m ρ c) (List.forall_iff_forall_mem.mp (by
        simp only [hostOps0, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))
    _ = m ((c : Thread nD τ).loc main_arg8) := rfl

end Cert.KernelIdeal.Keep

end
-- ==== Proof.KernelLayer0.lean ====
/-
  Layer 0 of the kernel program, from boundary to boundary.

  Between the boundary where the layer's input features sit in their buffer and the boundary after its second launch there
  are four segments: a stretch of host operations (the aggregation of the features over the edges, the layer's slices of
  the stacked weights and biases, the biases recast as rows), the perceptron launch, a second stretch (the column means and
  inverse deviations of the pre-activations, the layer's scale and shift, all four recast as rows) and the normalisation
  launch. Reading the four segments in turn — each stretch by its operations, each launch by what it leaves in its output
  array — the buffer of the layer's output ends at the layer function of the input features.
-/
import proofs.«124945_j59390807769652_1_alg».proof.Proof.Gen.KernelIdeal.Frame
import proofs.«124945_j59390807769652_1_alg».proof.Proof.Launch0
import proofs.«124945_j59390807769652_1_alg».proof.Proof.Launch1
import proofs.«124945_j59390807769652_1_alg».proof.Proof.Layer
import proofs.«124945_j59390807769652_1_alg».proof.Proof.LibRowOfVector
import proofs.«124945_j59390807769652_1_alg».proof.Proof.Keep
import Idealize.ShloMosaic.Lib.StableHlo.Run

set_option maxRecDepth 16384
set_option maxHeartbeats 4000000

noncomputable section

namespace Cert.KernelIdeal.Layer0

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first stretch: what the perceptron launch finds in its six input arrays -/

theorem pre_h : V1 m ρ c main_arg0 = (m ((c : Thread nD τ).loc main_arg0)) := by
  show StableHlo.after hostOps0 (W0 m ρ c) (Proc.devRef .tc main_arg0) = _
  refine (StableHlo.after_of_forall_not_mem (b := Proc.devRef .tc main_arg0) hostOps0 (W0 m ρ c) (List.forall_iff_forall_mem.mp (by
        simp only [hostOps0, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))).trans ?_
  exact rfl

theorem pre_agg : V1 m ρ c main_v18
    = Cert.Net.aggregate (Cert.Net.degree (m ((c : Thread nD τ).loc main_arg10))) (m ((c : Thread nD τ).loc main_arg9)) (m ((c : Thread nD τ).loc main_arg10)) (m ((c : Thread nD τ).loc main_arg0)) := by
  show StableHlo.after hostOps0 (W0 m ρ c) (Proc.devRef .tc main_v18) = _
  after_results
  rfl

theorem pre_w1 : V1 m ρ c main_v20 = Cert.Net.weight0 (m ((c : Thread nD τ).loc main_arg1)) := by
  show StableHlo.after hostOps0 (W0 m ρ c) (Proc.devRef .tc main_v20) = _
  after_results
  rfl

theorem pre_b1 : V1 m ρ c main_v27 = Cert.Net.row (Cert.Net.vector0 (m ((c : Thread nD τ).loc main_arg2))) := by
  show StableHlo.after hostOps0 (W0 m ρ c) (Proc.devRef .tc main_v27) = _
  after_results
  exact Cert.Lib.shapeCast_row_eq_broadcastInDim (Cert.Net.vector0 (m ((c : Thread nD τ).loc main_arg2))) _ _

theorem pre_w2 : V1 m ρ c main_v24 = Cert.Net.weight0 (m ((c : Thread nD τ).loc main_arg3)) := by
  show StableHlo.after hostOps0 (W0 m ρ c) (Proc.devRef .tc main_v24) = _
  after_results
  rfl

theorem pre_b2 : V1 m ρ c main_v28 = Cert.Net.row (Cert.Net.vector0 (m ((c : Thread nD τ).loc main_arg4))) := by
  show StableHlo.after hostOps0 (W0 m ρ c) (Proc.devRef .tc main_v28) = _
  after_results
  exact Cert.Lib.shapeCast_row_eq_broadcastInDim (Cert.Net.vector0 (m ((c : Thread nD τ).loc main_arg4))) _ _

/-! ## The perceptron launch: the pre-activations -/

theorem z_eq : W2 m ρ c (Proc.devRef .tc main_v29) = Cert.Net.dense (Cert.Net.degree (m ((c : Thread nD τ).loc main_arg10))) (m ((c : Thread nD τ).loc main_arg9)) (m ((c : Thread nD τ).loc main_arg10)) (Cert.Net.weight0 (m ((c : Thread nD τ).loc main_arg1))) (Cert.Net.vector0 (m ((c : Thread nD τ).loc main_arg2))) (Cert.Net.weight0 (m ((c : Thread nD τ).loc main_arg3))) (Cert.Net.vector0 (m ((c : Thread nD τ).loc main_arg4))) (m ((c : Thread nD τ).loc main_arg0)) := by
  refine (W2_arr m ρ c 6).trans ?_
  rw [Launch0.array_eq (V1 m ρ) c, pre_h m ρ c, pre_agg m ρ c, pre_w1 m ρ c, pre_b1 m ρ c, pre_w2 m ρ c, pre_b2 m ρ c]
  rfl

/-! ## The second stretch: what the normalisation launch finds in its five input arrays -/

theorem stat_z : V3 m ρ c main_v29 = Cert.Net.dense (Cert.Net.degree (m ((c : Thread nD τ).loc main_arg10))) (m ((c : Thread nD τ).loc main_arg9)) (m ((c : Thread nD τ).loc main_arg10)) (Cert.Net.weight0 (m ((c : Thread nD τ).loc main_arg1))) (Cert.Net.vector0 (m ((c : Thread nD τ).loc main_arg2))) (Cert.Net.weight0 (m ((c : Thread nD τ).loc main_arg3))) (Cert.Net.vector0 (m ((c : Thread nD τ).loc main_arg4))) (m ((c : Thread nD τ).loc main_arg0)) := by
  show StableHlo.after hostOps1 (W2 m ρ c) (Proc.devRef .tc main_v29) = _
  refine (StableHlo.after_of_forall_not_mem (b := Proc.devRef .tc main_v29) hostOps1 (W2 m ρ c) (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))).trans ?_
  exact z_eq m ρ c

theorem stat_g : V3 m ρ c main_v47 = Cert.Net.row (Cert.Net.vector0 (m ((c : Thread nD τ).loc main_arg5))) := by
  show StableHlo.after hostOps1 (W2 m ρ c) (Proc.devRef .tc main_v47) = _
  after_results
  rw [Keep.w2_arg5 m ρ c]
  exact Cert.Lib.shapeCast_row_eq_broadcastInDim (Cert.Net.vector0 (m ((c : Thread nD τ).loc main_arg5))) _ _

theorem stat_be : V3 m ρ c main_v48 = Cert.Net.row (Cert.Net.vector0 (m ((c : Thread nD τ).loc main_arg6))) := by
  show StableHlo.after hostOps1 (W2 m ρ c) (Proc.devRef .tc main_v48) = _
  after_results
  rw [Keep.w2_arg6 m ρ c]
  exact Cert.Lib.shapeCast_row_eq_broadcastInDim (Cert.Net.vector0 (m ((c : Thread nD τ).loc main_arg6))) _ _

theorem stat_mu : V3 m ρ c main_v49 = Cert.Net.row (Cert.Net.colMean (Cert.Net.dense (Cert.Net.degree (m ((c : Thread nD τ).loc main_arg10))) (m ((c : Thread nD τ).loc main_arg9)) (m ((c : Thread nD τ).loc main_arg10)) (Cert.Net.weight0 (m ((c : Thread nD τ).loc main_arg1))) (Cert.Net.vector0 (m ((c : Thread nD τ).loc main_arg2))) (Cert.Net.weight0 (m ((c : Thread nD τ).loc main_arg3))) (Cert.Net.vector0 (m ((c : Thread nD τ).loc main_arg4))) (m ((c : Thread nD τ).loc main_arg0)))) := by
  show StableHlo.after hostOps1 (W2 m ρ c) (Proc.devRef .tc main_v49) = _
  after_results
  rw [z_eq m ρ c]
  exact Cert.Lib.shapeCast_row_eq_broadcastInDim (Cert.Net.colMean (Cert.Net.dense (Cert.Net.degree (m ((c : Thread nD τ).loc main_arg10))) (m ((c : Thread nD τ).loc main_arg9)) (m ((c : Thread nD τ).loc main_arg10)) (Cert.Net.weight0 (m ((c : Thread nD τ).loc main_arg1))) (Cert.Net.vector0 (m ((c : Thread nD τ).loc main_arg2))) (Cert.Net.weight0 (m ((c : Thread nD τ).loc main_arg3))) (Cert.Net.vector0 (m ((c : Thread nD τ).loc main_arg4))) (m ((c : Thread nD τ).loc main_arg0)))) _ _

theorem stat_s : V3 m ρ c main_v50 = Cert.Net.row (Cert.Net.invDev (Cert.Net.dense (Cert.Net.degree (m ((c : Thread nD τ).loc main_arg10))) (m ((c : Thread nD τ).loc main_arg9)) (m ((c : Thread nD τ).loc main_arg10)) (Cert.Net.weight0 (m ((c : Thread nD τ).loc main_arg1))) (Cert.Net.vector0 (m ((c : Thread nD τ).loc main_arg2))) (Cert.Net.weight0 (m ((c : Thread nD τ).loc main_arg3))) (Cert.Net.vector0 (m ((c : Thread nD τ).loc main_arg4))) (m ((c : Thread nD τ).loc main_arg0)))) := by
  show StableHlo.after hostOps1 (W2 m ρ c) (Proc.devRef .tc main_v50) = _
  after_results
  rw [z_eq m ρ c]
  exact Cert.Lib.shapeCast_row_eq_broadcastInDim (Cert.Net.invDev (Cert.Net.dense (Cert.Net.degree (m ((c : Thread nD τ).loc main_arg10))) (m ((c : Thread nD τ).loc main_arg9)) (m ((c : Thread nD τ).loc main_arg10)) (Cert.Net.weight0 (m ((c : Thread nD τ).loc main_arg1))) (Cert.Net.vector0 (m ((c : Thread nD τ).loc main_arg2))) (Cert.Net.weight0 (m ((c : Thread nD τ).loc main_arg3))) (Cert.Net.vector0 (m ((c : Thread nD τ).loc main_arg4))) (m ((c : Thread nD τ).loc main_arg0)))) _ _

/-! ## The normalisation launch: the layer's output -/

/-- THE LAYER: its output buffer after the second launch holds the layer function of the features it started from. -/
theorem out_eq : W4 m ρ c (Proc.devRef .tc main_v51)
    = Cert.Net.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg0)) := by
  refine (W4_arr m ρ c 5).trans ?_
  rw [Launch1.array_eq (V3 m ρ) c, stat_z m ρ c, stat_g m ρ c, stat_be m ρ c, stat_mu m ρ c, stat_s m ρ c]
  rfl

end Cert.KernelIdeal.Layer0

end
-- ==== Proof.Launch2.lean ====
/-
  What launch 2 (a perceptron launch) leaves in its output array, as one function of the arrays it finds.

  The launch has twenty grid points; point t stages rows 5000·t … 5000·t + 4999 of the node features and of the aggregated
  features, the whole of both weight matrices and both bias rows, and writes back rows 5000·t … of the output. What it
  writes is the perceptron of its blocks, which is the block of the whole-array perceptron (the perceptron is row-local);
  the twenty blocks tile the output array, so after the launch the array holds the whole-array perceptron of what the
  launch found in its six input arrays.
-/
import proofs.«124945_j59390807769652_1_alg».proof.Proof.Gen.KernelIdeal.Frame
import proofs.«124945_j59390807769652_1_alg».proof.Proof.LibPerceptronBlock
import proofs.«124945_j59390807769652_1_alg».proof.Proof.Net
import Idealize.ShloMosaic.Lib.Pipeline.Value

set_option maxRecDepth 16384

noncomputable section

namespace Cert.KernelIdeal.Launch2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic with its identity casts removed. -/
theorem payload_eq (v0 v1 : Vec Ideal S5000x128 .f32) (v5 : Vec Ideal S128x128 .f32) (v9 : Vec Ideal S1x128 .f32)
    (v16 : Vec Ideal S128x128 .f32) (v20 : Vec Ideal S1x128 .f32) :
    k2_pay1 v0 v1 v5 v9 v16 v20
      = addf (matmul (DotDims.plain 5000 128 128) none
          (truncf .bf16 (maximumf (addf (matmul (DotDims.plain 5000 128 128) none (truncf .bf16 (addf v0 v1) bitsLt_bf16_f32)
                (truncf .bf16 v5 bitsLt_bf16_f32) (constant ⟨2, ![5000, 128]⟩ .f32 0x00000000#32))
              (broadcastTo ⟨2, ![5000, 128]⟩ v9 broadcasts_S1x128_S5000x128))
            (broadcast ⟨2, ![5000, 128]⟩ (Scalar.ofBits (F := Ideal) .f32 0x00000000#32))) bitsLt_bf16_f32)
          (truncf .bf16 v16 bitsLt_bf16_f32) (constant ⟨2, ![5000, 128]⟩ .f32 0x00000000#32))
        (broadcastTo ⟨2, ![5000, 128]⟩ v20 broadcasts_S1x128_S5000x128) := by
  unfold k2_pay1
  simp only [shapeCast_self]
  rfl

/-- The body's result on blocks that sit in whole arrays at a row offset, read at a block index, is the whole-array
    perceptron read where the output block puts the index. -/
theorem point_eq (x0 x1 : Vec Ideal S5000x128 .f32) (x2 : Vec Ideal S128x128 .f32) (x3 : Vec Ideal S1x128 .f32)
    (x4 : Vec Ideal S128x128 .f32) (x5 : Vec Ideal S1x128 .f32)
    (H A : FVec Ideal S100000x128 .f32) (W1 : FVec Ideal S128x128 .f32) (B1 : FVec Ideal S1x128 .f32)
    (W2 : FVec Ideal S128x128 .f32) (B2 : FVec Ideal S1x128 .f32)
    (eh ea eo : S5000x128.Idx → S100000x128.Idx) (off : Nat)
    (hx0 : ∀ y, x0 y = H (eh y)) (hx1 : ∀ y, x1 y = A (ea y)) (hea : ∀ y, ea y = eh y)
    (hx2 : ∀ y, x2 y = W1 y) (hx3 : ∀ y, x3 y = B1 y) (hx4 : ∀ y, x4 y = W2 y) (hx5 : ∀ y, x5 y = B2 y)
    (heh0 : ∀ y, (eh y 0).val = off + (y 0).val) (heh1 : ∀ y, (eh y 1).val = (y 1).val)
    (heo0 : ∀ y, (eo y 0).val = off + (y 0).val) (heo1 : ∀ y, (eo y 1).val = (y 1).val)
    (j : S5000x128.Idx) :
    k2_pay1 x0 x1 x2 x3 x4 x5 j = Cert.Net.perceptron H A W1 B1 W2 B2 (eo j) := by
  obtain rfl : x2 = W1 := funext hx2
  obtain rfl : x3 = B1 := funext hx3
  obtain rfl : x4 = W2 := funext hx4
  obtain rfl : x5 = B2 := funext hx5
  rw [payload_eq]
  exact Cert.Lib.perceptron_row_block none x0 x1 x2 x3 x4 x5 H A eh ea eo eo off hx0 hx1 hea heh0 heh1 heo0 heo1 heo0 heo1
    broadcasts_S1x128_S5000x128 Cert.Net.hrow broadcasts_S1x128_S5000x128 Cert.Net.hrow 0x00000000#32 Cert.Net.hsplat
    bitsLt_bf16_f32 bitsLt_bf16_f32 bitsLt_bf16_f32 bitsLt_bf16_f32 j

/-- The printed index maps, decided over the twenty grid points: the two row-blocked inputs and the output move together
    along the rows, and the weights and bias rows stay at the origin. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point `t` writes back is block `t` of the whole-array perceptron of the arrays the launch finds. -/
theorem flushed_eq (c : Dev nD) (t : Fin cfg2.N) :
    (dat2 V c).flushed 6 t = ((cfg2.win 6).blk t).view.read (Elt Ideal)
      (Cert.Net.perceptron (V c main_v51) (V c main_v63) (V c main_v65) (V c main_v72) (V c main_v69) (V c main_v73)) := by
  show (cfg2.win 6).cut (grid2.coords t) ((dat2 V c).after 6 t) = _
  rw [after2_6]
  unfold out2_6
  rw [View.canon_unit_zero origin]
  simp only [View.ld_unit_zero (S := S5000x128) origin, View.ld_unit_zero (S := S128x128) origin,
    View.ld_unit_zero (S := S1x128) origin]
  obtain ⟨i00, i01, i10, i11, i20, i21, i30, i31, i40, i41, i50, i51, i60, i61⟩ := index_facts t
  funext j
  refine point_eq (iblk2 V c 0 t) (iblk2 V c 1 t) (iblk2 V c 2 t) (iblk2 V c 3 t) (iblk2 V c 4 t) (iblk2 V c 5 t)
    (V c main_v51) (V c main_v63) (V c main_v65) (V c main_v72) (V c main_v69) (V c main_v73)
    ((cfg2.win 0).blk t).view.emb ((cfg2.win 1).blk t).view.emb ((cfg2.win 6).blk t).view.emb (5000 * t.val)
    (fun y => rfl) (fun y => rfl) (fun y => ?_) (fun y => ?_) (fun y => ?_) (fun y => ?_) (fun y => ?_)
    (fun y => ?_) (fun y => ?_) (fun y => ?_) (fun y => ?_) j
  · funext a; apply Fin.ext
    match a with
    | ⟨0, _⟩ => show win2_1.index t (0 : Fin 2) * 5000 + 1 * (y 0).val = win2_0.index t (0 : Fin 2) * 5000 + 1 * (y 0).val; omega
    | ⟨1, _⟩ => show win2_1.index t (1 : Fin 2) * 128 + 1 * (y 1).val = win2_0.index t (1 : Fin 2) * 128 + 1 * (y 1).val; omega
  · show V c main_v65 (((cfg2.win 2).blk t).view.emb y) = V c main_v65 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · show V c main_v72 (((cfg2.win 3).blk t).view.emb y) = V c main_v72 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  · show V c main_v69 (((cfg2.win 4).blk t).view.emb y) = V c main_v69 y
    refine congrArg _ (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  · show V c main_v73 (((cfg2.win 5).blk t).view.emb y) = V c main_v73 y
    refine congrArg _ (funext fun a => Fin.ext ?_)
    match a with
    | ⟨0, _⟩ => show win2_5.index t (0 : Fin 2) * 1 + 1 * (y 0).val = (y 0).val; omega
    | ⟨1, _⟩ => show win2_5.index t (1 : Fin 2) * 128 + 1 * (y 1).val = (y 1).val; omega
  · show win2_0.index t (0 : Fin 2) * 5000 + 1 * (y 0).val = 5000 * t.val + (y 0).val; omega
  · show win2_0.index t (1 : Fin 2) * 128 + 1 * (y 1).val = (y 1).val; omega
  · show win2_6.index t (0 : Fin 2) * 5000 + 1 * (y 0).val = 5000 * t.val + (y 0).val; omega
  · show win2_6.index t (1 : Fin 2) * 128 + 1 * (y 1).val = (y 1).val; omega

/-- An index of the output array is in point `t`'s block iff each coordinate is in the block's range on its axis. -/
theorem mem_block (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v74).slice (win2_6.rect t)).set ↔ _
  rw [View.set_slice_whole, Rect.mem_set_unit]
  exact Iff.rfl

/-- The twenty blocks tile the output array: row r is in the block of point r / 5000. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨i00, i01, i10, i11, i20, i21, i30, i31, i40, i41, i50, i51, i60, i61⟩ := index_facts ⟨(i 0).val / 5000, ht⟩
  refine ⟨⟨(i 0).val / 5000, ht⟩, flush2_6 _, ?_⟩
  rw [mem_block]
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    rw [i60]; show (i 0).val / 5000 * 5000 ≤ (i 0).val ∧ (i 0).val < (i 0).val / 5000 * 5000 + 5000; omega
  | ⟨1, _⟩ =>
    show win2_6.index ⟨(i 0).val / 5000, ht⟩ (1 : Fin 2) * 128 ≤ (i 1).val
      ∧ (i 1).val < win2_6.index ⟨(i 0).val / 5000, ht⟩ (1 : Fin 2) * 128 + 128
    rw [i61]; omega

/-- THE OUTPUT ARRAY after the launch: the whole-array perceptron of the arrays the launch found. -/
theorem array_eq (c : Dev nD) : (dat2 V c).arrAt 6 cfg2.N
    = Cert.Net.perceptron (V c main_v51) (V c main_v63) (V c main_v65) (V c main_v72) (V c main_v69) (V c main_v73) :=
  (dat2 V c).arrAt_eq_of_cover 6 _ (fun t _ => flushed_eq V c t) cover

end Cert.KernelIdeal.Launch2

end
-- ==== Proof.Launch3.lean ====
/-
  What launch 3 (a normalisation launch) leaves in its output array, as one function of the arrays it finds.

  The launch has twenty grid points; point t stages rows 5000·t … 5000·t + 4999 of the pre-activations z and the four
  rows g, β, μ, s whole, and writes back rows 5000·t … of the output. What it writes is max((g ⊙ (z − μ)) ⊙ s + β, 0) of its
  block of z, which is the block of that expression of the whole array (entry (r, c) depends on z (r, c) and on column c
  of the four rows only); the twenty blocks tile the output array, so after the launch the array holds the whole-array
  normalisation of what the launch found in its five input arrays.
-/
import proofs.«124945_j59390807769652_1_alg».proof.Proof.Gen.KernelIdeal.Frame
import proofs.«124945_j59390807769652_1_alg».proof.Proof.LibPerceptronBlock
import proofs.«124945_j59390807769652_1_alg».proof.Proof.Net
import Idealize.ShloMosaic.Lib.Pipeline.Value

set_option maxRecDepth 16384

noncomputable section

namespace Cert.KernelIdeal.Launch3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic with its identity casts removed: the loads are z, g, μ, s, β in that order. -/
theorem payload_eq (v0 : Vec Ideal S5000x128 .f32) (v2 v4 v10 v14 : Vec Ideal S1x128 .f32) :
    k3_pay1 v0 v2 v4 v10 v14
      = maximumf (addf (mulf (mulf (broadcastTo ⟨2, ![5000, 128]⟩ v2 broadcasts_S1x128_S5000x128)
              (subf v0 (broadcastTo ⟨2, ![5000, 128]⟩ v4 broadcasts_S1x128_S5000x128)))
            (broadcastTo ⟨2, ![5000, 128]⟩ v10 broadcasts_S1x128_S5000x128))
          (broadcastTo ⟨2, ![5000, 128]⟩ v14 broadcasts_S1x128_S5000x128))
        (broadcast ⟨2, ![5000, 128]⟩ (Scalar.ofBits (F := Ideal) .f32 0x00000000#32)) := by
  unfold k3_pay1
  simp only [shapeCast_self]

/-- The body's result on a block of z that sits in the whole array, read at a block index, is the whole-array normalisation
    read where the output block puts the index. -/
theorem point_eq (x0 : Vec Ideal S5000x128 .f32) (x1 x2 x3 x4 : Vec Ideal S1x128 .f32)
    (Z : FVec Ideal S100000x128 .f32) (G Be Mu Sd : FVec Ideal S1x128 .f32)
    (ez eo : S5000x128.Idx → S100000x128.Idx)
    (hx0 : ∀ y, x0 y = Z (ez y)) (hez : ∀ y, ez y = eo y)
    (hx1 : ∀ y, x1 y = G y) (hx2 : ∀ y, x2 y = Be y) (hx3 : ∀ y, x3 y = Mu y) (hx4 : ∀ y, x4 y = Sd y)
    (heo1 : ∀ y, (eo y 1).val = (y 1).val)
    (j : S5000x128.Idx) :
    k3_pay1 x0 x1 x3 x4 x2 j = Cert.Net.normalise Z G Be Mu Sd (eo j) := by
  obtain rfl : x1 = G := funext hx1
  obtain rfl : x2 = Be := funext hx2
  obtain rfl : x3 = Mu := funext hx3
  obtain rfl : x4 = Sd := funext hx4
  rw [payload_eq]
  exact Cert.Lib.normalise_row_block x0 Z x1 x3 x4 x2 ez eo hx0 hez heo1 broadcasts_S1x128_S5000x128 Cert.Net.hrow
    0x00000000#32 Cert.Net.hsplat j

/-- The printed index maps, decided over the twenty grid points: the row-blocked input and the output move together along
    the rows, and the four rows stay at the origin. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of the whole-array normalisation of the arrays the launch finds. -/
theorem flushed_eq (c : Dev nD) (t : Fin cfg3.N) :
    (dat3 V c).flushed 5 t = ((cfg3.win 5).blk t).view.read (Elt Ideal)
      (Cert.Net.normalise (V c main_v74) (V c main_v92) (V c main_v93) (V c main_v94) (V c main_v95)) := by
  show (cfg3.win 5).cut (grid3.coords t) ((dat3 V c).after 5 t) = _
  rw [after3_5]
  unfold out3_5
  rw [View.canon_unit_zero origin]
  simp only [View.ld_unit_zero (S := S5000x128) origin, View.ld_unit_zero (S := S1x128) origin]
  obtain ⟨i00, i01, i10, i11, i20, i21, i30, i31, i40, i41, i50, i51⟩ := index_facts t
  funext j
  refine point_eq (iblk3 V c 0 t) (iblk3 V c 1 t) (iblk3 V c 2 t) (iblk3 V c 3 t) (iblk3 V c 4 t)
    (V c main_v74) (V c main_v92) (V c main_v93) (V c main_v94) (V c main_v95)
    ((cfg3.win 0).blk t).view.emb ((cfg3.win 5).blk t).view.emb
    (fun y => rfl) (fun y => ?_) (fun y => ?_) (fun y => ?_) (fun y => ?_) (fun y => ?_) (fun y => ?_) j
  · funext a; apply Fin.ext
    match a with
    | ⟨0, _⟩ => show win3_0.index t (0 : Fin 2) * 5000 + 1 * (y 0).val = win3_5.index t (0 : Fin 2) * 5000 + 1 * (y 0).val; omega
    | ⟨1, _⟩ => show win3_0.index t (1 : Fin 2) * 128 + 1 * (y 1).val = win3_5.index t (1 : Fin 2) * 128 + 1 * (y 1).val; omega
  · show V c main_v92 (((cfg3.win 1).blk t).view.emb y) = V c main_v92 y
    refine congrArg _ (funext fun a => Fin.ext ?_)
    match a with
    | ⟨0, _⟩ => show win3_1.index t (0 : Fin 2) * 1 + 1 * (y 0).val = (y 0).val; omega
    | ⟨1, _⟩ => show win3_1.index t (1 : Fin 2) * 128 + 1 * (y 1).val = (y 1).val; omega
  · show V c main_v93 (((cfg3.win 2).blk t).view.emb y) = V c main_v93 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  · show V c main_v94 (((cfg3.win 3).blk t).view.emb y) = V c main_v94 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 128 + 1 * (y 1).val = (y 1).val; omega
  · show V c main_v95 (((cfg3.win 4).blk t).view.emb y) = V c main_v95 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 128 + 1 * (y 1).val = (y 1).val; omega
  · show win3_5.index t (1 : Fin 2) * 128 + 1 * (y 1).val = (y 1).val; omega

/-- An index of the output array is in point `t`'s block iff each coordinate is in the block's range on its axis. -/
theorem mem_block (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v96).slice (win3_5.rect t)).set ↔ _
  rw [View.set_slice_whole, Rect.mem_set_unit]
  exact Iff.rfl

/-- The twenty blocks tile the output array: row r is in the block of point r / 5000. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨i00, i01, i10, i11, i20, i21, i30, i31, i40, i41, i50, i51⟩ := index_facts ⟨(i 0).val / 5000, ht⟩
  refine ⟨⟨(i 0).val / 5000, ht⟩, flush3_5 _, ?_⟩
  rw [mem_block]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [i50]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    rw [i51]; omega

/-- THE OUTPUT ARRAY after the launch: the whole-array normalisation of the arrays the launch found. -/
theorem array_eq (c : Dev nD) : (dat3 V c).arrAt 5 cfg3.N
    = Cert.Net.normalise (V c main_v74) (V c main_v92) (V c main_v93) (V c main_v94) (V c main_v95) :=
  (dat3 V c).arrAt_eq_of_cover 5 _ (fun t _ => flushed_eq V c t) cover

end Cert.KernelIdeal.Launch3

end
-- ==== Proof.KernelLayer1.lean ====
/-
  Layer 1 of the kernel program, from boundary to boundary.

  Between the boundary where the layer's input features sit in their buffer and the boundary after its second launch there
  are four segments: a stretch of host operations (the aggregation of the features over the edges, the layer's slices of
  the stacked weights and biases, the biases recast as rows), the perceptron launch, a second stretch (the column means and
  inverse deviations of the pre-activations, the layer's scale and shift, all four recast as rows) and the normalisation
  launch. Reading the four segments in turn — each stretch by its operations, each launch by what it leaves in its output
  array — the buffer of the layer's output ends at the layer function of the input features.
-/
import proofs.«124945_j59390807769652_1_alg».proof.Proof.Gen.KernelIdeal.Frame
import proofs.«124945_j59390807769652_1_alg».proof.Proof.Launch2
import proofs.«124945_j59390807769652_1_alg».proof.Proof.Launch3
import proofs.«124945_j59390807769652_1_alg».proof.Proof.Layer
import proofs.«124945_j59390807769652_1_alg».proof.Proof.LibRowOfVector
import proofs.«124945_j59390807769652_1_alg».proof.Proof.Keep
import Idealize.ShloMosaic.Lib.StableHlo.Run

set_option maxRecDepth 16384
set_option maxHeartbeats 4000000

noncomputable section

namespace Cert.KernelIdeal.Layer1

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first stretch: what the perceptron launch finds in its six input arrays -/

theorem pre_h (H : Cert.Net.FArr S100000x128) (hH : W4 m ρ c (Proc.devRef .tc main_v51) = H) : V5 m ρ c main_v51 = H := by
  show StableHlo.after hostOps2 (W4 m ρ c) (Proc.devRef .tc main_v51) = _
  refine (StableHlo.after_of_forall_not_mem (b := Proc.devRef .tc main_v51) hostOps2 (W4 m ρ c) (List.forall_iff_forall_mem.mp (by
        simp only [hostOps2, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))).trans ?_
  exact hH

theorem pre_agg (H : Cert.Net.FArr S100000x128) (hH : W4 m ρ c (Proc.devRef .tc main_v51) = H) : V5 m ρ c main_v63
    = Cert.Net.aggregate (Cert.Net.degree (m ((c : Thread nD τ).loc main_arg10))) (m ((c : Thread nD τ).loc main_arg9)) (m ((c : Thread nD τ).loc main_arg10)) H := by
  show StableHlo.after hostOps2 (W4 m ρ c) (Proc.devRef .tc main_v63) = _
  after_results
  rw [Keep.w4_arg9 m ρ c, Keep.w4_arg10 m ρ c, Keep.w4_v6 m ρ c, hH]
  rfl

theorem pre_w1 : V5 m ρ c main_v65 = Cert.Net.weight1 (m ((c : Thread nD τ).loc main_arg1)) := by
  show StableHlo.after hostOps2 (W4 m ρ c) (Proc.devRef .tc main_v65) = _
  after_results
  rw [Keep.w4_arg1 m ρ c]
  rfl

theorem pre_b1 : V5 m ρ c main_v72 = Cert.Net.row (Cert.Net.vector1 (m ((c : Thread nD τ).loc main_arg2))) := by
  show StableHlo.after hostOps2 (W4 m ρ c) (Proc.devRef .tc main_v72) = _
  after_results
  rw [Keep.w4_arg2 m ρ c]
  exact Cert.Lib.shapeCast_row_eq_broadcastInDim (Cert.Net.vector1 (m ((c : Thread nD τ).loc main_arg2))) _ _

theorem pre_w2 : V5 m ρ c main_v69 = Cert.Net.weight1 (m ((c : Thread nD τ).loc main_arg3)) := by
  show StableHlo.after hostOps2 (W4 m ρ c) (Proc.devRef .tc main_v69) = _
  after_results
  rw [Keep.w4_arg3 m ρ c]
  rfl

theorem pre_b2 : V5 m ρ c main_v73 = Cert.Net.row (Cert.Net.vector1 (m ((c : Thread nD τ).loc main_arg4))) := by
  show StableHlo.after hostOps2 (W4 m ρ c) (Proc.devRef .tc main_v73) = _
  after_results
  rw [Keep.w4_arg4 m ρ c]
  exact Cert.Lib.shapeCast_row_eq_broadcastInDim (Cert.Net.vector1 (m ((c : Thread nD τ).loc main_arg4))) _ _

/-! ## The perceptron launch: the pre-activations -/

theorem z_eq (H : Cert.Net.FArr S100000x128) (hH : W4 m ρ c (Proc.devRef .tc main_v51) = H) : W6 m ρ c (Proc.devRef .tc main_v74) = Cert.Net.dense (Cert.Net.degree (m ((c : Thread nD τ).loc main_arg10))) (m ((c : Thread nD τ).loc main_arg9)) (m ((c : Thread nD τ).loc main_arg10)) (Cert.Net.weight1 (m ((c : Thread nD τ).loc main_arg1))) (Cert.Net.vector1 (m ((c : Thread nD τ).loc main_arg2))) (Cert.Net.weight1 (m ((c : Thread nD τ).loc main_arg3))) (Cert.Net.vector1 (m ((c : Thread nD τ).loc main_arg4))) H := by
  refine (W6_arr m ρ c 6).trans ?_
  rw [Launch2.array_eq (V5 m ρ) c, pre_h m ρ c H hH, pre_agg m ρ c H hH, pre_w1 m ρ c, pre_b1 m ρ c, pre_w2 m ρ c, pre_b2 m ρ c]
  rfl

/-! ## The second stretch: what the normalisation launch finds in its five input arrays -/

theorem stat_z (H : Cert.Net.FArr S100000x128) (hH : W4 m ρ c (Proc.devRef .tc main_v51) = H) : V7 m ρ c main_v74 = Cert.Net.dense (Cert.Net.degree (m ((c : Thread nD τ).loc main_arg10))) (m ((c : Thread nD τ).loc main_arg9)) (m ((c : Thread nD τ).loc main_arg10)) (Cert.Net.weight1 (m ((c : Thread nD τ).loc main_arg1))) (Cert.Net.vector1 (m ((c : Thread nD τ).loc main_arg2))) (Cert.Net.weight1 (m ((c : Thread nD τ).loc main_arg3))) (Cert.Net.vector1 (m ((c : Thread nD τ).loc main_arg4))) H := by
  show StableHlo.after hostOps3 (W6 m ρ c) (Proc.devRef .tc main_v74) = _
  refine (StableHlo.after_of_forall_not_mem (b := Proc.devRef .tc main_v74) hostOps3 (W6 m ρ c) (List.forall_iff_forall_mem.mp (by
        simp only [hostOps3, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))).trans ?_
  exact z_eq m ρ c H hH

theorem stat_g : V7 m ρ c main_v92 = Cert.Net.row (Cert.Net.vector1 (m ((c : Thread nD τ).loc main_arg5))) := by
  show StableHlo.after hostOps3 (W6 m ρ c) (Proc.devRef .tc main_v92) = _
  after_results
  rw [Keep.w6_arg5 m ρ c]
  exact Cert.Lib.shapeCast_row_eq_broadcastInDim (Cert.Net.vector1 (m ((c : Thread nD τ).loc main_arg5))) _ _

theorem stat_be : V7 m ρ c main_v93 = Cert.Net.row (Cert.Net.vector1 (m ((c : Thread nD τ).loc main_arg6))) := by
  show StableHlo.after hostOps3 (W6 m ρ c) (Proc.devRef .tc main_v93) = _
  after_results
  rw [Keep.w6_arg6 m ρ c]
  exact Cert.Lib.shapeCast_row_eq_broadcastInDim (Cert.Net.vector1 (m ((c : Thread nD τ).loc main_arg6))) _ _

theorem stat_mu (H : Cert.Net.FArr S100000x128) (hH : W4 m ρ c (Proc.devRef .tc main_v51) = H) : V7 m ρ c main_v94 = Cert.Net.row (Cert.Net.colMean (Cert.Net.dense (Cert.Net.degree (m ((c : Thread nD τ).loc main_arg10))) (m ((c : Thread nD τ).loc main_arg9)) (m ((c : Thread nD τ).loc main_arg10)) (Cert.Net.weight1 (m ((c : Thread nD τ).loc main_arg1))) (Cert.Net.vector1 (m ((c : Thread nD τ).loc main_arg2))) (Cert.Net.weight1 (m ((c : Thread nD τ).loc main_arg3))) (Cert.Net.vector1 (m ((c : Thread nD τ).loc main_arg4))) H)) := by
  show StableHlo.after hostOps3 (W6 m ρ c) (Proc.devRef .tc main_v94) = _
  after_results
  rw [z_eq m ρ c H hH]
  exact Cert.Lib.shapeCast_row_eq_broadcastInDim (Cert.Net.colMean (Cert.Net.dense (Cert.Net.degree (m ((c : Thread nD τ).loc main_arg10))) (m ((c : Thread nD τ).loc main_arg9)) (m ((c : Thread nD τ).loc main_arg10)) (Cert.Net.weight1 (m ((c : Thread nD τ).loc main_arg1))) (Cert.Net.vector1 (m ((c : Thread nD τ).loc main_arg2))) (Cert.Net.weight1 (m ((c : Thread nD τ).loc main_arg3))) (Cert.Net.vector1 (m ((c : Thread nD τ).loc main_arg4))) H)) _ _

theorem stat_s (H : Cert.Net.FArr S100000x128) (hH : W4 m ρ c (Proc.devRef .tc main_v51) = H) : V7 m ρ c main_v95 = Cert.Net.row (Cert.Net.invDev (Cert.Net.dense (Cert.Net.degree (m ((c : Thread nD τ).loc main_arg10))) (m ((c : Thread nD τ).loc main_arg9)) (m ((c : Thread nD τ).loc main_arg10)) (Cert.Net.weight1 (m ((c : Thread nD τ).loc main_arg1))) (Cert.Net.vector1 (m ((c : Thread nD τ).loc main_arg2))) (Cert.Net.weight1 (m ((c : Thread nD τ).loc main_arg3))) (Cert.Net.vector1 (m ((c : Thread nD τ).loc main_arg4))) H)) := by
  show StableHlo.after hostOps3 (W6 m ρ c) (Proc.devRef .tc main_v95) = _
  after_results
  rw [z_eq m ρ c H hH]
  exact Cert.Lib.shapeCast_row_eq_broadcastInDim (Cert.Net.invDev (Cert.Net.dense (Cert.Net.degree (m ((c : Thread nD τ).loc main_arg10))) (m ((c : Thread nD τ).loc main_arg9)) (m ((c : Thread nD τ).loc main_arg10)) (Cert.Net.weight1 (m ((c : Thread nD τ).loc main_arg1))) (Cert.Net.vector1 (m ((c : Thread nD τ).loc main_arg2))) (Cert.Net.weight1 (m ((c : Thread nD τ).loc main_arg3))) (Cert.Net.vector1 (m ((c : Thread nD τ).loc main_arg4))) H)) _ _

/-! ## The normalisation launch: the layer's output -/

/-- THE LAYER: its output buffer after the second launch holds the layer function of the features it started from. -/
theorem out_eq (H : Cert.Net.FArr S100000x128) (hH : W4 m ρ c (Proc.devRef .tc main_v51) = H) : W8 m ρ c (Proc.devRef .tc main_v96)
    = Cert.Net.layer1 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) H := by
  refine (W8_arr m ρ c 5).trans ?_
  rw [Launch3.array_eq (V7 m ρ) c, stat_z m ρ c H hH, stat_g m ρ c, stat_be m ρ c, stat_mu m ρ c H hH, stat_s m ρ c H hH]
  rfl

end Cert.KernelIdeal.Layer1

end
-- ==== Proof.Launch4.lean ====
/-
  What launch 4 (a perceptron launch) leaves in its output array, as one function of the arrays it finds.

  The launch has twenty grid points; point t stages rows 5000·t … 5000·t + 4999 of the node features and of the aggregated
  features, the whole of both weight matrices and both bias rows, and writes back rows 5000·t … of the output. What it
  writes is the perceptron of its blocks, which is the block of the whole-array perceptron (the perceptron is row-local);
  the twenty blocks tile the output array, so after the launch the array holds the whole-array perceptron of what the
  launch found in its six input arrays.
-/
import proofs.«124945_j59390807769652_1_alg».proof.Proof.Gen.KernelIdeal.Frame
import proofs.«124945_j59390807769652_1_alg».proof.Proof.LibPerceptronBlock
import proofs.«124945_j59390807769652_1_alg».proof.Proof.Net
import Idealize.ShloMosaic.Lib.Pipeline.Value

set_option maxRecDepth 16384

noncomputable section

namespace Cert.KernelIdeal.Launch4

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic with its identity casts removed. -/
theorem payload_eq (v0 v1 : Vec Ideal S5000x128 .f32) (v5 : Vec Ideal S128x128 .f32) (v9 : Vec Ideal S1x128 .f32)
    (v16 : Vec Ideal S128x128 .f32) (v20 : Vec Ideal S1x128 .f32) :
    k4_pay1 v0 v1 v5 v9 v16 v20
      = addf (matmul (DotDims.plain 5000 128 128) none
          (truncf .bf16 (maximumf (addf (matmul (DotDims.plain 5000 128 128) none (truncf .bf16 (addf v0 v1) bitsLt_bf16_f32)
                (truncf .bf16 v5 bitsLt_bf16_f32) (constant ⟨2, ![5000, 128]⟩ .f32 0x00000000#32))
              (broadcastTo ⟨2, ![5000, 128]⟩ v9 broadcasts_S1x128_S5000x128))
            (broadcast ⟨2, ![5000, 128]⟩ (Scalar.ofBits (F := Ideal) .f32 0x00000000#32))) bitsLt_bf16_f32)
          (truncf .bf16 v16 bitsLt_bf16_f32) (constant ⟨2, ![5000, 128]⟩ .f32 0x00000000#32))
        (broadcastTo ⟨2, ![5000, 128]⟩ v20 broadcasts_S1x128_S5000x128) := by
  unfold k4_pay1
  simp only [shapeCast_self]
  rfl

/-- The body's result on blocks that sit in whole arrays at a row offset, read at a block index, is the whole-array
    perceptron read where the output block puts the index. -/
theorem point_eq (x0 x1 : Vec Ideal S5000x128 .f32) (x2 : Vec Ideal S128x128 .f32) (x3 : Vec Ideal S1x128 .f32)
    (x4 : Vec Ideal S128x128 .f32) (x5 : Vec Ideal S1x128 .f32)
    (H A : FVec Ideal S100000x128 .f32) (W1 : FVec Ideal S128x128 .f32) (B1 : FVec Ideal S1x128 .f32)
    (W2 : FVec Ideal S128x128 .f32) (B2 : FVec Ideal S1x128 .f32)
    (eh ea eo : S5000x128.Idx → S100000x128.Idx) (off : Nat)
    (hx0 : ∀ y, x0 y = H (eh y)) (hx1 : ∀ y, x1 y = A (ea y)) (hea : ∀ y, ea y = eh y)
    (hx2 : ∀ y, x2 y = W1 y) (hx3 : ∀ y, x3 y = B1 y) (hx4 : ∀ y, x4 y = W2 y) (hx5 : ∀ y, x5 y = B2 y)
    (heh0 : ∀ y, (eh y 0).val = off + (y 0).val) (heh1 : ∀ y, (eh y 1).val = (y 1).val)
    (heo0 : ∀ y, (eo y 0).val = off + (y 0).val) (heo1 : ∀ y, (eo y 1).val = (y 1).val)
    (j : S5000x128.Idx) :
    k4_pay1 x0 x1 x2 x3 x4 x5 j = Cert.Net.perceptron H A W1 B1 W2 B2 (eo j) := by
  obtain rfl : x2 = W1 := funext hx2
  obtain rfl : x3 = B1 := funext hx3
  obtain rfl : x4 = W2 := funext hx4
  obtain rfl : x5 = B2 := funext hx5
  rw [payload_eq]
  exact Cert.Lib.perceptron_row_block none x0 x1 x2 x3 x4 x5 H A eh ea eo eo off hx0 hx1 hea heh0 heh1 heo0 heo1 heo0 heo1
    broadcasts_S1x128_S5000x128 Cert.Net.hrow broadcasts_S1x128_S5000x128 Cert.Net.hrow 0x00000000#32 Cert.Net.hsplat
    bitsLt_bf16_f32 bitsLt_bf16_f32 bitsLt_bf16_f32 bitsLt_bf16_f32 j

/-- The printed index maps, decided over the twenty grid points: the two row-blocked inputs and the output move together
    along the rows, and the weights and bias rows stay at the origin. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- What point `t` writes back is block `t` of the whole-array perceptron of the arrays the launch finds. -/
theorem flushed_eq (c : Dev nD) (t : Fin cfg4.N) :
    (dat4 V c).flushed 6 t = ((cfg4.win 6).blk t).view.read (Elt Ideal)
      (Cert.Net.perceptron (V c main_v96) (V c main_v108) (V c main_v110) (V c main_v117) (V c main_v114) (V c main_v118)) := by
  show (cfg4.win 6).cut (grid4.coords t) ((dat4 V c).after 6 t) = _
  rw [after4_6]
  unfold out4_6
  rw [View.canon_unit_zero origin]
  simp only [View.ld_unit_zero (S := S5000x128) origin, View.ld_unit_zero (S := S128x128) origin,
    View.ld_unit_zero (S := S1x128) origin]
  obtain ⟨i00, i01, i10, i11, i20, i21, i30, i31, i40, i41, i50, i51, i60, i61⟩ := index_facts t
  funext j
  refine point_eq (iblk4 V c 0 t) (iblk4 V c 1 t) (iblk4 V c 2 t) (iblk4 V c 3 t) (iblk4 V c 4 t) (iblk4 V c 5 t)
    (V c main_v96) (V c main_v108) (V c main_v110) (V c main_v117) (V c main_v114) (V c main_v118)
    ((cfg4.win 0).blk t).view.emb ((cfg4.win 1).blk t).view.emb ((cfg4.win 6).blk t).view.emb (5000 * t.val)
    (fun y => rfl) (fun y => rfl) (fun y => ?_) (fun y => ?_) (fun y => ?_) (fun y => ?_) (fun y => ?_)
    (fun y => ?_) (fun y => ?_) (fun y => ?_) (fun y => ?_) j
  · funext a; apply Fin.ext
    match a with
    | ⟨0, _⟩ => show win4_1.index t (0 : Fin 2) * 5000 + 1 * (y 0).val = win4_0.index t (0 : Fin 2) * 5000 + 1 * (y 0).val; omega
    | ⟨1, _⟩ => show win4_1.index t (1 : Fin 2) * 128 + 1 * (y 1).val = win4_0.index t (1 : Fin 2) * 128 + 1 * (y 1).val; omega
  · show V c main_v110 (((cfg4.win 2).blk t).view.emb y) = V c main_v110 y
    refine congrArg _ (funext fun a => Fin.ext ?_)
    match a with
    | ⟨0, _⟩ => show win4_2.index t (0 : Fin 2) * 128 + 1 * (y 0).val = (y 0).val; omega
    | ⟨1, _⟩ => show win4_2.index t (1 : Fin 2) * 128 + 1 * (y 1).val = (y 1).val; omega
  · show V c main_v117 (((cfg4.win 3).blk t).view.emb y) = V c main_v117 y
    refine congrArg _ (funext fun a => Fin.ext ?_)
    match a with
    | ⟨0, _⟩ => show win4_3.index t (0 : Fin 2) * 1 + 1 * (y 0).val = (y 0).val; omega
    | ⟨1, _⟩ => show win4_3.index t (1 : Fin 2) * 128 + 1 * (y 1).val = (y 1).val; omega
  · show V c main_v114 (((cfg4.win 4).blk t).view.emb y) = V c main_v114 y
    refine congrArg _ (funext fun a => Fin.ext ?_)
    match a with
    | ⟨0, _⟩ => show win4_4.index t (0 : Fin 2) * 128 + 1 * (y 0).val = (y 0).val; omega
    | ⟨1, _⟩ => show win4_4.index t (1 : Fin 2) * 128 + 1 * (y 1).val = (y 1).val; omega
  · show V c main_v118 (((cfg4.win 5).blk t).view.emb y) = V c main_v118 y
    refine congrArg _ (funext fun a => Fin.ext ?_)
    match a with
    | ⟨0, _⟩ => show win4_5.index t (0 : Fin 2) * 1 + 1 * (y 0).val = (y 0).val; omega
    | ⟨1, _⟩ => show win4_5.index t (1 : Fin 2) * 128 + 1 * (y 1).val = (y 1).val; omega
  · show win4_0.index t (0 : Fin 2) * 5000 + 1 * (y 0).val = 5000 * t.val + (y 0).val; omega
  · show win4_0.index t (1 : Fin 2) * 128 + 1 * (y 1).val = (y 1).val; omega
  · show win4_6.index t (0 : Fin 2) * 5000 + 1 * (y 0).val = 5000 * t.val + (y 0).val; omega
  · show win4_6.index t (1 : Fin 2) * 128 + 1 * (y 1).val = (y 1).val; omega

/-- An index of the output array is in point `t`'s block iff each coordinate is in the block's range on its axis. -/
theorem mem_block (t : Fin cfg4.N) (i : S100000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v119).slice (win4_6.rect t)).set ↔ _
  rw [View.set_slice_whole, Rect.mem_set_unit]
  exact Iff.rfl

/-- The twenty blocks tile the output array: row r is in the block of point r / 5000. -/
theorem cover (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  have hN : cfg4.N = 20 := N_4
  have ht : (i 0).val / 5000 < cfg4.N := by rw [hN]; omega
  obtain ⟨i00, i01, i10, i11, i20, i21, i30, i31, i40, i41, i50, i51, i60, i61⟩ := index_facts ⟨(i 0).val / 5000, ht⟩
  refine ⟨⟨(i 0).val / 5000, ht⟩, flush4_6 _, ?_⟩
  rw [mem_block]
  intro a
  match a with
  | ⟨0, _⟩ =>
    show win4_6.index ⟨(i 0).val / 5000, ht⟩ (0 : Fin 2) * 5000 ≤ (i 0).val
      ∧ (i 0).val < win4_6.index ⟨(i 0).val / 5000, ht⟩ (0 : Fin 2) * 5000 + 5000
    rw [i60]; show (i 0).val / 5000 * 5000 ≤ (i 0).val ∧ (i 0).val < (i 0).val / 5000 * 5000 + 5000; omega
  | ⟨1, _⟩ =>
    show win4_6.index ⟨(i 0).val / 5000, ht⟩ (1 : Fin 2) * 128 ≤ (i 1).val
      ∧ (i 1).val < win4_6.index ⟨(i 0).val / 5000, ht⟩ (1 : Fin 2) * 128 + 128
    rw [i61]; omega

/-- THE OUTPUT ARRAY after the launch: the whole-array perceptron of the arrays the launch found. -/
theorem array_eq (c : Dev nD) : (dat4 V c).arrAt 6 cfg4.N
    = Cert.Net.perceptron (V c main_v96) (V c main_v108) (V c main_v110) (V c main_v117) (V c main_v114) (V c main_v118) :=
  (dat4 V c).arrAt_eq_of_cover 6 _ (fun t _ => flushed_eq V c t) cover

end Cert.KernelIdeal.Launch4

end
-- ==== Proof.Launch5.lean ====
/-
  What launch 5 (a normalisation launch) leaves in its output array, as one function of the arrays it finds.

  The launch has twenty grid points; point t stages rows 5000·t … 5000·t + 4999 of the pre-activations z and the four
  rows g, β, μ, s whole, and writes back rows 5000·t … of the output. What it writes is max((g ⊙ (z − μ)) ⊙ s + β, 0) of its
  block of z, which is the block of that expression of the whole array (entry (r, c) depends on z (r, c) and on column c
  of the four rows only); the twenty blocks tile the output array, so after the launch the array holds the whole-array
  normalisation of what the launch found in its five input arrays.
-/
import proofs.«124945_j59390807769652_1_alg».proof.Proof.Gen.KernelIdeal.Frame
import proofs.«124945_j59390807769652_1_alg».proof.Proof.LibPerceptronBlock
import proofs.«124945_j59390807769652_1_alg».proof.Proof.Net
import Idealize.ShloMosaic.Lib.Pipeline.Value

set_option maxRecDepth 16384

noncomputable section

namespace Cert.KernelIdeal.Launch5

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic with its identity casts removed: the loads are z, g, μ, s, β in that order. -/
theorem payload_eq (v0 : Vec Ideal S5000x128 .f32) (v2 v4 v10 v14 : Vec Ideal S1x128 .f32) :
    k5_pay1 v0 v2 v4 v10 v14
      = maximumf (addf (mulf (mulf (broadcastTo ⟨2, ![5000, 128]⟩ v2 broadcasts_S1x128_S5000x128)
              (subf v0 (broadcastTo ⟨2, ![5000, 128]⟩ v4 broadcasts_S1x128_S5000x128)))
            (broadcastTo ⟨2, ![5000, 128]⟩ v10 broadcasts_S1x128_S5000x128))
          (broadcastTo ⟨2, ![5000, 128]⟩ v14 broadcasts_S1x128_S5000x128))
        (broadcast ⟨2, ![5000, 128]⟩ (Scalar.ofBits (F := Ideal) .f32 0x00000000#32)) := by
  unfold k5_pay1
  simp only [shapeCast_self]

/-- The body's result on a block of z that sits in the whole array, read at a block index, is the whole-array normalisation
    read where the output block puts the index. -/
theorem point_eq (x0 : Vec Ideal S5000x128 .f32) (x1 x2 x3 x4 : Vec Ideal S1x128 .f32)
    (Z : FVec Ideal S100000x128 .f32) (G Be Mu Sd : FVec Ideal S1x128 .f32)
    (ez eo : S5000x128.Idx → S100000x128.Idx)
    (hx0 : ∀ y, x0 y = Z (ez y)) (hez : ∀ y, ez y = eo y)
    (hx1 : ∀ y, x1 y = G y) (hx2 : ∀ y, x2 y = Be y) (hx3 : ∀ y, x3 y = Mu y) (hx4 : ∀ y, x4 y = Sd y)
    (heo1 : ∀ y, (eo y 1).val = (y 1).val)
    (j : S5000x128.Idx) :
    k5_pay1 x0 x1 x3 x4 x2 j = Cert.Net.normalise Z G Be Mu Sd (eo j) := by
  obtain rfl : x1 = G := funext hx1
  obtain rfl : x2 = Be := funext hx2
  obtain rfl : x3 = Mu := funext hx3
  obtain rfl : x4 = Sd := funext hx4
  rw [payload_eq]
  exact Cert.Lib.normalise_row_block x0 Z x1 x3 x4 x2 ez eo hx0 hez heo1 broadcasts_S1x128_S5000x128 Cert.Net.hrow
    0x00000000#32 Cert.Net.hsplat j

/-- The printed index maps, decided over the twenty grid points: the row-blocked input and the output move together along
    the rows, and the four rows stay at the origin. -/
theorem index_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` writes back is block `t` of the whole-array normalisation of the arrays the launch finds. -/
theorem flushed_eq (c : Dev nD) (t : Fin cfg5.N) :
    (dat5 V c).flushed 5 t = ((cfg5.win 5).blk t).view.read (Elt Ideal)
      (Cert.Net.normalise (V c main_v119) (V c main_v137) (V c main_v138) (V c main_v139) (V c main_v140)) := by
  show (cfg5.win 5).cut (grid5.coords t) ((dat5 V c).after 5 t) = _
  rw [after5_5]
  unfold out5_5
  rw [View.canon_unit_zero origin]
  simp only [View.ld_unit_zero (S := S5000x128) origin, View.ld_unit_zero (S := S1x128) origin]
  obtain ⟨i00, i01, i10, i11, i20, i21, i30, i31, i40, i41, i50, i51⟩ := index_facts t
  funext j
  refine point_eq (iblk5 V c 0 t) (iblk5 V c 1 t) (iblk5 V c 2 t) (iblk5 V c 3 t) (iblk5 V c 4 t)
    (V c main_v119) (V c main_v137) (V c main_v138) (V c main_v139) (V c main_v140)
    ((cfg5.win 0).blk t).view.emb ((cfg5.win 5).blk t).view.emb
    (fun y => rfl) (fun y => ?_) (fun y => ?_) (fun y => ?_) (fun y => ?_) (fun y => ?_) (fun y => ?_) j
  · funext a; apply Fin.ext
    match a with
    | ⟨0, _⟩ => show win5_0.index t (0 : Fin 2) * 5000 + 1 * (y 0).val = win5_5.index t (0 : Fin 2) * 5000 + 1 * (y 0).val; omega
    | ⟨1, _⟩ => show win5_0.index t (1 : Fin 2) * 128 + 1 * (y 1).val = win5_5.index t (1 : Fin 2) * 128 + 1 * (y 1).val; omega
  · show V c main_v137 (((cfg5.win 1).blk t).view.emb y) = V c main_v137 y
    refine congrArg _ (funext fun a => Fin.ext ?_)
    match a with
    | ⟨0, _⟩ => show win5_1.index t (0 : Fin 2) * 1 + 1 * (y 0).val = (y 0).val; omega
    | ⟨1, _⟩ => show win5_1.index t (1 : Fin 2) * 128 + 1 * (y 1).val = (y 1).val; omega
  · show V c main_v138 (((cfg5.win 2).blk t).view.emb y) = V c main_v138 y
    refine congrArg _ (funext fun a => Fin.ext ?_)
    match a with
    | ⟨0, _⟩ => show win5_2.index t (0 : Fin 2) * 1 + 1 * (y 0).val = (y 0).val; omega
    | ⟨1, _⟩ => show win5_2.index t (1 : Fin 2) * 128 + 1 * (y 1).val = (y 1).val; omega
  · show V c main_v139 (((cfg5.win 3).blk t).view.emb y) = V c main_v139 y
    refine congrArg _ (funext fun a => Fin.ext ?_)
    match a with
    | ⟨0, _⟩ => show win5_3.index t (0 : Fin 2) * 1 + 1 * (y 0).val = (y 0).val; omega
    | ⟨1, _⟩ => show win5_3.index t (1 : Fin 2) * 128 + 1 * (y 1).val = (y 1).val; omega
  · show V c main_v140 (((cfg5.win 4).blk t).view.emb y) = V c main_v140 y
    refine congrArg _ (funext fun a => Fin.ext ?_)
    match a with
    | ⟨0, _⟩ => show win5_4.index t (0 : Fin 2) * 1 + 1 * (y 0).val = (y 0).val; omega
    | ⟨1, _⟩ => show win5_4.index t (1 : Fin 2) * 128 + 1 * (y 1).val = (y 1).val; omega
  · show win5_5.index t (1 : Fin 2) * 128 + 1 * (y 1).val = (y 1).val; omega

/-- An index of the output array is in point `t`'s block iff each coordinate is in the block's range on its axis. -/
theorem mem_block (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v141).slice (win5_5.rect t)).set ↔ _
  rw [View.set_slice_whole, Rect.mem_set_unit]
  exact Iff.rfl

/-- The twenty blocks tile the output array: row r is in the block of point r / 5000. -/
theorem cover (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  have ht : (i 0).val / 5000 < cfg5.N := by rw [hN]; omega
  obtain ⟨i00, i01, i10, i11, i20, i21, i30, i31, i40, i41, i50, i51⟩ := index_facts ⟨(i 0).val / 5000, ht⟩
  refine ⟨⟨(i 0).val / 5000, ht⟩, flush5_5 _, ?_⟩
  rw [mem_block]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    rw [i50]; show (i 0).val / 5000 * 5000 ≤ (i 0).val ∧ (i 0).val < (i 0).val / 5000 * 5000 + 5000; omega
  | ⟨1, _⟩ =>
    show win5_5.index ⟨(i 0).val / 5000, ht⟩ (1 : Fin 2) * 128 ≤ (i 1).val
      ∧ (i 1).val < win5_5.index ⟨(i 0).val / 5000, ht⟩ (1 : Fin 2) * 128 + 128
    rw [i51]; omega

/-- THE OUTPUT ARRAY after the launch: the whole-array normalisation of the arrays the launch found. -/
theorem array_eq (c : Dev nD) : (dat5 V c).arrAt 5 cfg5.N
    = Cert.Net.normalise (V c main_v119) (V c main_v137) (V c main_v138) (V c main_v139) (V c main_v140) :=
  (dat5 V c).arrAt_eq_of_cover 5 _ (fun t _ => flushed_eq V c t) cover

end Cert.KernelIdeal.Launch5

end
-- ==== Proof.KernelLayer2.lean ====
/-
  Layer 2 of the kernel program, from boundary to boundary.

  Between the boundary where the layer's input features sit in their buffer and the boundary after its second launch there
  are four segments: a stretch of host operations (the aggregation of the features over the edges, the layer's slices of
  the stacked weights and biases, the biases recast as rows), the perceptron launch, a second stretch (the column means and
  inverse deviations of the pre-activations, the layer's scale and shift, all four recast as rows) and the normalisation
  launch. Reading the four segments in turn — each stretch by its operations, each launch by what it leaves in its output
  array — the buffer of the layer's output ends at the layer function of the input features.
-/
import proofs.«124945_j59390807769652_1_alg».proof.Proof.Gen.KernelIdeal.Frame
import proofs.«124945_j59390807769652_1_alg».proof.Proof.Launch4
import proofs.«124945_j59390807769652_1_alg».proof.Proof.Launch5
import proofs.«124945_j59390807769652_1_alg».proof.Proof.Layer
import proofs.«124945_j59390807769652_1_alg».proof.Proof.LibRowOfVector
import proofs.«124945_j59390807769652_1_alg».proof.Proof.Keep
import Idealize.ShloMosaic.Lib.StableHlo.Run

set_option maxRecDepth 16384
set_option maxHeartbeats 4000000

noncomputable section

namespace Cert.KernelIdeal.Layer2

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first stretch: what the perceptron launch finds in its six input arrays -/

theorem pre_h (H : Cert.Net.FArr S100000x128) (hH : W8 m ρ c (Proc.devRef .tc main_v96) = H) : V9 m ρ c main_v96 = H := by
  show StableHlo.after hostOps4 (W8 m ρ c) (Proc.devRef .tc main_v96) = _
  refine (StableHlo.after_of_forall_not_mem (b := Proc.devRef .tc main_v96) hostOps4 (W8 m ρ c) (List.forall_iff_forall_mem.mp (by
        simp only [hostOps4, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))).trans ?_
  exact hH

theorem pre_agg (H : Cert.Net.FArr S100000x128) (hH : W8 m ρ c (Proc.devRef .tc main_v96) = H) : V9 m ρ c main_v108
    = Cert.Net.aggregate (Cert.Net.degree (m ((c : Thread nD τ).loc main_arg10))) (m ((c : Thread nD τ).loc main_arg9)) (m ((c : Thread nD τ).loc main_arg10)) H := by
  show StableHlo.after hostOps4 (W8 m ρ c) (Proc.devRef .tc main_v108) = _
  after_results
  rw [Keep.w8_arg9 m ρ c, Keep.w8_arg10 m ρ c, Keep.w8_v6 m ρ c, hH]
  rfl

theorem pre_w1 : V9 m ρ c main_v110 = Cert.Net.weight2 (m ((c : Thread nD τ).loc main_arg1)) := by
  show StableHlo.after hostOps4 (W8 m ρ c) (Proc.devRef .tc main_v110) = _
  after_results
  rw [Keep.w8_arg1 m ρ c]
  rfl

theorem pre_b1 : V9 m ρ c main_v117 = Cert.Net.row (Cert.Net.vector2 (m ((c : Thread nD τ).loc main_arg2))) := by
  show StableHlo.after hostOps4 (W8 m ρ c) (Proc.devRef .tc main_v117) = _
  after_results
  rw [Keep.w8_arg2 m ρ c]
  exact Cert.Lib.shapeCast_row_eq_broadcastInDim (Cert.Net.vector2 (m ((c : Thread nD τ).loc main_arg2))) _ _

theorem pre_w2 : V9 m ρ c main_v114 = Cert.Net.weight2 (m ((c : Thread nD τ).loc main_arg3)) := by
  show StableHlo.after hostOps4 (W8 m ρ c) (Proc.devRef .tc main_v114) = _
  after_results
  rw [Keep.w8_arg3 m ρ c]
  rfl

theorem pre_b2 : V9 m ρ c main_v118 = Cert.Net.row (Cert.Net.vector2 (m ((c : Thread nD τ).loc main_arg4))) := by
  show StableHlo.after hostOps4 (W8 m ρ c) (Proc.devRef .tc main_v118) = _
  after_results
  rw [Keep.w8_arg4 m ρ c]
  exact Cert.Lib.shapeCast_row_eq_broadcastInDim (Cert.Net.vector2 (m ((c : Thread nD τ).loc main_arg4))) _ _

/-! ## The perceptron launch: the pre-activations -/

theorem z_eq (H : Cert.Net.FArr S100000x128) (hH : W8 m ρ c (Proc.devRef .tc main_v96) = H) : W10 m ρ c (Proc.devRef .tc main_v119) = Cert.Net.dense (Cert.Net.degree (m ((c : Thread nD τ).loc main_arg10))) (m ((c : Thread nD τ).loc main_arg9)) (m ((c : Thread nD τ).loc main_arg10)) (Cert.Net.weight2 (m ((c : Thread nD τ).loc main_arg1))) (Cert.Net.vector2 (m ((c : Thread nD τ).loc main_arg2))) (Cert.Net.weight2 (m ((c : Thread nD τ).loc main_arg3))) (Cert.Net.vector2 (m ((c : Thread nD τ).loc main_arg4))) H := by
  refine (W10_arr m ρ c 6).trans ?_
  rw [Launch4.array_eq (V9 m ρ) c, pre_h m ρ c H hH, pre_agg m ρ c H hH, pre_w1 m ρ c, pre_b1 m ρ c, pre_w2 m ρ c, pre_b2 m ρ c]
  rfl

/-! ## The second stretch: what the normalisation launch finds in its five input arrays -/

theorem stat_z (H : Cert.Net.FArr S100000x128) (hH : W8 m ρ c (Proc.devRef .tc main_v96) = H) : V11 m ρ c main_v119 = Cert.Net.dense (Cert.Net.degree (m ((c : Thread nD τ).loc main_arg10))) (m ((c : Thread nD τ).loc main_arg9)) (m ((c : Thread nD τ).loc main_arg10)) (Cert.Net.weight2 (m ((c : Thread nD τ).loc main_arg1))) (Cert.Net.vector2 (m ((c : Thread nD τ).loc main_arg2))) (Cert.Net.weight2 (m ((c : Thread nD τ).loc main_arg3))) (Cert.Net.vector2 (m ((c : Thread nD τ).loc main_arg4))) H := by
  show StableHlo.after hostOps5 (W10 m ρ c) (Proc.devRef .tc main_v119) = _
  refine (StableHlo.after_of_forall_not_mem (b := Proc.devRef .tc main_v119) hostOps5 (W10 m ρ c) (List.forall_iff_forall_mem.mp (by
        simp only [hostOps5, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))).trans ?_
  exact z_eq m ρ c H hH

theorem stat_g : V11 m ρ c main_v137 = Cert.Net.row (Cert.Net.vector2 (m ((c : Thread nD τ).loc main_arg5))) := by
  show StableHlo.after hostOps5 (W10 m ρ c) (Proc.devRef .tc main_v137) = _
  after_results
  rw [Keep.w10_arg5 m ρ c]
  exact Cert.Lib.shapeCast_row_eq_broadcastInDim (Cert.Net.vector2 (m ((c : Thread nD τ).loc main_arg5))) _ _

theorem stat_be : V11 m ρ c main_v138 = Cert.Net.row (Cert.Net.vector2 (m ((c : Thread nD τ).loc main_arg6))) := by
  show StableHlo.after hostOps5 (W10 m ρ c) (Proc.devRef .tc main_v138) = _
  after_results
  rw [Keep.w10_arg6 m ρ c]
  exact Cert.Lib.shapeCast_row_eq_broadcastInDim (Cert.Net.vector2 (m ((c : Thread nD τ).loc main_arg6))) _ _

theorem stat_mu (H : Cert.Net.FArr S100000x128) (hH : W8 m ρ c (Proc.devRef .tc main_v96) = H) : V11 m ρ c main_v139 = Cert.Net.row (Cert.Net.colMean (Cert.Net.dense (Cert.Net.degree (m ((c : Thread nD τ).loc main_arg10))) (m ((c : Thread nD τ).loc main_arg9)) (m ((c : Thread nD τ).loc main_arg10)) (Cert.Net.weight2 (m ((c : Thread nD τ).loc main_arg1))) (Cert.Net.vector2 (m ((c : Thread nD τ).loc main_arg2))) (Cert.Net.weight2 (m ((c : Thread nD τ).loc main_arg3))) (Cert.Net.vector2 (m ((c : Thread nD τ).loc main_arg4))) H)) := by
  show StableHlo.after hostOps5 (W10 m ρ c) (Proc.devRef .tc main_v139) = _
  after_results
  rw [z_eq m ρ c H hH]
  exact Cert.Lib.shapeCast_row_eq_broadcastInDim (Cert.Net.colMean (Cert.Net.dense (Cert.Net.degree (m ((c : Thread nD τ).loc main_arg10))) (m ((c : Thread nD τ).loc main_arg9)) (m ((c : Thread nD τ).loc main_arg10)) (Cert.Net.weight2 (m ((c : Thread nD τ).loc main_arg1))) (Cert.Net.vector2 (m ((c : Thread nD τ).loc main_arg2))) (Cert.Net.weight2 (m ((c : Thread nD τ).loc main_arg3))) (Cert.Net.vector2 (m ((c : Thread nD τ).loc main_arg4))) H)) _ _

theorem stat_s (H : Cert.Net.FArr S100000x128) (hH : W8 m ρ c (Proc.devRef .tc main_v96) = H) : V11 m ρ c main_v140 = Cert.Net.row (Cert.Net.invDev (Cert.Net.dense (Cert.Net.degree (m ((c : Thread nD τ).loc main_arg10))) (m ((c : Thread nD τ).loc main_arg9)) (m ((c : Thread nD τ).loc main_arg10)) (Cert.Net.weight2 (m ((c : Thread nD τ).loc main_arg1))) (Cert.Net.vector2 (m ((c : Thread nD τ).loc main_arg2))) (Cert.Net.weight2 (m ((c : Thread nD τ).loc main_arg3))) (Cert.Net.vector2 (m ((c : Thread nD τ).loc main_arg4))) H)) := by
  show StableHlo.after hostOps5 (W10 m ρ c) (Proc.devRef .tc main_v140) = _
  after_results
  rw [z_eq m ρ c H hH]
  exact Cert.Lib.shapeCast_row_eq_broadcastInDim (Cert.Net.invDev (Cert.Net.dense (Cert.Net.degree (m ((c : Thread nD τ).loc main_arg10))) (m ((c : Thread nD τ).loc main_arg9)) (m ((c : Thread nD τ).loc main_arg10)) (Cert.Net.weight2 (m ((c : Thread nD τ).loc main_arg1))) (Cert.Net.vector2 (m ((c : Thread nD τ).loc main_arg2))) (Cert.Net.weight2 (m ((c : Thread nD τ).loc main_arg3))) (Cert.Net.vector2 (m ((c : Thread nD τ).loc main_arg4))) H)) _ _

/-! ## The normalisation launch: the layer's output -/

/-- THE LAYER: its output buffer after the second launch holds the layer function of the features it started from. -/
theorem out_eq (H : Cert.Net.FArr S100000x128) (hH : W8 m ρ c (Proc.devRef .tc main_v96) = H) : W12 m ρ c (Proc.devRef .tc main_v141)
    = Cert.Net.layer2 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) H := by
  refine (W12_arr m ρ c 5).trans ?_
  rw [Launch5.array_eq (V11 m ρ) c, stat_z m ρ c H hH, stat_g m ρ c, stat_be m ρ c, stat_mu m ρ c H hH, stat_s m ρ c H hH]
  rfl

end Cert.KernelIdeal.Layer2

end
-- ==== Proof.Launch6.lean ====
/-
  What launch 6 (a perceptron launch) leaves in its output array, as one function of the arrays it finds.

  The launch has twenty grid points; point t stages rows 5000·t … 5000·t + 4999 of the node features and of the aggregated
  features, the whole of both weight matrices and both bias rows, and writes back rows 5000·t … of the output. What it
  writes is the perceptron of its blocks, which is the block of the whole-array perceptron (the perceptron is row-local);
  the twenty blocks tile the output array, so after the launch the array holds the whole-array perceptron of what the
  launch found in its six input arrays.
-/
import proofs.«124945_j59390807769652_1_alg».proof.Proof.Gen.KernelIdeal.Frame
import proofs.«124945_j59390807769652_1_alg».proof.Proof.LibPerceptronBlock
import proofs.«124945_j59390807769652_1_alg».proof.Proof.Net
import Idealize.ShloMosaic.Lib.Pipeline.Value

set_option maxRecDepth 16384

noncomputable section

namespace Cert.KernelIdeal.Launch6

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic with its identity casts removed. -/
theorem payload_eq (v0 v1 : Vec Ideal S5000x128 .f32) (v5 : Vec Ideal S128x128 .f32) (v9 : Vec Ideal S1x128 .f32)
    (v16 : Vec Ideal S128x128 .f32) (v20 : Vec Ideal S1x128 .f32) :
    k6_pay1 v0 v1 v5 v9 v16 v20
      = addf (matmul (DotDims.plain 5000 128 128) none
          (truncf .bf16 (maximumf (addf (matmul (DotDims.plain 5000 128 128) none (truncf .bf16 (addf v0 v1) bitsLt_bf16_f32)
                (truncf .bf16 v5 bitsLt_bf16_f32) (constant ⟨2, ![5000, 128]⟩ .f32 0x00000000#32))
              (broadcastTo ⟨2, ![5000, 128]⟩ v9 broadcasts_S1x128_S5000x128))
            (broadcast ⟨2, ![5000, 128]⟩ (Scalar.ofBits (F := Ideal) .f32 0x00000000#32))) bitsLt_bf16_f32)
          (truncf .bf16 v16 bitsLt_bf16_f32) (constant ⟨2, ![5000, 128]⟩ .f32 0x00000000#32))
        (broadcastTo ⟨2, ![5000, 128]⟩ v20 broadcasts_S1x128_S5000x128) := by
  unfold k6_pay1
  simp only [shapeCast_self]
  rfl

/-- The body's result on blocks that sit in whole arrays at a row offset, read at a block index, is the whole-array
    perceptron read where the output block puts the index. -/
theorem point_eq (x0 x1 : Vec Ideal S5000x128 .f32) (x2 : Vec Ideal S128x128 .f32) (x3 : Vec Ideal S1x128 .f32)
    (x4 : Vec Ideal S128x128 .f32) (x5 : Vec Ideal S1x128 .f32)
    (H A : FVec Ideal S100000x128 .f32) (W1 : FVec Ideal S128x128 .f32) (B1 : FVec Ideal S1x128 .f32)
    (W2 : FVec Ideal S128x128 .f32) (B2 : FVec Ideal S1x128 .f32)
    (eh ea eo : S5000x128.Idx → S100000x128.Idx) (off : Nat)
    (hx0 : ∀ y, x0 y = H (eh y)) (hx1 : ∀ y, x1 y = A (ea y)) (hea : ∀ y, ea y = eh y)
    (hx2 : ∀ y, x2 y = W1 y) (hx3 : ∀ y, x3 y = B1 y) (hx4 : ∀ y, x4 y = W2 y) (hx5 : ∀ y, x5 y = B2 y)
    (heh0 : ∀ y, (eh y 0).val = off + (y 0).val) (heh1 : ∀ y, (eh y 1).val = (y 1).val)
    (heo0 : ∀ y, (eo y 0).val = off + (y 0).val) (heo1 : ∀ y, (eo y 1).val = (y 1).val)
    (j : S5000x128.Idx) :
    k6_pay1 x0 x1 x2 x3 x4 x5 j = Cert.Net.perceptron H A W1 B1 W2 B2 (eo j) := by
  obtain rfl : x2 = W1 := funext hx2
  obtain rfl : x3 = B1 := funext hx3
  obtain rfl : x4 = W2 := funext hx4
  obtain rfl : x5 = B2 := funext hx5
  rw [payload_eq]
  exact Cert.Lib.perceptron_row_block none x0 x1 x2 x3 x4 x5 H A eh ea eo eo off hx0 hx1 hea heh0 heh1 heo0 heo1 heo0 heo1
    broadcasts_S1x128_S5000x128 Cert.Net.hrow broadcasts_S1x128_S5000x128 Cert.Net.hrow 0x00000000#32 Cert.Net.hsplat
    bitsLt_bf16_f32 bitsLt_bf16_f32 bitsLt_bf16_f32 bitsLt_bf16_f32 j

/-- The printed index maps, decided over the twenty grid points: the two row-blocked inputs and the output move together
    along the rows, and the weights and bias rows stay at the origin. -/
theorem index_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- What point `t` writes back is block `t` of the whole-array perceptron of the arrays the launch finds. -/
theorem flushed_eq (c : Dev nD) (t : Fin cfg6.N) :
    (dat6 V c).flushed 6 t = ((cfg6.win 6).blk t).view.read (Elt Ideal)
      (Cert.Net.perceptron (V c main_v141) (V c main_v153) (V c main_v155) (V c main_v162) (V c main_v159) (V c main_v163)) := by
  show (cfg6.win 6).cut (grid6.coords t) ((dat6 V c).after 6 t) = _
  rw [after6_6]
  unfold out6_6
  rw [View.canon_unit_zero origin]
  simp only [View.ld_unit_zero (S := S5000x128) origin, View.ld_unit_zero (S := S128x128) origin,
    View.ld_unit_zero (S := S1x128) origin]
  obtain ⟨i00, i01, i10, i11, i20, i21, i30, i31, i40, i41, i50, i51, i60, i61⟩ := index_facts t
  funext j
  refine point_eq (iblk6 V c 0 t) (iblk6 V c 1 t) (iblk6 V c 2 t) (iblk6 V c 3 t) (iblk6 V c 4 t) (iblk6 V c 5 t)
    (V c main_v141) (V c main_v153) (V c main_v155) (V c main_v162) (V c main_v159) (V c main_v163)
    ((cfg6.win 0).blk t).view.emb ((cfg6.win 1).blk t).view.emb ((cfg6.win 6).blk t).view.emb (5000 * t.val)
    (fun y => rfl) (fun y => rfl) (fun y => ?_) (fun y => ?_) (fun y => ?_) (fun y => ?_) (fun y => ?_)
    (fun y => ?_) (fun y => ?_) (fun y => ?_) (fun y => ?_) j
  · funext a; apply Fin.ext
    match a with
    | ⟨0, _⟩ => show win6_1.index t (0 : Fin 2) * 5000 + 1 * (y 0).val = win6_0.index t (0 : Fin 2) * 5000 + 1 * (y 0).val; omega
    | ⟨1, _⟩ => show win6_1.index t (1 : Fin 2) * 128 + 1 * (y 1).val = win6_0.index t (1 : Fin 2) * 128 + 1 * (y 1).val; omega
  · show V c main_v155 (((cfg6.win 2).blk t).view.emb y) = V c main_v155 y
    refine congrArg _ (funext fun a => Fin.ext ?_)
    match a with
    | ⟨0, _⟩ => show win6_2.index t (0 : Fin 2) * 128 + 1 * (y 0).val = (y 0).val; omega
    | ⟨1, _⟩ => show win6_2.index t (1 : Fin 2) * 128 + 1 * (y 1).val = (y 1).val; omega
  · show V c main_v162 (((cfg6.win 3).blk t).view.emb y) = V c main_v162 y
    refine congrArg _ (funext fun a => Fin.ext ?_)
    match a with
    | ⟨0, _⟩ => show win6_3.index t (0 : Fin 2) * 1 + 1 * (y 0).val = (y 0).val; omega
    | ⟨1, _⟩ => show win6_3.index t (1 : Fin 2) * 128 + 1 * (y 1).val = (y 1).val; omega
  · show V c main_v159 (((cfg6.win 4).blk t).view.emb y) = V c main_v159 y
    refine congrArg _ (funext fun a => Fin.ext ?_)
    match a with
    | ⟨0, _⟩ => show win6_4.index t (0 : Fin 2) * 128 + 1 * (y 0).val = (y 0).val; omega
    | ⟨1, _⟩ => show win6_4.index t (1 : Fin 2) * 128 + 1 * (y 1).val = (y 1).val; omega
  · show V c main_v163 (((cfg6.win 5).blk t).view.emb y) = V c main_v163 y
    refine congrArg _ (funext fun a => Fin.ext ?_)
    match a with
    | ⟨0, _⟩ => show win6_5.index t (0 : Fin 2) * 1 + 1 * (y 0).val = (y 0).val; omega
    | ⟨1, _⟩ => show win6_5.index t (1 : Fin 2) * 128 + 1 * (y 1).val = (y 1).val; omega
  · show win6_0.index t (0 : Fin 2) * 5000 + 1 * (y 0).val = 5000 * t.val + (y 0).val; omega
  · show win6_0.index t (1 : Fin 2) * 128 + 1 * (y 1).val = (y 1).val; omega
  · show win6_6.index t (0 : Fin 2) * 5000 + 1 * (y 0).val = 5000 * t.val + (y 0).val; omega
  · show win6_6.index t (1 : Fin 2) * 128 + 1 * (y 1).val = (y 1).val; omega

/-- An index of the output array is in point `t`'s block iff each coordinate is in the block's range on its axis. -/
theorem mem_block (t : Fin cfg6.N) (i : S100000x128.Idx) :
    i ∈ ((cfg6.win 6).blk t).view.set ↔ ∀ a : Fin 2, win6_6.index t a * S5000x128.size a ≤ (i a).val
      ∧ (i a).val < win6_6.index t a * S5000x128.size a + S5000x128.size a := by
  show i ∈ ((View.whole main_v164).slice (win6_6.rect t)).set ↔ _
  rw [View.set_slice_whole, Rect.mem_set_unit]
  exact Iff.rfl

/-- The twenty blocks tile the output array: row r is in the block of point r / 5000. -/
theorem cover (i : S100000x128.Idx) :
    ∃ t : Fin cfg6.N, (cfg6.win 6).flush t = true ∧ i ∈ ((cfg6.win 6).blk t).view.set := by
  have hi0 : (i 0).val < 100000 := (i 0).isLt
  have hi1 : (i 1).val < 128 := (i 1).isLt
  have hN : cfg6.N = 20 := N_6
  have ht : (i 0).val / 5000 < cfg6.N := by rw [hN]; omega
  obtain ⟨i00, i01, i10, i11, i20, i21, i30, i31, i40, i41, i50, i51, i60, i61⟩ := index_facts ⟨(i 0).val / 5000, ht⟩
  refine ⟨⟨(i 0).val / 5000, ht⟩, flush6_6 _, ?_⟩
  rw [mem_block]
  intro a
  match a with
  | ⟨0, _⟩ =>
    show win6_6.index ⟨(i 0).val / 5000, ht⟩ (0 : Fin 2) * 5000 ≤ (i 0).val
      ∧ (i 0).val < win6_6.index ⟨(i 0).val / 5000, ht⟩ (0 : Fin 2) * 5000 + 5000
    rw [i60]; show (i 0).val / 5000 * 5000 ≤ (i 0).val ∧ (i 0).val < (i 0).val / 5000 * 5000 + 5000; omega
  | ⟨1, _⟩ =>
    show win6_6.index ⟨(i 0).val / 5000, ht⟩ (1 : Fin 2) * 128 ≤ (i 1).val
      ∧ (i 1).val < win6_6.index ⟨(i 0).val / 5000, ht⟩ (1 : Fin 2) * 128 + 128
    rw [i61]; omega

/-- THE OUTPUT ARRAY after the launch: the whole-array perceptron of the arrays the launch found. -/
theorem array_eq (c : Dev nD) : (dat6 V c).arrAt 6 cfg6.N
    = Cert.Net.perceptron (V c main_v141) (V c main_v153) (V c main_v155) (V c main_v162) (V c main_v159) (V c main_v163) :=
  (dat6 V c).arrAt_eq_of_cover 6 _ (fun t _ => flushed_eq V c t) cover

end Cert.KernelIdeal.Launch6

end
-- ==== Proof.Launch7.lean ====
/-
  What launch 7 (a normalisation launch) leaves in its output array, as one function of the arrays it finds.

  The launch has twenty grid points; point t stages rows 5000·t … 5000·t + 4999 of the pre-activations z and the four
  rows g, β, μ, s whole, and writes back rows 5000·t … of the output. What it writes is max((g ⊙ (z − μ)) ⊙ s + β, 0) of its
  block of z, which is the block of that expression of the whole array (entry (r, c) depends on z (r, c) and on column c
  of the four rows only); the twenty blocks tile the output array, so after the launch the array holds the whole-array
  normalisation of what the launch found in its five input arrays.
-/
import proofs.«124945_j59390807769652_1_alg».proof.Proof.Gen.KernelIdeal.Frame
import proofs.«124945_j59390807769652_1_alg».proof.Proof.LibPerceptronBlock
import proofs.«124945_j59390807769652_1_alg».proof.Proof.Net
import Idealize.ShloMosaic.Lib.Pipeline.Value

set_option maxRecDepth 16384

noncomputable section

namespace Cert.KernelIdeal.Launch7

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's arithmetic with its identity casts removed: the loads are z, g, μ, s, β in that order. -/
theorem payload_eq (v0 : Vec Ideal S5000x128 .f32) (v2 v4 v10 v14 : Vec Ideal S1x128 .f32) :
    k7_pay1 v0 v2 v4 v10 v14
      = maximumf (addf (mulf (mulf (broadcastTo ⟨2, ![5000, 128]⟩ v2 broadcasts_S1x128_S5000x128)
              (subf v0 (broadcastTo ⟨2, ![5000, 128]⟩ v4 broadcasts_S1x128_S5000x128)))
            (broadcastTo ⟨2, ![5000, 128]⟩ v10 broadcasts_S1x128_S5000x128))
          (broadcastTo ⟨2, ![5000, 128]⟩ v14 broadcasts_S1x128_S5000x128))
        (broadcast ⟨2, ![5000, 128]⟩ (Scalar.ofBits (F := Ideal) .f32 0x00000000#32)) := by
  unfold k7_pay1
  simp only [shapeCast_self]

/-- The body's result on a block of z that sits in the whole array, read at a block index, is the whole-array normalisation
    read where the output block puts the index. -/
theorem point_eq (x0 : Vec Ideal S5000x128 .f32) (x1 x2 x3 x4 : Vec Ideal S1x128 .f32)
    (Z : FVec Ideal S100000x128 .f32) (G Be Mu Sd : FVec Ideal S1x128 .f32)
    (ez eo : S5000x128.Idx → S100000x128.Idx)
    (hx0 : ∀ y, x0 y = Z (ez y)) (hez : ∀ y, ez y = eo y)
    (hx1 : ∀ y, x1 y = G y) (hx2 : ∀ y, x2 y = Be y) (hx3 : ∀ y, x3 y = Mu y) (hx4 : ∀ y, x4 y = Sd y)
    (heo1 : ∀ y, (eo y 1).val = (y 1).val)
    (j : S5000x128.Idx) :
    k7_pay1 x0 x1 x3 x4 x2 j = Cert.Net.normalise Z G Be Mu Sd (eo j) := by
  obtain rfl : x1 = G := funext hx1
  obtain rfl : x2 = Be := funext hx2
  obtain rfl : x3 = Mu := funext hx3
  obtain rfl : x4 = Sd := funext hx4
  rw [payload_eq]
  exact Cert.Lib.normalise_row_block x0 Z x1 x3 x4 x2 ez eo hx0 hez heo1 broadcasts_S1x128_S5000x128 Cert.Net.hrow
    0x00000000#32 Cert.Net.hsplat j

/-- The printed index maps, decided over the twenty grid points: the row-blocked input and the output move together along
    the rows, and the four rows stay at the origin. -/
theorem index_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- What point `t` writes back is block `t` of the whole-array normalisation of the arrays the launch finds. -/
theorem flushed_eq (c : Dev nD) (t : Fin cfg7.N) :
    (dat7 V c).flushed 5 t = ((cfg7.win 5).blk t).view.read (Elt Ideal)
      (Cert.Net.normalise (V c main_v164) (V c main_v182) (V c main_v183) (V c main_v184) (V c main_v185)) := by
  show (cfg7.win 5).cut (grid7.coords t) ((dat7 V c).after 5 t) = _
  rw [after7_5]
  unfold out7_5
  rw [View.canon_unit_zero origin]
  simp only [View.ld_unit_zero (S := S5000x128) origin, View.ld_unit_zero (S := S1x128) origin]
  obtain ⟨i00, i01, i10, i11, i20, i21, i30, i31, i40, i41, i50, i51⟩ := index_facts t
  funext j
  refine point_eq (iblk7 V c 0 t) (iblk7 V c 1 t) (iblk7 V c 2 t) (iblk7 V c 3 t) (iblk7 V c 4 t)
    (V c main_v164) (V c main_v182) (V c main_v183) (V c main_v184) (V c main_v185)
    ((cfg7.win 0).blk t).view.emb ((cfg7.win 5).blk t).view.emb
    (fun y => rfl) (fun y => ?_) (fun y => ?_) (fun y => ?_) (fun y => ?_) (fun y => ?_) (fun y => ?_) j
  · funext a; apply Fin.ext
    match a with
    | ⟨0, _⟩ => show win7_0.index t (0 : Fin 2) * 5000 + 1 * (y 0).val = win7_5.index t (0 : Fin 2) * 5000 + 1 * (y 0).val; omega
    | ⟨1, _⟩ => show win7_0.index t (1 : Fin 2) * 128 + 1 * (y 1).val = win7_5.index t (1 : Fin 2) * 128 + 1 * (y 1).val; omega
  · show V c main_v182 (((cfg7.win 1).blk t).view.emb y) = V c main_v182 y
    refine congrArg _ (funext fun a => Fin.ext ?_)
    match a with
    | ⟨0, _⟩ => show win7_1.index t (0 : Fin 2) * 1 + 1 * (y 0).val = (y 0).val; omega
    | ⟨1, _⟩ => show win7_1.index t (1 : Fin 2) * 128 + 1 * (y 1).val = (y 1).val; omega
  · show V c main_v183 (((cfg7.win 2).blk t).view.emb y) = V c main_v183 y
    refine congrArg _ (funext fun a => Fin.ext ?_)
    match a with
    | ⟨0, _⟩ => show win7_2.index t (0 : Fin 2) * 1 + 1 * (y 0).val = (y 0).val; omega
    | ⟨1, _⟩ => show win7_2.index t (1 : Fin 2) * 128 + 1 * (y 1).val = (y 1).val; omega
  · show V c main_v184 (((cfg7.win 3).blk t).view.emb y) = V c main_v184 y
    refine congrArg _ (funext fun a => Fin.ext ?_)
    match a with
    | ⟨0, _⟩ => show win7_3.index t (0 : Fin 2) * 1 + 1 * (y 0).val = (y 0).val; omega
    | ⟨1, _⟩ => show win7_3.index t (1 : Fin 2) * 128 + 1 * (y 1).val = (y 1).val; omega
  · show V c main_v185 (((cfg7.win 4).blk t).view.emb y) = V c main_v185 y
    refine congrArg _ (funext fun a => Fin.ext ?_)
    match a with
    | ⟨0, _⟩ => show win7_4.index t (0 : Fin 2) * 1 + 1 * (y 0).val = (y 0).val; omega
    | ⟨1, _⟩ => show win7_4.index t (1 : Fin 2) * 128 + 1 * (y 1).val = (y 1).val; omega
  · show win7_5.index t (1 : Fin 2) * 128 + 1 * (y 1).val = (y 1).val; omega

/-- An index of the output array is in point `t`'s block iff each coordinate is in the block's range on its axis. -/
theorem mem_block (t : Fin cfg7.N) (i : S100000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v186).slice (win7_5.rect t)).set ↔ _
  rw [View.set_slice_whole, Rect.mem_set_unit]
  exact Iff.rfl

/-- The twenty blocks tile the output array: row r is in the block of point r / 5000. -/
theorem cover (i : S100000x128.Idx) :
    ∃ t : Fin cfg7.N, (cfg7.win 5).flush t = true ∧ i ∈ ((cfg7.win 5).blk t).view.set := by
  have hi0 : (i 0).val < 100000 := (i 0).isLt
  have hi1 : (i 1).val < 128 := (i 1).isLt
  have hN : cfg7.N = 20 := N_7
  have ht : (i 0).val / 5000 < cfg7.N := by rw [hN]; omega
  obtain ⟨i00, i01, i10, i11, i20, i21, i30, i31, i40, i41, i50, i51⟩ := index_facts ⟨(i 0).val / 5000, ht⟩
  refine ⟨⟨(i 0).val / 5000, ht⟩, flush7_5 _, ?_⟩
  rw [mem_block]
  intro a
  match a with
  | ⟨0, _⟩ =>
    show win7_5.index ⟨(i 0).val / 5000, ht⟩ (0 : Fin 2) * 5000 ≤ (i 0).val
      ∧ (i 0).val < win7_5.index ⟨(i 0).val / 5000, ht⟩ (0 : Fin 2) * 5000 + 5000
    rw [i50]; show (i 0).val / 5000 * 5000 ≤ (i 0).val ∧ (i 0).val < (i 0).val / 5000 * 5000 + 5000; omega
  | ⟨1, _⟩ =>
    show win7_5.index ⟨(i 0).val / 5000, ht⟩ (1 : Fin 2) * 128 ≤ (i 1).val
      ∧ (i 1).val < win7_5.index ⟨(i 0).val / 5000, ht⟩ (1 : Fin 2) * 128 + 128
    rw [i51]; omega

/-- THE OUTPUT ARRAY after the launch: the whole-array normalisation of the arrays the launch found. -/
theorem array_eq (c : Dev nD) : (dat7 V c).arrAt 5 cfg7.N
    = Cert.Net.normalise (V c main_v164) (V c main_v182) (V c main_v183) (V c main_v184) (V c main_v185) :=
  (dat7 V c).arrAt_eq_of_cover 5 _ (fun t _ => flushed_eq V c t) cover

end Cert.KernelIdeal.Launch7

end
-- ==== Proof.KernelLayer3.lean ====
/-
  Layer 3 of the kernel program, from boundary to boundary.

  Between the boundary where the layer's input features sit in their buffer and the boundary after its second launch there
  are four segments: a stretch of host operations (the aggregation of the features over the edges, the layer's slices of
  the stacked weights and biases, the biases recast as rows), the perceptron launch, a second stretch (the column means and
  inverse deviations of the pre-activations, the layer's scale and shift, all four recast as rows) and the normalisation
  launch. Reading the four segments in turn — each stretch by its operations, each launch by what it leaves in its output
  array — the buffer of the layer's output ends at the layer function of the input features.
-/
import proofs.«124945_j59390807769652_1_alg».proof.Proof.Gen.KernelIdeal.Frame
import proofs.«124945_j59390807769652_1_alg».proof.Proof.Launch6
import proofs.«124945_j59390807769652_1_alg».proof.Proof.Launch7
import proofs.«124945_j59390807769652_1_alg».proof.Proof.Layer
import proofs.«124945_j59390807769652_1_alg».proof.Proof.LibRowOfVector
import proofs.«124945_j59390807769652_1_alg».proof.Proof.Keep
import Idealize.ShloMosaic.Lib.StableHlo.Run

set_option maxRecDepth 16384
set_option maxHeartbeats 4000000

noncomputable section

namespace Cert.KernelIdeal.Layer3

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first stretch: what the perceptron launch finds in its six input arrays -/

theorem pre_h (H : Cert.Net.FArr S100000x128) (hH : W12 m ρ c (Proc.devRef .tc main_v141) = H) : V13 m ρ c main_v141 = H := by
  show StableHlo.after hostOps6 (W12 m ρ c) (Proc.devRef .tc main_v141) = _
  refine (StableHlo.after_of_forall_not_mem (b := Proc.devRef .tc main_v141) hostOps6 (W12 m ρ c) (List.forall_iff_forall_mem.mp (by
        simp only [hostOps6, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))).trans ?_
  exact hH

theorem pre_agg (H : Cert.Net.FArr S100000x128) (hH : W12 m ρ c (Proc.devRef .tc main_v141) = H) : V13 m ρ c main_v153
    = Cert.Net.aggregate (Cert.Net.degree (m ((c : Thread nD τ).loc main_arg10))) (m ((c : Thread nD τ).loc main_arg9)) (m ((c : Thread nD τ).loc main_arg10)) H := by
  show StableHlo.after hostOps6 (W12 m ρ c) (Proc.devRef .tc main_v153) = _
  after_results
  rw [Keep.w12_arg9 m ρ c, Keep.w12_arg10 m ρ c, Keep.w12_v6 m ρ c, hH]
  rfl

theorem pre_w1 : V13 m ρ c main_v155 = Cert.Net.weight3 (m ((c : Thread nD τ).loc main_arg1)) := by
  show StableHlo.after hostOps6 (W12 m ρ c) (Proc.devRef .tc main_v155) = _
  after_results
  rw [Keep.w12_arg1 m ρ c]
  rfl

theorem pre_b1 : V13 m ρ c main_v162 = Cert.Net.row (Cert.Net.vector3 (m ((c : Thread nD τ).loc main_arg2))) := by
  show StableHlo.after hostOps6 (W12 m ρ c) (Proc.devRef .tc main_v162) = _
  after_results
  rw [Keep.w12_arg2 m ρ c]
  exact Cert.Lib.shapeCast_row_eq_broadcastInDim (Cert.Net.vector3 (m ((c : Thread nD τ).loc main_arg2))) _ _

theorem pre_w2 : V13 m ρ c main_v159 = Cert.Net.weight3 (m ((c : Thread nD τ).loc main_arg3)) := by
  show StableHlo.after hostOps6 (W12 m ρ c) (Proc.devRef .tc main_v159) = _
  after_results
  rw [Keep.w12_arg3 m ρ c]
  rfl

theorem pre_b2 : V13 m ρ c main_v163 = Cert.Net.row (Cert.Net.vector3 (m ((c : Thread nD τ).loc main_arg4))) := by
  show StableHlo.after hostOps6 (W12 m ρ c) (Proc.devRef .tc main_v163) = _
  after_results
  rw [Keep.w12_arg4 m ρ c]
  exact Cert.Lib.shapeCast_row_eq_broadcastInDim (Cert.Net.vector3 (m ((c : Thread nD τ).loc main_arg4))) _ _

/-! ## The perceptron launch: the pre-activations -/

theorem z_eq (H : Cert.Net.FArr S100000x128) (hH : W12 m ρ c (Proc.devRef .tc main_v141) = H) : W14 m ρ c (Proc.devRef .tc main_v164) = Cert.Net.dense (Cert.Net.degree (m ((c : Thread nD τ).loc main_arg10))) (m ((c : Thread nD τ).loc main_arg9)) (m ((c : Thread nD τ).loc main_arg10)) (Cert.Net.weight3 (m ((c : Thread nD τ).loc main_arg1))) (Cert.Net.vector3 (m ((c : Thread nD τ).loc main_arg2))) (Cert.Net.weight3 (m ((c : Thread nD τ).loc main_arg3))) (Cert.Net.vector3 (m ((c : Thread nD τ).loc main_arg4))) H := by
  refine (W14_arr m ρ c 6).trans ?_
  rw [Launch6.array_eq (V13 m ρ) c, pre_h m ρ c H hH, pre_agg m ρ c H hH, pre_w1 m ρ c, pre_b1 m ρ c, pre_w2 m ρ c, pre_b2 m ρ c]
  rfl

/-! ## The second stretch: what the normalisation launch finds in its five input arrays -/

theorem stat_z (H : Cert.Net.FArr S100000x128) (hH : W12 m ρ c (Proc.devRef .tc main_v141) = H) : V15 m ρ c main_v164 = Cert.Net.dense (Cert.Net.degree (m ((c : Thread nD τ).loc main_arg10))) (m ((c : Thread nD τ).loc main_arg9)) (m ((c : Thread nD τ).loc main_arg10)) (Cert.Net.weight3 (m ((c : Thread nD τ).loc main_arg1))) (Cert.Net.vector3 (m ((c : Thread nD τ).loc main_arg2))) (Cert.Net.weight3 (m ((c : Thread nD τ).loc main_arg3))) (Cert.Net.vector3 (m ((c : Thread nD τ).loc main_arg4))) H := by
  show StableHlo.after hostOps7 (W14 m ρ c) (Proc.devRef .tc main_v164) = _
  refine (StableHlo.after_of_forall_not_mem (b := Proc.devRef .tc main_v164) hostOps7 (W14 m ρ c) (List.forall_iff_forall_mem.mp (by
        simp only [hostOps7, List.flatten_cons, List.flatten_nil, List.append_nil, List.cons_append, List.nil_append, List.Forall,
          StableHlo.nullary_writes, StableHlo.unary_writes, StableHlo.binary_writes, StableHlo.ternary_writes,
          StableHlo.quaternary_writes, StableHlo.reshape_writes, StableHlo.binaryIndexed_writes, Finset.mem_singleton]
        repeat' apply And.intro
        all_goals exact StableHlo.devRef_ne_of_ne (by decide)))).trans ?_
  exact z_eq m ρ c H hH

theorem stat_g : V15 m ρ c main_v182 = Cert.Net.row (Cert.Net.vector3 (m ((c : Thread nD τ).loc main_arg5))) := by
  show StableHlo.after hostOps7 (W14 m ρ c) (Proc.devRef .tc main_v182) = _
  after_results
  rw [Keep.w14_arg5 m ρ c]
  exact Cert.Lib.shapeCast_row_eq_broadcastInDim (Cert.Net.vector3 (m ((c : Thread nD τ).loc main_arg5))) _ _

theorem stat_be : V15 m ρ c main_v183 = Cert.Net.row (Cert.Net.vector3 (m ((c : Thread nD τ).loc main_arg6))) := by
  show StableHlo.after hostOps7 (W14 m ρ c) (Proc.devRef .tc main_v183) = _
  after_results
  rw [Keep.w14_arg6 m ρ c]
  exact Cert.Lib.shapeCast_row_eq_broadcastInDim (Cert.Net.vector3 (m ((c : Thread nD τ).loc main_arg6))) _ _

theorem stat_mu (H : Cert.Net.FArr S100000x128) (hH : W12 m ρ c (Proc.devRef .tc main_v141) = H) : V15 m ρ c main_v184 = Cert.Net.row (Cert.Net.colMean (Cert.Net.dense (Cert.Net.degree (m ((c : Thread nD τ).loc main_arg10))) (m ((c : Thread nD τ).loc main_arg9)) (m ((c : Thread nD τ).loc main_arg10)) (Cert.Net.weight3 (m ((c : Thread nD τ).loc main_arg1))) (Cert.Net.vector3 (m ((c : Thread nD τ).loc main_arg2))) (Cert.Net.weight3 (m ((c : Thread nD τ).loc main_arg3))) (Cert.Net.vector3 (m ((c : Thread nD τ).loc main_arg4))) H)) := by
  show StableHlo.after hostOps7 (W14 m ρ c) (Proc.devRef .tc main_v184) = _
  after_results
  rw [z_eq m ρ c H hH]
  exact Cert.Lib.shapeCast_row_eq_broadcastInDim (Cert.Net.colMean (Cert.Net.dense (Cert.Net.degree (m ((c : Thread nD τ).loc main_arg10))) (m ((c : Thread nD τ).loc main_arg9)) (m ((c : Thread nD τ).loc main_arg10)) (Cert.Net.weight3 (m ((c : Thread nD τ).loc main_arg1))) (Cert.Net.vector3 (m ((c : Thread nD τ).loc main_arg2))) (Cert.Net.weight3 (m ((c : Thread nD τ).loc main_arg3))) (Cert.Net.vector3 (m ((c : Thread nD τ).loc main_arg4))) H)) _ _

theorem stat_s (H : Cert.Net.FArr S100000x128) (hH : W12 m ρ c (Proc.devRef .tc main_v141) = H) : V15 m ρ c main_v185 = Cert.Net.row (Cert.Net.invDev (Cert.Net.dense (Cert.Net.degree (m ((c : Thread nD τ).loc main_arg10))) (m ((c : Thread nD τ).loc main_arg9)) (m ((c : Thread nD τ).loc main_arg10)) (Cert.Net.weight3 (m ((c : Thread nD τ).loc main_arg1))) (Cert.Net.vector3 (m ((c : Thread nD τ).loc main_arg2))) (Cert.Net.weight3 (m ((c : Thread nD τ).loc main_arg3))) (Cert.Net.vector3 (m ((c : Thread nD τ).loc main_arg4))) H)) := by
  show StableHlo.after hostOps7 (W14 m ρ c) (Proc.devRef .tc main_v185) = _
  after_results
  rw [z_eq m ρ c H hH]
  exact Cert.Lib.shapeCast_row_eq_broadcastInDim (Cert.Net.invDev (Cert.Net.dense (Cert.Net.degree (m ((c : Thread nD τ).loc main_arg10))) (m ((c : Thread nD τ).loc main_arg9)) (m ((c : Thread nD τ).loc main_arg10)) (Cert.Net.weight3 (m ((c : Thread nD τ).loc main_arg1))) (Cert.Net.vector3 (m ((c : Thread nD τ).loc main_arg2))) (Cert.Net.weight3 (m ((c : Thread nD τ).loc main_arg3))) (Cert.Net.vector3 (m ((c : Thread nD τ).loc main_arg4))) H)) _ _

/-! ## The normalisation launch: the layer's output -/

/-- THE LAYER: its output buffer after the second launch holds the layer function of the features it started from. -/
theorem out_eq (H : Cert.Net.FArr S100000x128) (hH : W12 m ρ c (Proc.devRef .tc main_v141) = H) : W16 m ρ c (Proc.devRef .tc main_v186)
    = Cert.Net.layer3 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) H := by
  refine (W16_arr m ρ c 5).trans ?_
  rw [Launch7.array_eq (V15 m ρ) c, stat_z m ρ c H hH, stat_g m ρ c, stat_be m ρ c, stat_mu m ρ c H hH, stat_s m ρ c H hH]
  rfl

end Cert.KernelIdeal.Layer3

end
-- ==== Proof.KernelTail.lean ====
/-
  The last stretch of the kernel program: the readout.

  After the last normalisation launch one stretch of host operations is left: the per-graph mean of the node features (a
  scatter-add over the graph ids, divided by the clamped node counts), the [128, 32] projection and the bias row. Read by
  its operations, the result buffer ends at the readout of whatever features the last launch left.
-/
import proofs.«124945_j59390807769652_1_alg».proof.Proof.Gen.KernelIdeal.Frame
import proofs.«124945_j59390807769652_1_alg».proof.Proof.Layer
import proofs.«124945_j59390807769652_1_alg».proof.Proof.Keep
import Idealize.ShloMosaic.Lib.StableHlo.Run

set_option maxRecDepth 16384
set_option maxHeartbeats 4000000

noncomputable section

namespace Cert.KernelIdeal.Tail

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The result buffer after the last stretch holds the readout of the features the last launch left. -/
theorem out_eq (H : Cert.Net.FArr S100000x128) (hH : W16 m ρ c (Proc.devRef .tc main_v186) = H) :
    W17 m ρ c (Proc.devRef .tc main_v202) = Cert.Net.readout (m ((c : Thread nD τ).loc main_arg11)) (m ((c : Thread nD τ).loc main_arg7)) (m ((c : Thread nD τ).loc main_arg8)) H := by
  show StableHlo.after hostOps8 (W16 m ρ c) (Proc.devRef .tc main_v202) = _
  after_results
  rw [Keep.w16_arg11 m ρ c, Keep.w16_arg7 m ρ c, Keep.w16_arg8 m ρ c, hH]
  rfl

end Cert.KernelIdeal.Tail

end
-- ==== Proof.KernelValue.lean ====
/-
  The kernel program's value: its result is the network function of its arguments.

  The four layers and the readout, each read from boundary to boundary, compose: the features a layer leaves are the
  features the next one starts from. So the result buffer at the last boundary holds the network of the argument arrays,
  and every weakly fair execution ends with it there.
-/
import proofs.«124945_j59390807769652_1_alg».proof.Proof.KernelResult
import proofs.«124945_j59390807769652_1_alg».proof.Proof.KernelLayer0
import proofs.«124945_j59390807769652_1_alg».proof.Proof.KernelLayer1
import proofs.«124945_j59390807769652_1_alg».proof.Proof.KernelLayer2
import proofs.«124945_j59390807769652_1_alg».proof.Proof.KernelLayer3
import proofs.«124945_j59390807769652_1_alg».proof.Proof.KernelTail

set_option maxRecDepth 16384

noncomputable section

namespace Cert.KernelIdeal.NetValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The last boundary's contents at the result buffer: the network of the arguments. -/
theorem value (c : Dev nD) : W17 m ρ c (Proc.devRef .tc main_v202) = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  Tail.out_eq m ρ c _ (Layer3.out_eq m ρ c _ (Layer2.out_eq m ρ c _ (Layer1.out_eq m ρ c _ (Layer0.out_eq m ρ c))))

/-- Every weakly fair execution terminates, without a fault, with the result at the network of the arguments and the
    arguments unchanged. -/
theorem run : θ_run defs (onTc (τ := τ) (main (F := Ideal))) ⟨m, fun _ => 0, ρ⟩ (fun r => ∀ c : Dev nD,
      r.2.mem ((c.tc : Thread nD τ).loc main_v202) = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (value m ρ c), (h c).2⟩) (Result.run_result m ρ)

end Cert.KernelIdeal.NetValue

end
-- ==== Proof.ReferenceHolds.lean ====
/-
  What the later pieces of the reference program need of the buffers they find.

  Each piece of the program after the first reads, besides the features the previous piece left, only the arguments and
  the clamped in-degree column the first piece computes; no piece writes any of these. `Holds m c X` says that the buffer
  contents `X` still have every argument (but the input features, which only the first layer reads) as launched and the
  degree column at the degree of the launch's destination array.
-/
import proofs.«124945_j59390807769652_1_alg».proof.Proof.ReferenceRun
import proofs.«124945_j59390807769652_1_alg».proof.Proof.Layer

set_option maxRecDepth 16384
set_option maxHeartbeats 4000000

noncomputable section

namespace Cert.ReferenceIdeal.Stage

open Cert.ReferenceIdeal Cert.ReferenceIdeal.Gen Cert.ReferenceIdeal.RunP Idealize.ShloMosaic Idealize.ShloMosaic.TcCoe Idealize.SL.Sem Idealize.ShloMosaic.StableHlo

/-- The arguments 1–11 as launched and the degree column in place. -/
structure Holds (m : (ℓ : Loc nD τ sig) → Buf (Elt Ideal) ℓ) (c : Dev nD) (X : Valuation τ sig (Elt Ideal)) : Prop where
  a1 : X (Proc.devRef .tc main_arg1) = m ((c.tc : Thread nD τ).loc main_arg1)
  a2 : X (Proc.devRef .tc main_arg2) = m ((c.tc : Thread nD τ).loc main_arg2)
  a3 : X (Proc.devRef .tc main_arg3) = m ((c.tc : Thread nD τ).loc main_arg3)
  a4 : X (Proc.devRef .tc main_arg4) = m ((c.tc : Thread nD τ).loc main_arg4)
  a5 : X (Proc.devRef .tc main_arg5) = m ((c.tc : Thread nD τ).loc main_arg5)
  a6 : X (Proc.devRef .tc main_arg6) = m ((c.tc : Thread nD τ).loc main_arg6)
  a7 : X (Proc.devRef .tc main_arg7) = m ((c.tc : Thread nD τ).loc main_arg7)
  a8 : X (Proc.devRef .tc main_arg8) = m ((c.tc : Thread nD τ).loc main_arg8)
  a9 : X (Proc.devRef .tc main_arg9) = m ((c.tc : Thread nD τ).loc main_arg9)
  a10 : X (Proc.devRef .tc main_arg10) = m ((c.tc : Thread nD τ).loc main_arg10)
  a11 : X (Proc.devRef .tc main_arg11) = m ((c.tc : Thread nD τ).loc main_arg11)
  deg : X (Proc.devRef .tc main_v6) = Cert.Net.degree (m ((c.tc : Thread nD τ).loc main_arg10))

end Cert.ReferenceIdeal.Stage

end
-- ==== Proof.ReferenceHead.lean ====
/-
  The first piece of the reference program: the clamped in-degree column.

  Its ten operations count, for every node, the edges arriving at it (a scatter-add of ones over the destination array),
  clamp the count at one and lay it out as a column. They write no argument. So after them every argument is as launched
  and the column's buffer holds the degree of the launch's destination array.
-/
import proofs.«124945_j59390807769652_1_alg».proof.Proof.ReferenceHolds

set_option maxRecDepth 16384
set_option maxHeartbeats 4000000

noncomputable section

namespace Cert.ReferenceIdeal.Stage

open Cert.ReferenceIdeal Cert.ReferenceIdeal.Gen Cert.ReferenceIdeal.RunP Idealize.ShloMosaic Idealize.ShloMosaic.TcCoe Idealize.SL.Sem Idealize.ShloMosaic.StableHlo

variable (m : (ℓ : Loc nD τ sig) → Buf (Elt Ideal) ℓ) (c : Dev nD) (X : Valuation τ sig (Elt Ideal))

theorem head_deg : after (opsHead (F := Ideal)) X (Proc.devRef .tc main_v6) = Cert.Net.degree (X (Proc.devRef .tc main_arg10)) := by
  after_results_simp <;> rfl

theorem head_arg0 : after (opsHead (F := Ideal)) X (Proc.devRef .tc main_arg0) = X (Proc.devRef .tc main_arg0) := by
  after_results_simp <;> rfl
theorem head_arg1 : after (opsHead (F := Ideal)) X (Proc.devRef .tc main_arg1) = X (Proc.devRef .tc main_arg1) := by
  after_results_simp <;> rfl
theorem head_arg2 : after (opsHead (F := Ideal)) X (Proc.devRef .tc main_arg2) = X (Proc.devRef .tc main_arg2) := by
  after_results_simp <;> rfl
theorem head_arg3 : after (opsHead (F := Ideal)) X (Proc.devRef .tc main_arg3) = X (Proc.devRef .tc main_arg3) := by
  after_results_simp <;> rfl
theorem head_arg4 : after (opsHead (F := Ideal)) X (Proc.devRef .tc main_arg4) = X (Proc.devRef .tc main_arg4) := by
  after_results_simp <;> rfl
theorem head_arg5 : after (opsHead (F := Ideal)) X (Proc.devRef .tc main_arg5) = X (Proc.devRef .tc main_arg5) := by
  after_results_simp <;> rfl
theorem head_arg6 : after (opsHead (F := Ideal)) X (Proc.devRef .tc main_arg6) = X (Proc.devRef .tc main_arg6) := by
  after_results_simp <;> rfl
theorem head_arg7 : after (opsHead (F := Ideal)) X (Proc.devRef .tc main_arg7) = X (Proc.devRef .tc main_arg7) := by
  after_results_simp <;> rfl
theorem head_arg8 : after (opsHead (F := Ideal)) X (Proc.devRef .tc main_arg8) = X (Proc.devRef .tc main_arg8) := by
  after_results_simp <;> rfl
theorem head_arg9 : after (opsHead (F := Ideal)) X (Proc.devRef .tc main_arg9) = X (Proc.devRef .tc main_arg9) := by
  after_results_simp <;> rfl
theorem head_arg10 : after (opsHead (F := Ideal)) X (Proc.devRef .tc main_arg10) = X (Proc.devRef .tc main_arg10) := by
  after_results_simp <;> rfl
theorem head_arg11 : after (opsHead (F := Ideal)) X (Proc.devRef .tc main_arg11) = X (Proc.devRef .tc main_arg11) := by
  after_results_simp <;> rfl

/-- After the first piece, from the launch's contents: the arguments as launched, the degree column in place. -/
theorem holds_head : Holds m c (after (opsHead (F := Ideal)) (launchContents m c)) where
  a1 := head_arg1 _
  a2 := head_arg2 _
  a3 := head_arg3 _
  a4 := head_arg4 _
  a5 := head_arg5 _
  a6 := head_arg6 _
  a7 := head_arg7 _
  a8 := head_arg8 _
  a9 := head_arg9 _
  a10 := head_arg10 _
  a11 := head_arg11 _
  deg := head_deg _

/-- The input features are still as launched. -/
theorem head_features : after (opsHead (F := Ideal)) (launchContents m c) (Proc.devRef .tc main_arg0) = m ((c.tc : Thread nD τ).loc main_arg0) :=
  head_arg0 _

end Cert.ReferenceIdeal.Stage

end
-- ==== Proof.ReferenceLayer0.lean ====
/-
  Layer 0 of the reference program, as a function of the buffer contents it finds.

  The piece's seventy-two operations aggregate the features over the edges, apply the perceptron, take the column
  statistics of the pre-activations, normalise and rectify. Read one operation after the other they leave, in the
  layer's output buffer, the layer function of the features' buffer, of the degree column's buffer and of the arguments'
  buffers as the piece found them; and they write neither an argument nor the degree column.
-/
import proofs.«124945_j59390807769652_1_alg».proof.Proof.ReferenceHolds

set_option maxRecDepth 16384
set_option maxHeartbeats 4000000

noncomputable section

namespace Cert.ReferenceIdeal.Stage

open Cert.ReferenceIdeal Cert.ReferenceIdeal.Gen Cert.ReferenceIdeal.RunP Idealize.ShloMosaic Idealize.ShloMosaic.TcCoe Idealize.SL.Sem Idealize.ShloMosaic.StableHlo

variable (m : (ℓ : Loc nD τ sig) → Buf (Elt Ideal) ℓ) (c : Dev nD) (X : Valuation τ sig (Elt Ideal))

/-- The piece's output buffer, from any contents. -/
theorem layer0_out : after (opsLayer0 (F := Ideal)) X (Proc.devRef .tc main_v66)
    = Cert.Net.layer (X (Proc.devRef .tc main_v6)) (X (Proc.devRef .tc main_arg9)) (X (Proc.devRef .tc main_arg10)) (Cert.Net.weight0 (X (Proc.devRef .tc main_arg1)))
        (Cert.Net.vector0 (X (Proc.devRef .tc main_arg2))) (Cert.Net.weight0 (X (Proc.devRef .tc main_arg3))) (Cert.Net.vector0 (X (Proc.devRef .tc main_arg4)))
        (Cert.Net.vector0 (X (Proc.devRef .tc main_arg5))) (Cert.Net.vector0 (X (Proc.devRef .tc main_arg6))) (X (Proc.devRef .tc main_arg0)) := by
  after_results_simp <;> rfl

theorem layer0_arg1 : after (opsLayer0 (F := Ideal)) X (Proc.devRef .tc main_arg1) = X (Proc.devRef .tc main_arg1) := by
  after_results_simp <;> rfl
theorem layer0_arg2 : after (opsLayer0 (F := Ideal)) X (Proc.devRef .tc main_arg2) = X (Proc.devRef .tc main_arg2) := by
  after_results_simp <;> rfl
theorem layer0_arg3 : after (opsLayer0 (F := Ideal)) X (Proc.devRef .tc main_arg3) = X (Proc.devRef .tc main_arg3) := by
  after_results_simp <;> rfl
theorem layer0_arg4 : after (opsLayer0 (F := Ideal)) X (Proc.devRef .tc main_arg4) = X (Proc.devRef .tc main_arg4) := by
  after_results_simp <;> rfl
theorem layer0_arg5 : after (opsLayer0 (F := Ideal)) X (Proc.devRef .tc main_arg5) = X (Proc.devRef .tc main_arg5) := by
  after_results_simp <;> rfl
theorem layer0_arg6 : after (opsLayer0 (F := Ideal)) X (Proc.devRef .tc main_arg6) = X (Proc.devRef .tc main_arg6) := by
  after_results_simp <;> rfl
theorem layer0_arg7 : after (opsLayer0 (F := Ideal)) X (Proc.devRef .tc main_arg7) = X (Proc.devRef .tc main_arg7) := by
  after_results_simp <;> rfl
theorem layer0_arg8 : after (opsLayer0 (F := Ideal)) X (Proc.devRef .tc main_arg8) = X (Proc.devRef .tc main_arg8) := by
  after_results_simp <;> rfl
theorem layer0_arg9 : after (opsLayer0 (F := Ideal)) X (Proc.devRef .tc main_arg9) = X (Proc.devRef .tc main_arg9) := by
  after_results_simp <;> rfl
theorem layer0_arg10 : after (opsLayer0 (F := Ideal)) X (Proc.devRef .tc main_arg10) = X (Proc.devRef .tc main_arg10) := by
  after_results_simp <;> rfl
theorem layer0_arg11 : after (opsLayer0 (F := Ideal)) X (Proc.devRef .tc main_arg11) = X (Proc.devRef .tc main_arg11) := by
  after_results_simp <;> rfl
theorem layer0_deg : after (opsLayer0 (F := Ideal)) X (Proc.devRef .tc main_v6) = X (Proc.devRef .tc main_v6) := by
  after_results_simp <;> rfl

/-- The piece keeps what later pieces read. -/
theorem holds_layer0 (h : Holds m c X) : Holds m c (after (opsLayer0 (F := Ideal)) X) where
  a1 := (layer0_arg1 X).trans h.a1
  a2 := (layer0_arg2 X).trans h.a2
  a3 := (layer0_arg3 X).trans h.a3
  a4 := (layer0_arg4 X).trans h.a4
  a5 := (layer0_arg5 X).trans h.a5
  a6 := (layer0_arg6 X).trans h.a6
  a7 := (layer0_arg7 X).trans h.a7
  a8 := (layer0_arg8 X).trans h.a8
  a9 := (layer0_arg9 X).trans h.a9
  a10 := (layer0_arg10 X).trans h.a10
  a11 := (layer0_arg11 X).trans h.a11
  deg := (layer0_deg X).trans h.deg

/-- THE LAYER: from contents that hold the arguments and the degree column, with features `H` in the input buffer, the
    output buffer ends at the layer function of `H`. -/
theorem layer0_value (h : Holds m c X) (H : Cert.Net.FArr S100000x128) (hH : X (Proc.devRef .tc main_arg0) = H) :
    after (opsLayer0 (F := Ideal)) X (Proc.devRef .tc main_v66)
      = Cert.Net.layer0 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) H := by
  rw [layer0_out, h.deg, h.a9, h.a10, h.a1, h.a2, h.a3, h.a4, h.a5, h.a6, hH]
  rfl

end Cert.ReferenceIdeal.Stage

end
-- ==== Proof.ReferenceLayer1.lean ====
/-
  Layer 1 of the reference program, as a function of the buffer contents it finds.

  The piece's seventy-two operations aggregate the features over the edges, apply the perceptron, take the column
  statistics of the pre-activations, normalise and rectify. Read one operation after the other they leave, in the
  layer's output buffer, the layer function of the features' buffer, of the degree column's buffer and of the arguments'
  buffers as the piece found them; and they write neither an argument nor the degree column.
-/
import proofs.«124945_j59390807769652_1_alg».proof.Proof.ReferenceHolds

set_option maxRecDepth 16384
set_option maxHeartbeats 4000000

noncomputable section

namespace Cert.ReferenceIdeal.Stage

open Cert.ReferenceIdeal Cert.ReferenceIdeal.Gen Cert.ReferenceIdeal.RunP Idealize.ShloMosaic Idealize.ShloMosaic.TcCoe Idealize.SL.Sem Idealize.ShloMosaic.StableHlo

variable (m : (ℓ : Loc nD τ sig) → Buf (Elt Ideal) ℓ) (c : Dev nD) (X : Valuation τ sig (Elt Ideal))

/-- The piece's output buffer, from any contents. -/
theorem layer1_out : after (opsLayer1 (F := Ideal)) X (Proc.devRef .tc main_v126)
    = Cert.Net.layer (X (Proc.devRef .tc main_v6)) (X (Proc.devRef .tc main_arg9)) (X (Proc.devRef .tc main_arg10)) (Cert.Net.weight1 (X (Proc.devRef .tc main_arg1)))
        (Cert.Net.vector1 (X (Proc.devRef .tc main_arg2))) (Cert.Net.weight1 (X (Proc.devRef .tc main_arg3))) (Cert.Net.vector1 (X (Proc.devRef .tc main_arg4)))
        (Cert.Net.vector1 (X (Proc.devRef .tc main_arg5))) (Cert.Net.vector1 (X (Proc.devRef .tc main_arg6))) (X (Proc.devRef .tc main_v66)) := by
  after_results_simp <;> rfl

theorem layer1_arg1 : after (opsLayer1 (F := Ideal)) X (Proc.devRef .tc main_arg1) = X (Proc.devRef .tc main_arg1) := by
  after_results_simp <;> rfl
theorem layer1_arg2 : after (opsLayer1 (F := Ideal)) X (Proc.devRef .tc main_arg2) = X (Proc.devRef .tc main_arg2) := by
  after_results_simp <;> rfl
theorem layer1_arg3 : after (opsLayer1 (F := Ideal)) X (Proc.devRef .tc main_arg3) = X (Proc.devRef .tc main_arg3) := by
  after_results_simp <;> rfl
theorem layer1_arg4 : after (opsLayer1 (F := Ideal)) X (Proc.devRef .tc main_arg4) = X (Proc.devRef .tc main_arg4) := by
  after_results_simp <;> rfl
theorem layer1_arg5 : after (opsLayer1 (F := Ideal)) X (Proc.devRef .tc main_arg5) = X (Proc.devRef .tc main_arg5) := by
  after_results_simp <;> rfl
theorem layer1_arg6 : after (opsLayer1 (F := Ideal)) X (Proc.devRef .tc main_arg6) = X (Proc.devRef .tc main_arg6) := by
  after_results_simp <;> rfl
theorem layer1_arg7 : after (opsLayer1 (F := Ideal)) X (Proc.devRef .tc main_arg7) = X (Proc.devRef .tc main_arg7) := by
  after_results_simp <;> rfl
theorem layer1_arg8 : after (opsLayer1 (F := Ideal)) X (Proc.devRef .tc main_arg8) = X (Proc.devRef .tc main_arg8) := by
  after_results_simp <;> rfl
theorem layer1_arg9 : after (opsLayer1 (F := Ideal)) X (Proc.devRef .tc main_arg9) = X (Proc.devRef .tc main_arg9) := by
  after_results_simp <;> rfl
theorem layer1_arg10 : after (opsLayer1 (F := Ideal)) X (Proc.devRef .tc main_arg10) = X (Proc.devRef .tc main_arg10) := by
  after_results_simp <;> rfl
theorem layer1_arg11 : after (opsLayer1 (F := Ideal)) X (Proc.devRef .tc main_arg11) = X (Proc.devRef .tc main_arg11) := by
  after_results_simp <;> rfl
theorem layer1_deg : after (opsLayer1 (F := Ideal)) X (Proc.devRef .tc main_v6) = X (Proc.devRef .tc main_v6) := by
  after_results_simp <;> rfl

/-- The piece keeps what later pieces read. -/
theorem holds_layer1 (h : Holds m c X) : Holds m c (after (opsLayer1 (F := Ideal)) X) where
  a1 := (layer1_arg1 X).trans h.a1
  a2 := (layer1_arg2 X).trans h.a2
  a3 := (layer1_arg3 X).trans h.a3
  a4 := (layer1_arg4 X).trans h.a4
  a5 := (layer1_arg5 X).trans h.a5
  a6 := (layer1_arg6 X).trans h.a6
  a7 := (layer1_arg7 X).trans h.a7
  a8 := (layer1_arg8 X).trans h.a8
  a9 := (layer1_arg9 X).trans h.a9
  a10 := (layer1_arg10 X).trans h.a10
  a11 := (layer1_arg11 X).trans h.a11
  deg := (layer1_deg X).trans h.deg

/-- THE LAYER: from contents that hold the arguments and the degree column, with features `H` in the input buffer, the
    output buffer ends at the layer function of `H`. -/
theorem layer1_value (h : Holds m c X) (H : Cert.Net.FArr S100000x128) (hH : X (Proc.devRef .tc main_v66) = H) :
    after (opsLayer1 (F := Ideal)) X (Proc.devRef .tc main_v126)
      = Cert.Net.layer1 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) H := by
  rw [layer1_out, h.deg, h.a9, h.a10, h.a1, h.a2, h.a3, h.a4, h.a5, h.a6, hH]
  rfl

end Cert.ReferenceIdeal.Stage

end
-- ==== Proof.ReferenceLayer2.lean ====
/-
  Layer 2 of the reference program, as a function of the buffer contents it finds.

  The piece's seventy-two operations aggregate the features over the edges, apply the perceptron, take the column
  statistics of the pre-activations, normalise and rectify. Read one operation after the other they leave, in the
  layer's output buffer, the layer function of the features' buffer, of the degree column's buffer and of the arguments'
  buffers as the piece found them; and they write neither an argument nor the degree column.
-/
import proofs.«124945_j59390807769652_1_alg».proof.Proof.ReferenceHolds

set_option maxRecDepth 16384
set_option maxHeartbeats 4000000

noncomputable section

namespace Cert.ReferenceIdeal.Stage

open Cert.ReferenceIdeal Cert.ReferenceIdeal.Gen Cert.ReferenceIdeal.RunP Idealize.ShloMosaic Idealize.ShloMosaic.TcCoe Idealize.SL.Sem Idealize.ShloMosaic.StableHlo

variable (m : (ℓ : Loc nD τ sig) → Buf (Elt Ideal) ℓ) (c : Dev nD) (X : Valuation τ sig (Elt Ideal))

/-- The piece's output buffer, from any contents. -/
theorem layer2_out : after (opsLayer2 (F := Ideal)) X (Proc.devRef .tc main_v186)
    = Cert.Net.layer (X (Proc.devRef .tc main_v6)) (X (Proc.devRef .tc main_arg9)) (X (Proc.devRef .tc main_arg10)) (Cert.Net.weight2 (X (Proc.devRef .tc main_arg1)))
        (Cert.Net.vector2 (X (Proc.devRef .tc main_arg2))) (Cert.Net.weight2 (X (Proc.devRef .tc main_arg3))) (Cert.Net.vector2 (X (Proc.devRef .tc main_arg4)))
        (Cert.Net.vector2 (X (Proc.devRef .tc main_arg5))) (Cert.Net.vector2 (X (Proc.devRef .tc main_arg6))) (X (Proc.devRef .tc main_v126)) := by
  after_results_simp <;> rfl

theorem layer2_arg1 : after (opsLayer2 (F := Ideal)) X (Proc.devRef .tc main_arg1) = X (Proc.devRef .tc main_arg1) := by
  after_results_simp <;> rfl
theorem layer2_arg2 : after (opsLayer2 (F := Ideal)) X (Proc.devRef .tc main_arg2) = X (Proc.devRef .tc main_arg2) := by
  after_results_simp <;> rfl
theorem layer2_arg3 : after (opsLayer2 (F := Ideal)) X (Proc.devRef .tc main_arg3) = X (Proc.devRef .tc main_arg3) := by
  after_results_simp <;> rfl
theorem layer2_arg4 : after (opsLayer2 (F := Ideal)) X (Proc.devRef .tc main_arg4) = X (Proc.devRef .tc main_arg4) := by
  after_results_simp <;> rfl
theorem layer2_arg5 : after (opsLayer2 (F := Ideal)) X (Proc.devRef .tc main_arg5) = X (Proc.devRef .tc main_arg5) := by
  after_results_simp <;> rfl
theorem layer2_arg6 : after (opsLayer2 (F := Ideal)) X (Proc.devRef .tc main_arg6) = X (Proc.devRef .tc main_arg6) := by
  after_results_simp <;> rfl
theorem layer2_arg7 : after (opsLayer2 (F := Ideal)) X (Proc.devRef .tc main_arg7) = X (Proc.devRef .tc main_arg7) := by
  after_results_simp <;> rfl
theorem layer2_arg8 : after (opsLayer2 (F := Ideal)) X (Proc.devRef .tc main_arg8) = X (Proc.devRef .tc main_arg8) := by
  after_results_simp <;> rfl
theorem layer2_arg9 : after (opsLayer2 (F := Ideal)) X (Proc.devRef .tc main_arg9) = X (Proc.devRef .tc main_arg9) := by
  after_results_simp <;> rfl
theorem layer2_arg10 : after (opsLayer2 (F := Ideal)) X (Proc.devRef .tc main_arg10) = X (Proc.devRef .tc main_arg10) := by
  after_results_simp <;> rfl
theorem layer2_arg11 : after (opsLayer2 (F := Ideal)) X (Proc.devRef .tc main_arg11) = X (Proc.devRef .tc main_arg11) := by
  after_results_simp <;> rfl
theorem layer2_deg : after (opsLayer2 (F := Ideal)) X (Proc.devRef .tc main_v6) = X (Proc.devRef .tc main_v6) := by
  after_results_simp <;> rfl

/-- The piece keeps what later pieces read. -/
theorem holds_layer2 (h : Holds m c X) : Holds m c (after (opsLayer2 (F := Ideal)) X) where
  a1 := (layer2_arg1 X).trans h.a1
  a2 := (layer2_arg2 X).trans h.a2
  a3 := (layer2_arg3 X).trans h.a3
  a4 := (layer2_arg4 X).trans h.a4
  a5 := (layer2_arg5 X).trans h.a5
  a6 := (layer2_arg6 X).trans h.a6
  a7 := (layer2_arg7 X).trans h.a7
  a8 := (layer2_arg8 X).trans h.a8
  a9 := (layer2_arg9 X).trans h.a9
  a10 := (layer2_arg10 X).trans h.a10
  a11 := (layer2_arg11 X).trans h.a11
  deg := (layer2_deg X).trans h.deg

/-- THE LAYER: from contents that hold the arguments and the degree column, with features `H` in the input buffer, the
    output buffer ends at the layer function of `H`. -/
theorem layer2_value (h : Holds m c X) (H : Cert.Net.FArr S100000x128) (hH : X (Proc.devRef .tc main_v126) = H) :
    after (opsLayer2 (F := Ideal)) X (Proc.devRef .tc main_v186)
      = Cert.Net.layer2 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) H := by
  rw [layer2_out, h.deg, h.a9, h.a10, h.a1, h.a2, h.a3, h.a4, h.a5, h.a6, hH]
  rfl

end Cert.ReferenceIdeal.Stage

end
-- ==== Proof.ReferenceLayer3.lean ====
/-
  Layer 3 of the reference program, as a function of the buffer contents it finds.

  The piece's seventy-two operations aggregate the features over the edges, apply the perceptron, take the column
  statistics of the pre-activations, normalise and rectify. Read one operation after the other they leave, in the
  layer's output buffer, the layer function of the features' buffer, of the degree column's buffer and of the arguments'
  buffers as the piece found them; and they write neither an argument nor the degree column.
-/
import proofs.«124945_j59390807769652_1_alg».proof.Proof.ReferenceHolds

set_option maxRecDepth 16384
set_option maxHeartbeats 4000000

noncomputable section

namespace Cert.ReferenceIdeal.Stage

open Cert.ReferenceIdeal Cert.ReferenceIdeal.Gen Cert.ReferenceIdeal.RunP Idealize.ShloMosaic Idealize.ShloMosaic.TcCoe Idealize.SL.Sem Idealize.ShloMosaic.StableHlo

variable (m : (ℓ : Loc nD τ sig) → Buf (Elt Ideal) ℓ) (c : Dev nD) (X : Valuation τ sig (Elt Ideal))

/-- The piece's output buffer, from any contents. -/
theorem layer3_out : after (opsLayer3 (F := Ideal)) X (Proc.devRef .tc main_v246)
    = Cert.Net.layer (X (Proc.devRef .tc main_v6)) (X (Proc.devRef .tc main_arg9)) (X (Proc.devRef .tc main_arg10)) (Cert.Net.weight3 (X (Proc.devRef .tc main_arg1)))
        (Cert.Net.vector3 (X (Proc.devRef .tc main_arg2))) (Cert.Net.weight3 (X (Proc.devRef .tc main_arg3))) (Cert.Net.vector3 (X (Proc.devRef .tc main_arg4)))
        (Cert.Net.vector3 (X (Proc.devRef .tc main_arg5))) (Cert.Net.vector3 (X (Proc.devRef .tc main_arg6))) (X (Proc.devRef .tc main_v186)) := by
  after_results_simp <;> rfl

theorem layer3_arg1 : after (opsLayer3 (F := Ideal)) X (Proc.devRef .tc main_arg1) = X (Proc.devRef .tc main_arg1) := by
  after_results_simp <;> rfl
theorem layer3_arg2 : after (opsLayer3 (F := Ideal)) X (Proc.devRef .tc main_arg2) = X (Proc.devRef .tc main_arg2) := by
  after_results_simp <;> rfl
theorem layer3_arg3 : after (opsLayer3 (F := Ideal)) X (Proc.devRef .tc main_arg3) = X (Proc.devRef .tc main_arg3) := by
  after_results_simp <;> rfl
theorem layer3_arg4 : after (opsLayer3 (F := Ideal)) X (Proc.devRef .tc main_arg4) = X (Proc.devRef .tc main_arg4) := by
  after_results_simp <;> rfl
theorem layer3_arg5 : after (opsLayer3 (F := Ideal)) X (Proc.devRef .tc main_arg5) = X (Proc.devRef .tc main_arg5) := by
  after_results_simp <;> rfl
theorem layer3_arg6 : after (opsLayer3 (F := Ideal)) X (Proc.devRef .tc main_arg6) = X (Proc.devRef .tc main_arg6) := by
  after_results_simp <;> rfl
theorem layer3_arg7 : after (opsLayer3 (F := Ideal)) X (Proc.devRef .tc main_arg7) = X (Proc.devRef .tc main_arg7) := by
  after_results_simp <;> rfl
theorem layer3_arg8 : after (opsLayer3 (F := Ideal)) X (Proc.devRef .tc main_arg8) = X (Proc.devRef .tc main_arg8) := by
  after_results_simp <;> rfl
theorem layer3_arg9 : after (opsLayer3 (F := Ideal)) X (Proc.devRef .tc main_arg9) = X (Proc.devRef .tc main_arg9) := by
  after_results_simp <;> rfl
theorem layer3_arg10 : after (opsLayer3 (F := Ideal)) X (Proc.devRef .tc main_arg10) = X (Proc.devRef .tc main_arg10) := by
  after_results_simp <;> rfl
theorem layer3_arg11 : after (opsLayer3 (F := Ideal)) X (Proc.devRef .tc main_arg11) = X (Proc.devRef .tc main_arg11) := by
  after_results_simp <;> rfl
theorem layer3_deg : after (opsLayer3 (F := Ideal)) X (Proc.devRef .tc main_v6) = X (Proc.devRef .tc main_v6) := by
  after_results_simp <;> rfl

/-- The piece keeps what later pieces read. -/
theorem holds_layer3 (h : Holds m c X) : Holds m c (after (opsLayer3 (F := Ideal)) X) where
  a1 := (layer3_arg1 X).trans h.a1
  a2 := (layer3_arg2 X).trans h.a2
  a3 := (layer3_arg3 X).trans h.a3
  a4 := (layer3_arg4 X).trans h.a4
  a5 := (layer3_arg5 X).trans h.a5
  a6 := (layer3_arg6 X).trans h.a6
  a7 := (layer3_arg7 X).trans h.a7
  a8 := (layer3_arg8 X).trans h.a8
  a9 := (layer3_arg9 X).trans h.a9
  a10 := (layer3_arg10 X).trans h.a10
  a11 := (layer3_arg11 X).trans h.a11
  deg := (layer3_deg X).trans h.deg

/-- THE LAYER: from contents that hold the arguments and the degree column, with features `H` in the input buffer, the
    output buffer ends at the layer function of `H`. -/
theorem layer3_value (h : Holds m c X) (H : Cert.Net.FArr S100000x128) (hH : X (Proc.devRef .tc main_v186) = H) :
    after (opsLayer3 (F := Ideal)) X (Proc.devRef .tc main_v246)
      = Cert.Net.layer3 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) H := by
  rw [layer3_out, h.deg, h.a9, h.a10, h.a1, h.a2, h.a3, h.a4, h.a5, h.a6, hH]
  rfl

end Cert.ReferenceIdeal.Stage

end
-- ==== Proof.ReferenceTail.lean ====
/-
  The last piece of the reference program: the readout.

  Its twenty operations take the per-graph mean of the features the last layer left (a scatter-add over the graph ids
  divided by the clamped node counts), project it by the [128, 32] matrix and add the bias row.
-/
import proofs.«124945_j59390807769652_1_alg».proof.Proof.ReferenceHolds

set_option maxRecDepth 16384
set_option maxHeartbeats 4000000

noncomputable section

namespace Cert.ReferenceIdeal.Stage

open Cert.ReferenceIdeal Cert.ReferenceIdeal.Gen Cert.ReferenceIdeal.RunP Idealize.ShloMosaic Idealize.ShloMosaic.TcCoe Idealize.SL.Sem Idealize.ShloMosaic.StableHlo

variable (m : (ℓ : Loc nD τ sig) → Buf (Elt Ideal) ℓ) (c : Dev nD) (X : Valuation τ sig (Elt Ideal))

/-- The result buffer, from any contents. -/
theorem tail_out : after (opsTail (F := Ideal)) X (Proc.devRef .tc main_v262)
    = Cert.Net.readout (X (Proc.devRef .tc main_arg11)) (X (Proc.devRef .tc main_arg7)) (X (Proc.devRef .tc main_arg8)) (X (Proc.devRef .tc main_v246)) := by
  after_results_simp <;> rfl

/-- THE READOUT: from contents that hold the arguments, with features `H` in the last layer's buffer. -/
theorem tail_value (h : Holds m c X) (H : Cert.Net.FArr S100000x128) (hH : X (Proc.devRef .tc main_v246) = H) :
    after (opsTail (F := Ideal)) X (Proc.devRef .tc main_v262) = Cert.Net.readout (m ((c.tc : Thread nD τ).loc main_arg11)) (m ((c.tc : Thread nD τ).loc main_arg7)) (m ((c.tc : Thread nD τ).loc main_arg8)) H := by
  rw [tail_out, h.a11, h.a7, h.a8, hH]

end Cert.ReferenceIdeal.Stage

end
-- ==== Proof.LibFoldAppend.lean ====
/-
  The host operations' fold over a list that is two lists in a row.

  What a straight line of host operations leaves in the buffers is a fold of the operations' results over the contents it
  starts from. Running two lines one after the other is running the second from what the first leaves: the fold over an
  appended list is the second list's fold over the first list's fold. This is what lets a long program be read piece by
  piece, each piece as a function of the contents it finds.
-/
import Idealize.ShloMosaic.Lib.StableHlo.Run

namespace Cert.Lib

open Idealize.ShloMosaic Idealize.ShloMosaic.StableHlo

/-- The fold over `l₁ ++ l₂` from `V` is the fold over `l₂` from the fold over `l₁` from `V`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Lib
-- ==== Proof.ReferenceValue.lean ====
/-
  The reference program's value: its result is the network function of its arguments.

  The program's operation list is six pieces in a row, so the fold of its operations over the launch's contents is the
  six pieces' folds one inside the other. The first leaves the degree column; each layer piece, from contents that hold
  the arguments, the degree column and the previous features, leaves the layer function of those features and keeps the
  rest; the last piece reads the readout off the last features. So the result buffer ends at the network of the argument
  arrays, and every weakly fair execution ends with it there.
-/
import proofs.«124945_j59390807769652_1_alg».proof.Proof.ReferenceHead
import proofs.«124945_j59390807769652_1_alg».proof.Proof.ReferenceLayer0
import proofs.«124945_j59390807769652_1_alg».proof.Proof.ReferenceLayer1
import proofs.«124945_j59390807769652_1_alg».proof.Proof.ReferenceLayer2
import proofs.«124945_j59390807769652_1_alg».proof.Proof.ReferenceLayer3
import proofs.«124945_j59390807769652_1_alg».proof.Proof.ReferenceTail
import proofs.«124945_j59390807769652_1_alg».proof.Proof.LibFoldAppend

set_option maxRecDepth 16384
set_option maxHeartbeats 4000000

noncomputable section

namespace Cert.ReferenceIdeal.NetValue

open Cert.ReferenceIdeal Cert.ReferenceIdeal.Gen Cert.ReferenceIdeal.RunP Idealize.ShloMosaic Idealize.ShloMosaic.TcCoe Idealize.SL.Sem Idealize.ShloMosaic.StableHlo Cert.ReferenceIdeal.Stage

variable (m : (ℓ : Loc nD τ sig) → Buf (Elt Ideal) ℓ)

/-- The fold of all 318 operations over the launch's contents, at the result buffer: the network of the arguments. -/
theorem value (c : Dev nD) : after (ops (F := Ideal)) (launchContents m c) (Proc.devRef .tc main_v262)
    = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [ops_split, Cert.Lib.after_append, Cert.Lib.after_append, Cert.Lib.after_append, Cert.Lib.after_append, Cert.Lib.after_append]
  have h0 := holds_head m c
  have v0 := head_features m c
  have h1 := holds_layer0 m c _ h0
  have v1 := layer0_value m c _ h0 _ v0
  have h2 := holds_layer1 m c _ h1
  have v2 := layer1_value m c _ h1 _ v1
  have h3 := holds_layer2 m c _ h2
  have v3 := layer2_value m c _ h2 _ v2
  have h4 := holds_layer3 m c _ h3
  have v4 := layer3_value m c _ h3 _ v3
  exact tail_value m c _ h4 _ v4

/-- Every weakly fair execution terminates, without a fault, with the result at the network of the arguments and the
    arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v262) = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (value m c), (h c).2⟩) (RunP.run (F := Ideal) m ρ)

end Cert.ReferenceIdeal.NetValue

end
-- ==== Proof.lean ====
/-
  A four-layer graph network with a per-graph mean readout: the kernel program against its reference, over the
  extended reals.

  Both programs compute, from node features x₀ [100000, 128], 1.6 million edges and stacked parameters,
      readout (layer₃ (layer₂ (layer₁ (layer₀ x₀)))),
  where a layer takes h to  normalise z γ β (colMean z) (invDev z)  with  z = perceptron h (aggregate h) W₁ b₁ W₂ b₂
  (Proof/Net.lean, Proof/Layer.lean). The aggregation over the edges, the column statistics and the readout are the same
  host operations in both programs. They differ in the two dense stages of each layer: the reference computes the
  perceptron max((h + a)·W₁ + b₁, 0)·W₂ + b₂ and the normalisation max((γ ⊙ (z − μ)) ⊙ s + β, 0) as whole-array host
  operations; the kernel program computes each in a pipelined launch, twenty blocks of 5000 rows, the matrix products on
  operands rounded to bf16. Over the extended reals rounding is the identity, a product accumulated into zero is the
  host's product, and both stages are row-local, so each launch leaves in its output array exactly the whole-array
  stage of what it found (Proof/LibPerceptronBlock.lean, Proof/Launch0.lean … Launch7.lean). No sum or product is
  reordered and no factor is moved across a sum, so the inputs' finiteness is never used.

  The kernel program's run is read from segment boundary to segment boundary (Proof/KernelResult.lean, KernelLayer0 …
  KernelLayer3, KernelTail, KernelValue); the reference's run is its operation list's fold, read piece by piece
  (Proof/ReferenceRun.lean, ReferenceHead … ReferenceTail, ReferenceValue). Both end at `Cert.Net.net` of their
  arguments, which agree.
-/
import proofs.«124945_j59390807769652_1_alg».proof.Defs
import proofs.«124945_j59390807769652_1_alg».proof.Proof.Gen.Kernel
import proofs.«124945_j59390807769652_1_alg».proof.Proof.Gen.Kernel.Frame
import proofs.«124945_j59390807769652_1_alg».proof.Proof.Gen.KernelIdeal
import proofs.«124945_j59390807769652_1_alg».proof.Proof.Gen.KernelIdeal.Frame
import proofs.«124945_j59390807769652_1_alg».proof.Proof.Gen.ReferenceIdeal
import proofs.«124945_j59390807769652_1_alg».proof.Proof.Gen.Pre_finite_inputs
import proofs.«124945_j59390807769652_1_alg».proof.Proof.KernelValue
import proofs.«124945_j59390807769652_1_alg».proof.Proof.ReferenceValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories that agree on the arguments both programs end with the network of the arguments in their result. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.NetValue.run m ρ, ?_⟩
  refine (θ_run Cert.ReferenceIdeal.defs _ _).mono (fun _ h c => ⟨(h c).1.trans ?_, (h c).2⟩)
    (Cert.ReferenceIdeal.NetValue.run m' ρ')
  obtain ⟨e0, e1, e2, e3, e4, e5, e6, e7, e8, e9, e10, e11⟩ := hagree c
  rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
